-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x128x8 : Shape := ⟨3, ![1024, 128, 8]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x128x8 : S_.BroadcastsInDim S1024x128x8 (![] : Fin 0 → Fin S1024x128x8.rank)
  reducesTo_S1024x128x8_S_d0_1_2 : S1024x128x8.ReducesTo [0, 1, 2] S_

variable [Facts]

def fn {F : FTy → Type} [FloatOps F] (main_arg0 : FVec F S512x1024 .f32) (main_arg1 : FVec F S1024x128x8 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x128x8 .f32 := Host.absf main_arg1
  let main_cst_0 : FVec F S_ .f32 := constant S_ .f32 0x7F800000#32
  let main_v5 : FVec F S1024x128x8 .f32 := broadcastInDim S1024x128x8 ![] bcast_S_S1024x128x8 main_cst_0
  let main_v6 : IVec S1024x128x8 1 := cmpf .olt main_v4 main_v5
  let main_c_1 : IVec S_ 1 := constantI S_ 1 1#1
  let main_v7 : IVec S_ 1 := (fun x v => Host.reduce IntOp.andi x v reducesTo_S1024x128x8_S_d0_1_2 h_S_) main_v6 main_c_1
  let main_v8 : IVec S_ 1 := andi main_v3 main_v7
  main_v8
-- ==== Kernel.lean ====
abbrev S512x1024 : Shape := ⟨2, ![512, 1024]⟩
abbrev S1024x128x8 : Shape := ⟨3, ![1024, 128, 8]⟩
abbrev S8x128x1024 : Shape := ⟨3, ![8, 128, 1024]⟩
abbrev S8x128x512 : Shape := ⟨3, ![8, 128, 512]⟩
abbrev S1x128x1024 : Shape := ⟨3, ![1, 128, 1024]⟩
abbrev S1x128x512 : Shape := ⟨3, ![1, 128, 512]⟩
abbrev S128x1024 : Shape := ⟨2, ![128, 1024]⟩
abbrev S128x512 : Shape := ⟨2, ![128, 512]⟩
abbrev S512x1152 : Shape := ⟨2, ![512, 1152]⟩
abbrev S8x128x128 : Shape := ⟨3, ![8, 128, 128]⟩
abbrev S128x1152 : Shape := ⟨2, ![128, 1152]⟩
abbrev S128x128 : Shape := ⟨2, ![128, 128]⟩
abbrev S8x128x32 : Shape := ⟨3, ![8, 128, 32]⟩
abbrev S128x128x32 : Shape := ⟨3, ![128, 128, 32]⟩
abbrev S1x128x128 : Shape := ⟨3, ![1, 128, 128]⟩
abbrev S128x128x1 : Shape := ⟨3, ![128, 128, 1]⟩
abbrev S1x128x32 : Shape := ⟨3, ![1, 128, 32]⟩
abbrev S128x32 : Shape := ⟨2, ![128, 32]⟩
abbrev S128x1x32 : Shape := ⟨3, ![128, 1, 32]⟩

abbrev nBuf : Space → Nat
  | .hbm => 5
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S1024x128x8, .f32⟩
  | .hbm, ⟨2, _⟩ => ⟨S8x128x1024, .f32⟩
  | .hbm, ⟨3, _⟩ => ⟨S8x128x512, .f32⟩
  | .hbm, ⟨4, _⟩ => ⟨S512x1152, .f32⟩
  | .local _ .vmem, ⟨0, _⟩ => ⟨S512x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x512, .f32⟩
  | .local _ .vmem, ⟨4, _⟩ => ⟨S1x128x512, .f32⟩
  | .local _ .vmem, ⟨5, _⟩ => ⟨S128x1024, .f32⟩
  | .local _ .vmem, ⟨6, _⟩ => ⟨S128x1024, .f32⟩
  | .local _ .vmem, ⟨7, _⟩ => ⟨S8x128x128, .f32⟩
  | .local _ .vmem, ⟨8, _⟩ => ⟨S8x128x128, .f32⟩
  | .local _ .vmem, ⟨9, _⟩ => ⟨S8x128x128, .f32⟩
  | .local _ .vmem, ⟨10, _⟩ => ⟨S8x128x128, .f32⟩
  | .local _ .vmem, ⟨11, _⟩ => ⟨S128x1152, .f32⟩
  | .local _ .vmem, ⟨12, _⟩ => ⟨S128x1152, .f32⟩
  | .local _ .vmem, ⟨13, _⟩ => ⟨S128x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg1 : BitVec 32 := BitVec.ofNat 32 (i 1).val
  let c3_i32 : BitVec 32 := 3#32
  let v393 : BitVec 1 := Scalar.cmpi .eq arg1 c3_i32
  let v394 : BitVec 32 := Scalar.extui v393
  let c0_i32_22 : BitVec 32 := 0#32
  let v395 : BitVec 1 := Scalar.cmpi .ne v394 c0_i32_22
  v395

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x1152 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S1024x128x8_S8x128x1024_2_1_0 : S1024x128x8.Transposes [2, 1, 0] S8x128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S512x1024_S512x1024_0_0 : ∀ a, (![0, 0] : Fin 2 → Nat) a + S512x1024.size a ≤ S512x1024.size a
  h_S512x1024 : 0 < S512x1024.numel
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1024_S128x1024_0_0 : ∀ a, (![0, 0] : Fin 2 → Nat) a + S128x1024.size a ≤ S128x1024.size a
  h_S128x1024 : 0 < S128x1024.numel
  inb_S128x1152_S128x1024_0_0 : ∀ a, (![0, 0] : Fin 2 → Nat) a + S128x1024.size a ≤ S128x1152.size a
  inb_S8x128x128_S8x128x128_0_0_0 : ∀ a, (![0, 0, 0] : Fin 3 → Nat) a + S8x128x128.size a ≤ S8x128x128.size a
  h_S8x128x128 : 0 < S8x128x128.numel
  shapeCasts_S8x128x128_S8x128x128 : S8x128x128.ShapeCasts S8x128x128
  slices_S8x128x128_o0_0_0_S8x128x32 : S8x128x128.Slices ![0, 0, 0] S8x128x32
  slices_S8x128x128_o0_0_0_S1x128x128 : S8x128x128.Slices ![0, 0, 0] S1x128x128
  shapeCasts_S1x128x128_S128x128 : S1x128x128.ShapeCasts S128x128
  shapeCasts_S128x128_S128x128x1 : S128x128.ShapeCasts S128x128x1
  slices_S8x128x32_o0_0_0_S1x128x32 : S8x128x32.Slices ![0, 0, 0] S1x128x32
  shapeCasts_S1x128x32_S128x32 : S1x128x32.ShapeCasts S128x32
  shapeCasts_S128x32_S128x1x32 : S128x32.ShapeCasts S128x1x32
  broadcasts_S128x128x1_S128x128x32 : S128x128x1.Broadcasts S128x128x32
  broadcasts_S128x1x32_S128x128x32 : S128x1x32.Broadcasts S128x128x32
  slices_S8x128x128_o1_0_0_S1x128x128 : S8x128x128.Slices ![1, 0, 0] S1x128x128
  slices_S8x128x32_o1_0_0_S1x128x32 : S8x128x32.Slices ![1, 0, 0] S1x128x32
  slices_S8x128x128_o2_0_0_S1x128x128 : S8x128x128.Slices ![2, 0, 0] S1x128x128
  slices_S8x128x32_o2_0_0_S1x128x32 : S8x128x32.Slices ![2, 0, 0] S1x128x32
  slices_S8x128x128_o3_0_0_S1x128x128 : S8x128x128.Slices ![3, 0, 0] S1x128x128
  slices_S8x128x32_o3_0_0_S1x128x32 : S8x128x32.Slices ![3, 0, 0] S1x128x32
  slices_S8x128x128_o4_0_0_S1x128x128 : S8x128x128.Slices ![4, 0, 0] S1x128x128
  slices_S8x128x32_o4_0_0_S1x128x32 : S8x128x32.Slices ![4, 0, 0] S1x128x32
  slices_S8x128x128_o5_0_0_S1x128x128 : S8x128x128.Slices ![5, 0, 0] S1x128x128
  slices_S8x128x32_o5_0_0_S1x128x32 : S8x128x32.Slices ![5, 0, 0] S1x128x32
  slices_S8x128x128_o6_0_0_S1x128x128 : S8x128x128.Slices ![6, 0, 0] S1x128x128
  slices_S8x128x32_o6_0_0_S1x128x32 : S8x128x32.Slices ![6, 0, 0] S1x128x32
  slices_S8x128x128_o7_0_0_S1x128x128 : S8x128x128.Slices ![7, 0, 0] S1x128x128
  slices_S8x128x32_o7_0_0_S1x128x32 : S8x128x32.Slices ![7, 0, 0] S1x128x32
  reduces_S128x128x32_S128x128 : S128x128x32.Reduces [2] S128x128
  slices_S8x128x128_o0_0_32_S8x128x32 : S8x128x128.Slices ![0, 0, 32] S8x128x32
  slices_S8x128x128_o0_0_64_S8x128x32 : S8x128x128.Slices ![0, 0, 64] S8x128x32
  slices_S8x128x128_o0_0_96_S8x128x32 : S8x128x128.Slices ![0, 0, 96] S8x128x32
  transposes_S128x128_p1_0_S128x128 : S128x128.Transposes [1, 0] S128x128
  inb_S128x1152_S128x128_0_1024 : ∀ a, (![0, 1024] : Fin 2 → Nat) a + S128x128.size a ≤ S128x1152.size a
  dot_S128x1024_S512x1024_S128x512_1_1_0_0_n_n_wf : DotDims.WF S128x1024 S512x1024 S128x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S8x128x1024.size a
  hwx0_1 : ∀ i : grid0.Coords, EltTy.bits .f32 = 32 ∨ (Rect.block (s := S8x128x1024) S1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S8x128x512.size a
  hwx0_2 : ∀ i : grid0.Coords, EltTy.bits .f32 = 32 ∨ (Rect.block (s := S8x128x512) S1x128x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S512x1024.size a
  hwx1_0 : ∀ i : grid1.Coords, EltTy.bits .f32 = 32 ∨ (Rect.block (s := S512x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x128.size a ≤ S8x128x512.size a
  hwx1_1 : ∀ i : grid1.Coords, EltTy.bits .f32 = 32 ∨ (Rect.block (s := S8x128x512) S8x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x128.size a ≤ S8x128x512.size a
  hwx1_2 : ∀ i : grid1.Coords, EltTy.bits .f32 = 32 ∨ (Rect.block (s := S8x128x512) S8x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1152.size a ≤ S512x1152.size a
  hwx1_3 : ∀ i : grid1.Coords, EltTy.bits .f32 = 32 ∨ (Rect.block (s := S512x1152) S128x1152.size (cc1_transform_3 i) (hinb1_3 i)).WholeWords (EltTy.packing .f32)

variable [Facts₀]

def dot_S128x1024_S512x1024_S128x512_1_1_0_0_n_n : DotDims S128x1024 S512x1024 S128x512 where
  lhsContracting := [1]
  rhsContracting := [1]
  lhsNonContracting := [0]
  rhsNonContracting := [0]
  lhsBatch := []
  rhsBatch := []
  wf := dot_S128x1024_S512x1024_S128x512_1_1_0_0_n_n_wf

abbrev win0_0 : Pipeline.Window sig grid0 :=
  Pipeline.Window.ofSpec (Memref.whole main_arg0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x1152.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S512x1024 : Shape := ⟨2, ![512, 1024]⟩
abbrev S1024x128x8 : Shape := ⟨3, ![1024, 128, 8]⟩
abbrev S1024x1024 : Shape := ⟨2, ![1024, 1024]⟩
abbrev S512x128x8 : Shape := ⟨3, ![512, 128, 8]⟩
abbrev S1x512x128x8 : Shape := ⟨4, ![1, 512, 128, 8]⟩
abbrev S512x1x128x8 : Shape := ⟨4, ![512, 1, 128, 8]⟩
abbrev S512x512x128x8 : Shape := ⟨4, ![512, 512, 128, 8]⟩
abbrev S_ : Shape := ⟨0, ![]⟩
abbrev S512x512x128 : Shape := ⟨3, ![512, 512, 128]⟩
abbrev S512x128 : Shape := ⟨2, ![512, 128]⟩
abbrev S512x1152 : Shape := ⟨2, ![512, 1152]⟩

abbrev nBuf : Space → Nat
  | .hbm => 21
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x128x8, .f32⟩
  | .hbm, ⟨2, _⟩ => ⟨S1024x1024, .f32⟩
  | .hbm, ⟨3, _⟩ => ⟨S512x1024, .f32⟩
  | .hbm, ⟨4, _⟩ => ⟨S512x128x8, .f32⟩
  | .hbm, ⟨5, _⟩ => ⟨S1x512x128x8, .f32⟩
  | .hbm, ⟨6, _⟩ => ⟨S512x1x128x8, .f32⟩
  | .hbm, ⟨7, _⟩ => ⟨S512x512x128x8, .f32⟩
  | .hbm, ⟨8, _⟩ => ⟨S512x512x128x8, .f32⟩
  | .hbm, ⟨9, _⟩ => ⟨S512x512x128x8, .f32⟩
  | .hbm, ⟨10, _⟩ => ⟨S512x512x128x8, .f32⟩
  | .hbm, ⟨11, _⟩ => ⟨S_, .f32⟩
  | .hbm, ⟨12, _⟩ => ⟨S512x512x128, .f32⟩
  | .hbm, ⟨13, _⟩ => ⟨S512x512x128, .f32⟩
  | .hbm, ⟨14, _⟩ => ⟨S512x512x128, .f32⟩
  | .hbm, ⟨15, _⟩ => ⟨S_, .f32⟩
  | .hbm, ⟨16, _⟩ => ⟨S512x128, .f32⟩
  | .hbm, ⟨17, _⟩ => ⟨S_, .f32⟩
  | .hbm, ⟨18, _⟩ => ⟨S512x128, .f32⟩
  | .hbm, ⟨19, _⟩ => ⟨S512x128, .f32⟩
  | .hbm, ⟨20, _⟩ => ⟨S512x1152, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S1024x128x8_S1024x1024 : S1024x128x8.ShapeCasts S1024x1024
  shapeCasts_S512x1024_S512x128x8 : S512x1024.ShapeCasts S512x128x8
  bcast_S512x128x8_S1x512x128x8_1_2_3 : S512x128x8.BroadcastsInDim S1x512x128x8 (![1, 2, 3] : Fin 3 → Fin S1x512x128x8.rank)
  bcast_S512x128x8_S512x1x128x8_0_2_3 : S512x128x8.BroadcastsInDim S512x1x128x8 (![0, 2, 3] : Fin 3 → Fin S512x1x128x8.rank)
  bcast_S1x512x128x8_S512x512x128x8_0_1_2_3 : S1x512x128x8.BroadcastsInDim S512x512x128x8 (![0, 1, 2, 3] : Fin 4 → Fin S512x512x128x8.rank)
  bcast_S512x1x128x8_S512x512x128x8_0_1_2_3 : S512x1x128x8.BroadcastsInDim S512x512x128x8 (![0, 1, 2, 3] : Fin 4 → Fin S512x512x128x8.rank)
  reducesTo_S512x512x128x8_S512x512x128_d3 : S512x512x128x8.ReducesTo [3] S512x512x128
  h_S_ : 0 < S_.numel
  reducesTo_S512x512x128_S512x128_d0 : S512x512x128.ReducesTo [0] S512x128
  bcast_S_S512x128 : S_.BroadcastsInDim S512x128 (![] : Fin 0 → Fin S512x128.rank)
  concatenates_S512x1024_S512x128_S512x1152_d1 : Shape.Concatenates [S512x1024, S512x128] S512x1152 1
  dot_S512x1024_S1024x1024_S512x1024_1_0_0_1_n_n_wf : DotDims.WF S512x1024 S1024x1024 S512x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

class Facts : Prop extends Facts₀ where

variable [Facts]
-- ==== Proof.Step.lean ====
/-
  The arithmetic of one grid point of each kernel, as pure functions of the blocks the body loads.

  Projection kernel (grid point k): the output block is the matrix product of T's slab k, an [128, 1024]
  matrix over (o, in), with x, a [512, 1024] matrix over (b, in), contracted along `in`.

  Pairwise kernel (grid point (i, j)): with `mi` the [8, 128, 128] block of M over (k, o, rows of row-block i)
  and `mj` the one over (k, o, rows of row-block j), the accumulator `acc : [128, 128]` over (o, r) becomes
  acc[o, r] + sum over the 128 rows s of block j of exp (- sum over k of |mi[k, o, r] - mj[k, o, s]|),
  the inner sum taken in four chunks of 32 rows. At j = 0 the accumulator starts from zero; at j = 3 the
  output block's columns 1024 .. 1151 receive the transpose of (acc - 1).
-/
import proofs.«178989_j33483565040179_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The accumulator after one grid point of the pairwise kernel, from the two blocks of M and the accumulator
    the point starts from: the payloads of the body's parts composed in the body's order. -/
def accStep (mi mj : Vec F S8x128x128 .f32) (acc : Vec F S128x128 .f32) : Vec F S128x128 .f32 :=
  let v4 := k1_pay4 mi
  let v6 := k1_pay5 mj
  let v7 := k1_pay6 (F := F)
  let v8 := k1_pay7 mj
  let v42 := k1_pay8 mi mj
  let v45 := k1_pay9 mi
  let v46 := k1_pay10 mj
  let v102 := k1_pay11 v4 v7 v8 v42 v45 v46
  let v103 := k1_pay12 v6
  let cst_9 : F .f32 := Scalar.ofBits .f32 0x00000000#32
  let v159 := k1_pay13 v4 v103 cst_9
  let v162 := k1_pay14 v4
  let v163 := k1_pay15 v103
  let v197 := k1_pay16 v4 v102 v103 v159 v162 v163
  let v198 := k1_pay17 v6
  let v210 := k1_pay18 v4 v6
  let v220 := k1_pay19 v4 v6
  let v276 := k1_pay20 v4 v198 v210 v220
  let v279 := k1_pay21 v4
  let v280 := k1_pay22 v198
  let v292 := k1_pay23 v197 v276 v279 v280
  let v293 := k1_pay24 v6
  let v327 := k1_pay25 v4 v6
  let v337 := k1_pay26 v4 v6
  k1_pay1 (k1_pay27 v4 v292 v293 v327 v337 acc)

/-- The accumulator a grid point's sum starts from: zero at the first column block, else what the point before left. -/
def accZero : Vec F S128x128 .f32 := k1_pay3 (F := F)

/-- What the last column block stores into the output block's columns 1024 .. 1151: the transpose of (acc - 1). -/
def outTail (acc : Vec F S128x128 .f32) : Vec F S128x128 .f32 := k1_pay2 acc

/-- The projection kernel's output block from T's slab and x. -/
def projBlock (tk : Vec F S1x128x1024 .f32) (x : Vec F S512x1024 .f32) : Vec F S1x128x512 .f32 := k0_pay1 tk x

end Cert.KernelIdeal.Hand

end
-- ==== Proof.KernelFn.lean ====
/-
  The kernel's result as ONE function of its two argument arrays, built from the per-point arithmetic of
  Step.lean with explicit index arithmetic.

  `mAll x tt` is the projection M over (k, o, b): grid point k of the first kernel writes block k, the matrix
  product of slab k of the transposed table with x.
  `accAt M i n` is the pairwise kernel's accumulator for row block i after its first n column blocks.
  `kernelOut x tt` is the [512, 1152] result: columns below 1024 copy x; column 1024 + o of row 128 i + r is
  the transposed (accumulator of row block i after all four column blocks, minus one) at (r, o).
-/
import proofs.«178989_j33483565040179_2_alg».proof.Proof.Step
import Idealize.ShloMosaic.Lib.ValueIdx

noncomputable section

namespace Cert.KernelIdeal.Hand

open Idealize.ShloMosaic Idealize.ShloMosaic.ValueIdx Cert.KernelIdeal

variable {F : FTy → Type} [FloatOps F]

/-- Slab k of the transposed table [8, 128, 1024], as the [1, 128, 1024] block the first kernel loads. -/
def slab (tt : Vec F S8x128x1024 .f32) (k : Fin 8) : Vec F S1x128x1024 .f32 :=
  fun y => tt (ix3 k (y 1 : Fin 128) (y 2 : Fin 1024))

/-- The projection over (k, o, b): block k is the first kernel's product at grid point k. -/
def mAll (x : Vec F S512x1024 .f32) (tt : Vec F S8x128x1024 .f32) : Vec F S8x128x512 .f32 :=
  fun y => projBlock (slab tt (y 0 : Fin 8)) x (ix3 (0 : Fin 1) (y 1 : Fin 128) (y 2 : Fin 512))

/-- Rows 128 i .. 128 i + 127 of M's last axis: the [8, 128, 128] block the second kernel loads for block i. -/
def blkM (M : Vec F S8x128x512 .f32) (i : Fin 4) : Vec F S8x128x128 .f32 :=
  fun y => M (ix3 (y 0 : Fin 8) (y 1 : Fin 128)
    (⟨128 * i.val + (y 2 : Fin 128).val, by
      have h1 : i.val < 4 := i.isLt
      have h2 : (y 2 : Fin 128).val < 128 := (y 2 : Fin 128).isLt
      omega⟩ : Fin 512))

/-- The accumulator of row block i after its first n column blocks (n ≤ 4). -/
def accAt (M : Vec F S8x128x512 .f32) (i : Fin 4) : Nat → Vec F S128x128 .f32
  | 0 => accZero
  | n + 1 => if h : n < 4 then accStep (blkM M i) (blkM M ⟨n, h⟩) (accAt M i n) else accAt M i n

/-- The kernel's [512, 1152] result from x and the transposed table. -/
def kernelOut (x : Vec F S512x1024 .f32) (tt : Vec F S8x128x1024 .f32) : Vec F S512x1152 .f32 :=
  fun y =>
    if h : (y 1 : Fin 1152).val < 1024 then x (ix2 (y 0 : Fin 512) (⟨(y 1 : Fin 1152).val, h⟩ : Fin 1024))
    else outTail (accAt (mAll x tt) (⟨(y 0 : Fin 512).val / 128, by
        have h0 : (y 0 : Fin 512).val < 512 := (y 0 : Fin 512).isLt
        omega⟩ : Fin 4) 4)
      (ix2 (⟨(y 0 : Fin 512).val % 128, Nat.mod_lt _ (by decide)⟩ : Fin 128)
           (⟨(y 1 : Fin 1152).val - 1024, by
             have h1 : (y 1 : Fin 1152).val < 1152 := (y 1 : Fin 1152).isLt
             omega⟩ : Fin 128))

end Cert.KernelIdeal.Hand

end
-- ==== Proof.LibTileSum.lean ====
/-
  A sum over positions, taken tile by tile.  When N positions are covered by T tiles of L lanes each (N ≤ T·L, the last
  tiles possibly overhanging), the sum of f over the N positions is the sum over the tiles of the sum over the lanes of
  f at position t·L + l, the lanes at positions past N contributing zero.  Only commutativity and associativity of the
  addition are used, so the law holds in every commutative additive monoid — on the extended reals without any finiteness.
-/
import Mathlib.Algebra.BigOperators.Fin
import Mathlib.Algebra.BigOperators.Intervals

namespace Cert.LibTileSum

open Finset

variable {M : Type*} [AddCommMonoid M]

/-- T full tiles of L lanes are the first T·L positions. -/
theorem sum_range_tiles (g : ℕ → M) (L : ℕ) :
    ∀ T : ℕ, ∑ t ∈ range T, ∑ l ∈ range L, g (t * L + l) = ∑ n ∈ range (T * L), g n
  | 0 => by simp
  | T + 1 => by rw [sum_range_succ, sum_range_tiles g L T, Nat.succ_mul, sum_range_add]

/-- The sum over N positions is the masked sum over T tiles of L lanes, when the tiles cover the positions. -/
theorem sum_tiles (f : ℕ → M) (T L N : ℕ) (h : N ≤ T * L) :
    ∑ n : Fin N, f n.val
      = ∑ t : Fin T, ∑ l : Fin L, (if t.val * L + l.val < N then f (t.val * L + l.val) else 0) := by
  have inner : ∀ t : Fin T, (∑ l : Fin L, (if t.val * L + l.val < N then f (t.val * L + l.val) else 0))
      = ∑ l ∈ range L, (fun n => if n < N then f n else 0) (t.val * L + l) :=
    fun t => Fin.sum_univ_eq_sum_range (fun l => (fun n => if n < N then f n else 0) (t.val * L + l)) L
  rw [Fin.sum_univ_eq_sum_range (fun n => f n) N, Finset.sum_congr rfl fun t _ => inner t,
    Fin.sum_univ_eq_sum_range (fun t => ∑ l ∈ range L, (fun n => if n < N then f n else 0) (t * L + l)) T,
    sum_range_tiles (fun n => if n < N then f n else 0) L T, ← sum_filter]
  refine Finset.sum_congr ?_ fun _ _ => rfl
  ext n
  simp only [mem_filter, mem_range]
  omega

end Cert.LibTileSum
-- ==== Proof.MathSpec.lean ====
/-
  The function both programs compute, written index by index on the extended reals.

  From x over (b, i) and the table T over (i, o, k):
    proj x T k o b  =  ∑ i, x[b, i] · T[i, o, k]                    (the projection M)
    cell …  o r s   =  exp (−∑ k, |mi[k, o, r] − mj[k, o, s]|)       (one pair of rows, inside two blocks of M)
    sim M o b s     =  exp (−∑ k, |M k o b − M k o s|)                (one pair of rows of the whole M)
    tailVal M b o   =  (∑ s, sim M o b s) − 1
    G x T           :  columns below 1024 copy x, column 1024 + o of row b is tailVal (proj x T) b o.
  |d| is max d (−d) and every sum is a sum in the commutative additive monoid of the extended reals, so no
  finiteness is used anywhere.  The last two laws cut a sum over 128 (over 512) positions into 4 chunks of 32
  lanes (4 blocks of 4 chunks of 32 lanes).
-/
import Idealize.ShloMosaic.PureOps.Ideal.Laws
import Idealize.ShloMosaic.Lib.ValueIdx
import proofs.«178989_j33483565040179_2_alg».proof.Proof.LibTileSum

noncomputable section

namespace Cert.KernelIdeal.Math

open Idealize.ShloMosaic Idealize.ShloMosaic.ValueIdx

/-- |a − b| on the extended reals, as the ideal instance spells an absolute value. -/
def dist (a b : EReal) : EReal := max (a - b) (-(a - b))

/-- The projection M[k, o, b] = ∑ i, x[b, i] · T[i, o, k]. -/
def proj (x : FVec Ideal ⟨2, ![512, 1024]⟩ .f32) (T : FVec Ideal ⟨3, ![1024, 128, 8]⟩ .f32)
    (k : Fin 8) (o : Fin 128) (b : Fin 512) : EReal :=
  ∑ i : Fin 1024, x (ix2 b i) * T (ix3 i o k)

/-- exp of minus the L1 distance between row r of one [8, 128, 128] block and row s of another, at output o. -/
def cell (mi mj : FVec Ideal ⟨3, ![8, 128, 128]⟩ .f32) (o r s : Fin 128) : EReal :=
  Ideal.exp (-(∑ k : Fin 8, dist (mi (ix3 k o r)) (mj (ix3 k o s))))

/-- exp of minus the L1 distance between rows b and s of M, at output o. -/
def sim (M : Fin 8 → Fin 128 → Fin 512 → EReal) (o : Fin 128) (b s : Fin 512) : EReal :=
  Ideal.exp (-(∑ k : Fin 8, dist (M k o b) (M k o s)))

/-- Column 1024 + o of row b: the sum over all rows s of sim, minus one. -/
def tailVal (M : Fin 8 → Fin 128 → Fin 512 → EReal) (b : Fin 512) (o : Fin 128) : EReal :=
  (∑ s : Fin 512, sim M o b s) - Ideal.ofBits .f32 0x3F800000#32

/-- The whole [512, 1152] result. -/
def G (x : FVec Ideal ⟨2, ![512, 1024]⟩ .f32) (T : FVec Ideal ⟨3, ![1024, 128, 8]⟩ .f32) :
    FVec Ideal ⟨2, ![512, 1152]⟩ .f32 :=
  fun y =>
    if h : (y 1 : Fin 1152).val < 1024 then x (ix2 (y 0 : Fin 512) (⟨(y 1 : Fin 1152).val, h⟩ : Fin 1024))
    else tailVal (proj x T) (y 0 : Fin 512) (⟨(y 1 : Fin 1152).val - 1024, by
      have h1 : (y 1 : Fin 1152).val < 1152 := (y 1 : Fin 1152).isLt
      omega⟩ : Fin 128)

/-- A sum over 128 positions is the sum over 4 chunks of 32 lanes. -/
theorem sum_128_chunks (f : Fin 128 → EReal) :
    ∑ s : Fin 128, f s = ∑ c : Fin 4, ∑ l : Fin 32, f ⟨c.val * 32 + l.val, by
      have hc := c.isLt; have hl := l.isLt; omega⟩ := by
  have h := Cert.LibTileSum.sum_tiles (fun n => if hn : n < 128 then f ⟨n, hn⟩ else 0) 4 32 128 (by decide)
  have hl : ∑ n : Fin 128, (fun n => if hn : n < 128 then f ⟨n, hn⟩ else 0) n.val = ∑ s : Fin 128, f s :=
    Finset.sum_congr rfl fun n _ => by
      show (if hn : n.val < 128 then f ⟨n.val, hn⟩ else 0) = f n
      rw [dif_pos n.isLt]
  rw [← hl, h]
  refine Finset.sum_congr rfl fun c _ => Finset.sum_congr rfl fun l _ => ?_
  have hlt : c.val * 32 + l.val < 128 := by have hc := c.isLt; have hl := l.isLt; omega
  rw [if_pos hlt]
  show (if hn : c.val * 32 + l.val < 128 then f ⟨c.val * 32 + l.val, hn⟩ else 0) = _
  rw [dif_pos hlt]

/-- A sum over 512 positions is the sum over 4 blocks of 128 rows. -/
theorem sum_512_blocks (f : Fin 512 → EReal) :
    ∑ s : Fin 512, f s = ∑ j : Fin 4, ∑ t : Fin 128, f ⟨128 * j.val + t.val, by
      have hj := j.isLt; have ht := t.isLt; omega⟩ := by
  have h := Cert.LibTileSum.sum_tiles (fun n => if hn : n < 512 then f ⟨n, hn⟩ else 0) 4 128 512 (by decide)
  have hl : ∑ n : Fin 512, (fun n => if hn : n < 512 then f ⟨n, hn⟩ else 0) n.val = ∑ s : Fin 512, f s :=
    Finset.sum_congr rfl fun n _ => by
      show (if hn : n.val < 512 then f ⟨n.val, hn⟩ else 0) = f n
      rw [dif_pos n.isLt]
  rw [← hl, h]
  refine Finset.sum_congr rfl fun j _ => Finset.sum_congr rfl fun t _ => ?_
  have hlt : j.val * 128 + t.val < 512 := by have hj := j.isLt; have ht := t.isLt; omega
  rw [if_pos hlt]
  show (if hn : j.val * 128 + t.val < 512 then f ⟨j.val * 128 + t.val, hn⟩ else 0) = _
  rw [dif_pos hlt]
  exact congrArg f (Fin.ext (by show j.val * 128 + t.val = 128 * j.val + t.val; omega))

end Cert.KernelIdeal.Math

end
-- ==== Proof.MathOps.lean ====
/-
  The layout and reduction operations of the pairwise kernel's body, read at an index at the ideal instance.

  One step of the unrolled k loop broadcasts row (o, r) of slab k of the first block along the 32 lanes and row
  (o, l) of slab k of a 32-row chunk of the second block along the 128 rows r; the two lemmas lhsBc_apply and
  rhsBc_apply read those two broadcasts at (o, r, l).  chunk_apply reads the chunk cut out of the second block,
  red_apply the sum over the lanes, and shapeCast_same says that a cast to the same shape changes nothing.
-/
import proofs.«178989_j33483565040179_2_alg».proof.Proof.Step
import proofs.«178989_j33483565040179_2_alg».proof.Proof.MathSpec
import Idealize.ShloMosaic.Lib.ValueLayout

noncomputable section

namespace Cert.KernelIdeal.Math

open Idealize.ShloMosaic Idealize.ShloMosaic.ValueIdx Cert.KernelIdeal

theorem absf_apply {s : Shape} (a : FVec Ideal s .f32) (i : s.Idx) : absf a i = max (a i) (-(a i)) := rfl

theorem exp_apply {s : Shape} (a : FVec Ideal s .f32) (i : s.Idx) : exp a i = Ideal.exp (a i) := rfl

/-- A cast to the same shape is the identity. -/
theorem shapeCast_same {s : Shape} {α : Type} (x : s.Idx → α) (h : s.ShapeCasts s) : shapeCast s x h = x :=
  funext fun j => shapeCast_apply x h j j rfl

/-- Slab kk of the first block, cast to [128, 128, 1] and broadcast along the lanes, at (o, r, l): the block at (kk, o, r). -/
theorem lhsBc_apply (v4 : FVec Ideal S8x128x128 .f32) (kk : Nat)
    (h : S8x128x128.Slices ![kk, 0, 0] S1x128x128) (h1 : S1x128x128.ShapeCasts S128x128)
    (h2 : S128x128.ShapeCasts S128x128x1) (h3 : S128x128x1.Broadcasts S128x128x32)
    (o r : Fin 128) (l : Fin 32) :
    broadcastTo S128x128x32 (shapeCast S128x128x1 (shapeCast S128x128
        (extractStridedSlice S1x128x128 ![kk, 0, 0] v4 h) h1) h2) h3 (ix3 o r l)
      = v4 (ix3 (⟨kk, Nat.lt_of_lt_of_le (Nat.lt_add_one kk) (h.2 0)⟩ : Fin 8) o r) := by
  refine (broadcastTo_apply _ h3 (ix3 o r l) (ix3 o r (0 : Fin 1)) (fun a => ?_)).trans ?_
  · match a with
    | ⟨0, _⟩ => show o.val = if (128 : Nat) = 1 then 0 else o.val; rw [if_neg (by decide)]
    | ⟨1, _⟩ => show r.val = if (128 : Nat) = 1 then 0 else r.val; rw [if_neg (by decide)]
    | ⟨2, _⟩ => show 0 = if (1 : Nat) = 1 then 0 else l.val; rw [if_pos rfl]
  refine (shapeCast_apply _ h2 (ix3 o r (0 : Fin 1)) (ix2 o r) (by
    rw [Shape.rowMajor_val_two, Shape.rowMajor_val_three]
    show o.val * 128 + r.val = (o.val * 128 + r.val) * 1 + 0
    omega)).trans ?_
  refine (shapeCast_1ab_ab_apply _ h1 o r).trans ?_
  exact extractStridedSlice_apply _ v4 h _ _ (fun a => by
    match a with
    | ⟨0, _⟩ => exact (Nat.add_zero _).symm
    | ⟨1, _⟩ => exact (Nat.zero_add _).symm
    | ⟨2, _⟩ => exact (Nat.zero_add _).symm)

/-- Slab kk of a 32-row chunk of the second block, cast to [128, 1, 32] and broadcast along the rows, at (o, r, l):
    the chunk at (kk, o, l). -/
theorem rhsBc_apply (v8 : FVec Ideal S8x128x32 .f32) (kk : Nat)
    (h : S8x128x32.Slices ![kk, 0, 0] S1x128x32) (h1 : S1x128x32.ShapeCasts S128x32)
    (h2 : S128x32.ShapeCasts S128x1x32) (h3 : S128x1x32.Broadcasts S128x128x32)
    (o r : Fin 128) (l : Fin 32) :
    broadcastTo S128x128x32 (shapeCast S128x1x32 (shapeCast S128x32
        (extractStridedSlice S1x128x32 ![kk, 0, 0] v8 h) h1) h2) h3 (ix3 o r l)
      = v8 (ix3 (⟨kk, Nat.lt_of_lt_of_le (Nat.lt_add_one kk) (h.2 0)⟩ : Fin 8) o l) := by
  refine (broadcastTo_apply _ h3 (ix3 o r l) (ix3 o (0 : Fin 1) l) (fun a => ?_)).trans ?_
  · match a with
    | ⟨0, _⟩ => show o.val = if (128 : Nat) = 1 then 0 else o.val; rw [if_neg (by decide)]
    | ⟨1, _⟩ => show 0 = if (1 : Nat) = 1 then 0 else r.val; rw [if_pos rfl]
    | ⟨2, _⟩ => show l.val = if (32 : Nat) = 1 then 0 else l.val; rw [if_neg (by decide)]
  refine (shapeCast_apply _ h2 (ix3 o (0 : Fin 1) l) (ix2 o l) (by
    rw [Shape.rowMajor_val_two, Shape.rowMajor_val_three]
    show o.val * 32 + l.val = (o.val * 1 + 0) * 32 + l.val
    omega)).trans ?_
  refine (shapeCast_1ab_ab_apply _ h1 o l).trans ?_
  exact extractStridedSlice_apply _ v8 h _ _ (fun a => by
    match a with
    | ⟨0, _⟩ => exact (Nat.add_zero _).symm
    | ⟨1, _⟩ => exact (Nat.zero_add _).symm
    | ⟨2, _⟩ => exact (Nat.zero_add _).symm)

/-- The 32-row chunk cut out of the second block from row c, at (k, o, l): the block at (k, o, c + l). -/
theorem chunk_apply (v6 : FVec Ideal S8x128x128 .f32) (c : Nat)
    (h : S8x128x128.Slices ![0, 0, c] S8x128x32) (k : Fin 8) (o : Fin 128) (l : Fin 32) :
    extractStridedSlice S8x128x32 ![0, 0, c] v6 h (ix3 k o l)
      = v6 (ix3 k o (⟨c + l.val, Nat.lt_of_lt_of_le (Nat.add_lt_add_left l.isLt c) (h.2 2)⟩ : Fin 128)) :=
  extractStridedSlice_apply _ v6 h _ _ (fun a => by
    match a with
    | ⟨0, _⟩ => exact (Nat.zero_add _).symm
    | ⟨1, _⟩ => exact (Nat.zero_add _).symm
    | ⟨2, _⟩ => rfl)

/-- The sum over the 32 lanes, at (o, r). -/
theorem red_apply (src : FVec Ideal S128x128x32 .f32) (h : S128x128x32.Reduces [2] S128x128)
    (hφ : FTy.f32 = FTy.f32 ∨ FTy.f32 = FTy.bf16) (hacc : (0x00000000#32 : BitVec 32) = 0x00000000#32) (o r : Fin 128) :
    multiReduction .add [2] S128x128 src 0x00000000#32 h hφ hacc (ix2 o r) = ∑ l : Fin 32, src (ix3 o r l) := by
  refine (Ideal.multiReduction_add_single src 0x00000000#32 h hφ hacc (ix2 o r)).trans ?_
  refine Finset.sum_congr rfl fun l _ => congrArg src (funext fun a => Fin.ext ?_)
  match a with
  | ⟨0, _⟩ => rfl
  | ⟨1, _⟩ => rfl
  | ⟨2, _⟩ => rfl

/-- The zero word is the extended real 0. -/
theorem scalar_zero : (Scalar.ofBits .f32 0x00000000#32 : Ideal .f32) = 0 := Ideal.ofBits_zero_f32

/-- The eight distances added one after the other from zero, negated by subtracting from zero, then exp: the cell. -/
theorem cell_eq (mi mj : FVec Ideal S8x128x128 .f32) (o r s : Fin 128) :
    Ideal.exp ((0 : EReal) - (0 + dist (mi (ix3 (0 : Fin 8) o r)) (mj (ix3 (0 : Fin 8) o s))
        + dist (mi (ix3 (1 : Fin 8) o r)) (mj (ix3 (1 : Fin 8) o s))
        + dist (mi (ix3 (2 : Fin 8) o r)) (mj (ix3 (2 : Fin 8) o s))
        + dist (mi (ix3 (3 : Fin 8) o r)) (mj (ix3 (3 : Fin 8) o s))
        + dist (mi (ix3 (4 : Fin 8) o r)) (mj (ix3 (4 : Fin 8) o s))
        + dist (mi (ix3 (5 : Fin 8) o r)) (mj (ix3 (5 : Fin 8) o s))
        + dist (mi (ix3 (6 : Fin 8) o r)) (mj (ix3 (6 : Fin 8) o s))
        + dist (mi (ix3 (7 : Fin 8) o r)) (mj (ix3 (7 : Fin 8) o s))))
      = cell mi mj o r s := by
  unfold cell
  rw [Fin.sum_univ_eight, zero_add, zero_sub]

end Cert.KernelIdeal.Math

end
-- ==== Proof.MathChunk0.lean ====
/-
  The first chunk (rows 0 .. 31 of the second block) of one grid point of the pairwise kernel, at (o, r): the
  payloads that hold its eight k steps, its exp and its lane sum add, to the running sum they start from, the sum
  over the 32 lanes l of the cell of rows r and l.
-/
import proofs.«178989_j33483565040179_2_alg».proof.Proof.MathOps

noncomputable section

namespace Cert.KernelIdeal.Math

open Idealize.ShloMosaic Idealize.ShloMosaic.ValueIdx Cert.KernelIdeal Cert.KernelIdeal.Gen

theorem chunk0_apply (mi mj : FVec Ideal S8x128x128 .f32) (v7 : FVec Ideal S128x128 .f32) (o r : Fin 128) :
    k1_pay11 (F := Ideal) (k1_pay4 mi) v7 (k1_pay7 mj) (k1_pay8 mi mj) (k1_pay9 mi) (k1_pay10 mj) (ix2 o r)
      = v7 (ix2 o r) + ∑ l : Fin 32, cell mi mj o r (⟨0 + l.val, by have := l.isLt; omega⟩ : Fin 128) := by
  simp only [k1_pay11, k1_pay10, k1_pay9, k1_pay8, k1_pay7, k1_pay5, k1_pay4, shapeCast_same, addf_apply, subf_apply, absf_apply, exp_apply,
    broadcast_apply, lhsBc_apply, rhsBc_apply, chunk_apply, scalar_zero]
  rw [red_apply]
  simp only [shapeCast_same, addf_apply, subf_apply, absf_apply, exp_apply,
    broadcast_apply, lhsBc_apply, rhsBc_apply, chunk_apply, scalar_zero]
  exact congrArg (_ + ·) (Finset.sum_congr rfl fun l _ => cell_eq mi mj o r _)

end Cert.KernelIdeal.Math

end
-- ==== Proof.MathChunk1.lean ====
/-
  The second chunk (rows 32 .. 63 of the second block) of one grid point of the pairwise kernel, at (o, r): its
  payloads add, to the running sum they start from, the sum over the 32 lanes l of the cell of rows r and 32 + l.
-/
import proofs.«178989_j33483565040179_2_alg».proof.Proof.MathOps

noncomputable section

namespace Cert.KernelIdeal.Math

open Idealize.ShloMosaic Idealize.ShloMosaic.ValueIdx Cert.KernelIdeal Cert.KernelIdeal.Gen

theorem chunk1_apply (mi mj : FVec Ideal S8x128x128 .f32) (v102 : FVec Ideal S128x128 .f32) (o r : Fin 128) :
    k1_pay16 (F := Ideal) (k1_pay4 mi) v102 (k1_pay12 (k1_pay5 mj))
        (k1_pay13 (k1_pay4 mi) (k1_pay12 (k1_pay5 mj)) (Scalar.ofBits .f32 0x00000000#32))
        (k1_pay14 (k1_pay4 mi)) (k1_pay15 (k1_pay12 (k1_pay5 mj))) (ix2 o r)
      = v102 (ix2 o r) + ∑ l : Fin 32, cell mi mj o r (⟨32 + l.val, by have := l.isLt; omega⟩ : Fin 128) := by
  simp only [k1_pay16, k1_pay15, k1_pay14, k1_pay13, k1_pay12, k1_pay5, k1_pay4, shapeCast_same, addf_apply, subf_apply, absf_apply, exp_apply,
    broadcast_apply, lhsBc_apply, rhsBc_apply, chunk_apply, scalar_zero]
  rw [red_apply]
  simp only [shapeCast_same, addf_apply, subf_apply, absf_apply, exp_apply,
    broadcast_apply, lhsBc_apply, rhsBc_apply, chunk_apply, scalar_zero]
  exact congrArg (_ + ·) (Finset.sum_congr rfl fun l _ => cell_eq mi mj o r _)

end Cert.KernelIdeal.Math

end
-- ==== Proof.MathChunk2.lean ====
/-
  The third chunk (rows 64 .. 95 of the second block) of one grid point of the pairwise kernel, at (o, r): its
  payloads add, to the running sum they start from, the sum over the 32 lanes l of the cell of rows r and 64 + l.
-/
import proofs.«178989_j33483565040179_2_alg».proof.Proof.MathOps

noncomputable section

namespace Cert.KernelIdeal.Math

open Idealize.ShloMosaic Idealize.ShloMosaic.ValueIdx Cert.KernelIdeal Cert.KernelIdeal.Gen

theorem chunk2_apply (mi mj : FVec Ideal S8x128x128 .f32) (v197 : FVec Ideal S128x128 .f32) (o r : Fin 128) :
    k1_pay23 (F := Ideal) v197
        (k1_pay20 (k1_pay4 mi) (k1_pay17 (k1_pay5 mj)) (k1_pay18 (k1_pay4 mi) (k1_pay5 mj)) (k1_pay19 (k1_pay4 mi) (k1_pay5 mj)))
        (k1_pay21 (k1_pay4 mi)) (k1_pay22 (k1_pay17 (k1_pay5 mj))) (ix2 o r)
      = v197 (ix2 o r) + ∑ l : Fin 32, cell mi mj o r (⟨64 + l.val, by have := l.isLt; omega⟩ : Fin 128) := by
  simp only [k1_pay23, k1_pay22, k1_pay21, k1_pay20, k1_pay19, k1_pay18, k1_pay17, k1_pay5, k1_pay4, shapeCast_same, addf_apply, subf_apply, absf_apply, exp_apply,
    broadcast_apply, lhsBc_apply, rhsBc_apply, chunk_apply, scalar_zero]
  rw [red_apply]
  simp only [shapeCast_same, addf_apply, subf_apply, absf_apply, exp_apply,
    broadcast_apply, lhsBc_apply, rhsBc_apply, chunk_apply, scalar_zero]
  exact congrArg (_ + ·) (Finset.sum_congr rfl fun l _ => cell_eq mi mj o r _)

end Cert.KernelIdeal.Math

end
-- ==== Proof.MathChunk3.lean ====
/-
  The fourth chunk (rows 96 .. 127 of the second block) of one grid point of the pairwise kernel, at (o, r): its
  payloads add the sum over the 32 lanes l of the cell of rows r and 96 + l to the running sum, and the result to the
  accumulator the point starts from.
-/
import proofs.«178989_j33483565040179_2_alg».proof.Proof.MathOps

noncomputable section

namespace Cert.KernelIdeal.Math

open Idealize.ShloMosaic Idealize.ShloMosaic.ValueIdx Cert.KernelIdeal Cert.KernelIdeal.Gen

theorem chunk3_apply (mi mj : FVec Ideal S8x128x128 .f32) (v292 acc : FVec Ideal S128x128 .f32) (o r : Fin 128) :
    k1_pay27 (F := Ideal) (k1_pay4 mi) v292 (k1_pay24 (k1_pay5 mj)) (k1_pay25 (k1_pay4 mi) (k1_pay5 mj)) (k1_pay26 (k1_pay4 mi) (k1_pay5 mj)) acc (ix2 o r)
      = acc (ix2 o r) + (v292 (ix2 o r)
          + ∑ l : Fin 32, cell mi mj o r (⟨96 + l.val, by have := l.isLt; omega⟩ : Fin 128)) := by
  simp only [k1_pay27, k1_pay26, k1_pay25, k1_pay24, k1_pay5, k1_pay4, shapeCast_same, addf_apply, subf_apply, absf_apply, exp_apply,
    broadcast_apply, lhsBc_apply, rhsBc_apply, chunk_apply, scalar_zero]
  rw [red_apply]
  simp only [shapeCast_same, addf_apply, subf_apply, absf_apply, exp_apply,
    broadcast_apply, lhsBc_apply, rhsBc_apply, chunk_apply, scalar_zero]
  exact congrArg (_ + ·) (congrArg (_ + ·) (Finset.sum_congr rfl fun l _ => cell_eq mi mj o r _))

end Cert.KernelIdeal.Math

end
-- ==== Proof.MathStep.lean ====
/-
  One grid point of the pairwise kernel at (o, r), and the two ends of its accumulator.

  accStep adds to the accumulator, at (o, r), the sum over the 128 rows s of the second block of the cell of rows r
  and s: the four chunk payloads add their 32 lanes each to a running sum that starts from zero, and 128 rows are 4
  chunks of 32 lanes.  The accumulator starts from zero, and the stored tail is its transpose minus one.
-/
import proofs.«178989_j33483565040179_2_alg».proof.Proof.MathChunk0
import proofs.«178989_j33483565040179_2_alg».proof.Proof.MathChunk1
import proofs.«178989_j33483565040179_2_alg».proof.Proof.MathChunk2
import proofs.«178989_j33483565040179_2_alg».proof.Proof.MathChunk3

noncomputable section

namespace Cert.KernelIdeal.Math

open Idealize.ShloMosaic Idealize.ShloMosaic.ValueIdx Cert.KernelIdeal Cert.KernelIdeal.Gen

/-- The accumulator's start is zero. -/
theorem accZero_apply (o r : Fin 128) : Hand.accZero (F := Ideal) (ix2 o r) = 0 := by
  simp only [Hand.accZero, k1_pay3, shapeCast_same, broadcast_apply, scalar_zero]

/-- The tail stored at (r, o) is the accumulator at (o, r) minus the constant one. -/
theorem outTail_apply (acc : FVec Ideal S128x128 .f32) (r o : Fin 128) :
    Hand.outTail (F := Ideal) acc (ix2 r o) = acc (ix2 o r) - Ideal.ofBits .f32 0x3F800000#32 := by
  show transpose S128x128 [1, 0] (subf acc (broadcast S128x128 (Scalar.ofBits .f32 0x3F800000#32)))
      transposes_S128x128_p1_0_S128x128 (ix2 r o) = _
  exact transpose_ix2_apply _ _ r o

/-- One grid point: the accumulator at (o, r) gains the sum over the 128 rows s of the second block of the cell. -/
theorem accStep_apply (mi mj : FVec Ideal S8x128x128 .f32) (acc : FVec Ideal S128x128 .f32) (o r : Fin 128) :
    Hand.accStep (F := Ideal) mi mj acc (ix2 o r) = acc (ix2 o r) + ∑ s : Fin 128, cell mi mj o r s := by
  unfold Hand.accStep
  simp only [k1_pay1, shapeCast_same, chunk3_apply, chunk2_apply, chunk1_apply, chunk0_apply]
  simp only [k1_pay6, broadcast_apply, scalar_zero, zero_add]
  refine congrArg (_ + ·) ?_
  rw [sum_128_chunks (fun s => cell mi mj o r s), Fin.sum_univ_four]
  rfl

end Cert.KernelIdeal.Math

end
-- ==== Proof.MathProj.lean ====
/-
  The projection kernel's block read at an index: at (0, o, b) the product of slab k of the transposed table with x
  is the sum over the 1024 input positions i of table[0, o, i] · x[b, i].  The matrix product accumulates into a zero
  splat, so at the ideal instance it is exactly that sum; the contraction index has one axis and is re-indexed by its
  one coordinate.
-/
import proofs.«178989_j33483565040179_2_alg».proof.Proof.Step
import proofs.«178989_j33483565040179_2_alg».proof.Proof.MathSpec
import Idealize.ShloMosaic.Lib.ValueLayout

noncomputable section

namespace Cert.KernelIdeal.Math

open Idealize.ShloMosaic Idealize.ShloMosaic.ValueIdx Cert.KernelIdeal Cert.KernelIdeal.Gen

/-- The dimension numbers of the projection's product: both operands contract their axis 1. -/
abbrev D0 : DotDims S128x1024 S512x1024 S128x512 := dot_S128x1024_S512x1024_S128x512_1_1_0_0_n_n

theorem D0_lhs_0 (j : S128x512.Idx) (q : D0.contr.Idx) : (D0.lhsIdx j q 0).val = (j 0).val := by
  unfold DotDims.lhsIdx
  rw [dif_neg (show ¬(0 : Fin S128x1024.rank) ∈ D0.lhsBatch by decide),
    dif_pos (show (0 : Fin S128x1024.rank) ∈ D0.lhsNonContracting by decide)]
  rfl

theorem D0_lhs_1 (j : S128x512.Idx) (q : D0.contr.Idx) : (D0.lhsIdx j q 1).val = (q ⟨0, by decide⟩).val :=
  D0.lhsIdx_val_of_single rfl j q

theorem D0_rhs_0 (j : S128x512.Idx) (q : D0.contr.Idx) : (D0.rhsIdx j q 0).val = (j 1).val := by
  unfold DotDims.rhsIdx
  rw [dif_neg (show ¬(0 : Fin S512x1024.rank) ∈ D0.rhsBatch by decide),
    dif_pos (show (0 : Fin S512x1024.rank) ∈ D0.rhsNonContracting by decide)]
  rfl

theorem D0_rhs_1 (j : S128x512.Idx) (q : D0.contr.Idx) : (D0.rhsIdx j q 1).val = (q ⟨0, by decide⟩).val :=
  D0.rhsIdx_val_of_single rfl j q

/-- The projection block at (0, o, b). -/
theorem projBlock_apply (tk : FVec Ideal S1x128x1024 .f32) (x : FVec Ideal S512x1024 .f32) (o : Fin 128) (b : Fin 512) :
    Hand.projBlock (F := Ideal) tk x (ix3 (0 : Fin 1) o b) = ∑ i : Fin 1024, tk (ix3 (0 : Fin 1) o i) * x (ix2 b i) := by
  show shapeCast S1x128x512 (matmul D0 (some .fp32) (shapeCast S128x1024 tk shapeCasts_S1x128x1024_S128x1024) x
      (constant S128x512 .f32 0x00000000#32)) shapeCasts_S128x512_S1x128x512 (ix3 (0 : Fin 1) o b) = _
  refine (shapeCast_ab_1ab_apply _ _ (0 : Fin 1) o b).trans ?_
  simp only [matmul]
  rw [Ideal.matmul_constant_zero_apply, ← Equiv.sum_comp (contrEquiv1 D0 1024 rfl rfl).symm]
  refine Finset.sum_congr rfl fun i _ => ?_
  have hk := contrEquiv1_symm_val D0 1024 rfl rfl i
  have el : D0.lhsIdx (ix2 o b) ((contrEquiv1 D0 1024 rfl rfl).symm i) = ix2 o i := funext fun a => Fin.ext (by
    match a with
    | ⟨0, _⟩ => exact D0_lhs_0 _ _
    | ⟨1, _⟩ => exact (D0_lhs_1 _ _).trans hk)
  have er : D0.rhsIdx (ix2 o b) ((contrEquiv1 D0 1024 rfl rfl).symm i) = ix2 b i := funext fun a => Fin.ext (by
    match a with
    | ⟨0, _⟩ => exact D0_rhs_0 _ _
    | ⟨1, _⟩ => exact (D0_rhs_1 _ _).trans hk)
  rw [el, er, shapeCast_1ab_ab_apply]

end Cert.KernelIdeal.Math

end
-- ==== Proof.MathKernel.lean ====
/-
  The kernel's whole result is G.

  The projection at (k, o, b), read through the transposed table, is proj x T k o b (the two factors of each product
  swapped).  Four grid points of the pairwise kernel, from the zero accumulator, leave at (o, r) of row block i the sum
  over the four column blocks j of the sum over the 128 rows t of the cell of rows 128 i + r and 128 j + t, and 512
  rows are 4 blocks of 128: that is the sum over all 512 rows s of sim.  The stored tail subtracts one, and the row
  128 (b / 128) + b % 128 is b.
-/
import proofs.«178989_j33483565040179_2_alg».proof.Proof.KernelFn
import proofs.«178989_j33483565040179_2_alg».proof.Proof.MathStep
import proofs.«178989_j33483565040179_2_alg».proof.Proof.MathProj

noncomputable section

namespace Cert.KernelIdeal.Math

open Idealize.ShloMosaic Idealize.ShloMosaic.ValueIdx Cert.KernelIdeal Cert.KernelIdeal.Gen

open Cert.KernelIdeal.Hand

/-- The projection through the transposed table is proj. -/
theorem mAll_apply (x : FVec Ideal S512x1024 .f32) (T : FVec Ideal S1024x128x8 .f32)
    (hT : S1024x128x8.Transposes [2, 1, 0] S8x128x1024) (k : Fin 8) (o : Fin 128) (b : Fin 512) :
    mAll (F := Ideal) x (transpose S8x128x1024 [2, 1, 0] T hT) (ix3 k o b) = proj x T k o b := by
  show projBlock (F := Ideal) (slab (transpose S8x128x1024 [2, 1, 0] T hT) k) x (ix3 (0 : Fin 1) o b) = _
  rw [projBlock_apply]
  unfold proj
  refine Finset.sum_congr rfl fun i _ => ?_
  have e : slab (F := Ideal) (transpose S8x128x1024 [2, 1, 0] T hT) k (ix3 (0 : Fin 1) o i) = T (ix3 i o k) :=
    transpose_apply _ T hT (ix3 k o i) (ix3 i o k) (fun c => by
      match c with
      | ⟨0, _⟩ => rfl
      | ⟨1, _⟩ => rfl
      | ⟨2, _⟩ => rfl)
  rw [e, mul_comm]

/-- Four grid points from the start. -/
theorem accAt_four (M : FVec Ideal S8x128x512 .f32) (i : Fin 4) :
    accAt (F := Ideal) M i 4
      = accStep (blkM M i) (blkM M (3 : Fin 4)) (accStep (blkM M i) (blkM M (2 : Fin 4))
          (accStep (blkM M i) (blkM M (1 : Fin 4)) (accStep (blkM M i) (blkM M (0 : Fin 4)) accZero))) := rfl

/-- A cell of two blocks of M is sim at the rows the blocks hold. -/
theorem cell_blk (M : FVec Ideal S8x128x512 .f32) (i j : Fin 4) (o r t : Fin 128) :
    cell (blkM (F := Ideal) M i) (blkM (F := Ideal) M j) o r t
      = sim (fun k o b => M (ix3 k o b)) o
          (⟨128 * i.val + r.val, by have := i.isLt; have := r.isLt; omega⟩ : Fin 512)
          (⟨128 * j.val + t.val, by have := j.isLt; have := t.isLt; omega⟩ : Fin 512) := rfl

/-- After the four column blocks the accumulator of row block i holds, at (o, r), the sum over all 512 rows of sim. -/
theorem accAt4_apply (M : FVec Ideal S8x128x512 .f32) (i : Fin 4) (o r : Fin 128) :
    accAt (F := Ideal) M i 4 (ix2 o r)
      = ∑ s : Fin 512, sim (fun k o b => M (ix3 k o b)) o
          (⟨128 * i.val + r.val, by have := i.isLt; have := r.isLt; omega⟩ : Fin 512) s := by
  rw [accAt_four, accStep_apply, accStep_apply, accStep_apply, accStep_apply, accZero_apply, zero_add,
    sum_512_blocks, Fin.sum_univ_four]
  simp only [cell_blk]

/-- The stored tail of row block i at (r, o) is tailVal at row 128 i + r. -/
theorem tail_eq (x : FVec Ideal S512x1024 .f32) (T : FVec Ideal S1024x128x8 .f32)
    (hT : S1024x128x8.Transposes [2, 1, 0] S8x128x1024) (i : Fin 4) (r o : Fin 128) :
    outTail (F := Ideal) (accAt (mAll x (transpose S8x128x1024 [2, 1, 0] T hT)) i 4) (ix2 r o)
      = tailVal (proj x T) (⟨128 * i.val + r.val, by have := i.isLt; have := r.isLt; omega⟩ : Fin 512) o := by
  rw [outTail_apply, accAt4_apply]
  have hM : (fun k o b => mAll (F := Ideal) x (transpose S8x128x1024 [2, 1, 0] T hT) (ix3 k o b)) = proj x T :=
    funext fun k => funext fun o => funext fun b => mAll_apply x T hT k o b
  rw [hM]
  rfl

/-- The kernel's result, from x and the table transposed, is G. -/
theorem kernelOut_eq_G (x : FVec Ideal S512x1024 .f32) (T : FVec Ideal S1024x128x8 .f32)
    (hT : S1024x128x8.Transposes [2, 1, 0] S8x128x1024) :
    kernelOut (F := Ideal) x (transpose S8x128x1024 [2, 1, 0] T hT) = G x T := by
  funext y
  have h0 : (y 0 : Fin 512).val < 512 := (y 0 : Fin 512).isLt
  have h1 : (y 1 : Fin 1152).val < 1152 := (y 1 : Fin 1152).isLt
  by_cases h : (y 1 : Fin 1152).val < 1024
  · have hK : kernelOut (F := Ideal) x (transpose S8x128x1024 [2, 1, 0] T hT) y
        = x (ix2 (y 0 : Fin 512) (⟨(y 1 : Fin 1152).val, h⟩ : Fin 1024)) := dif_pos h
    have hG : G x T y = x (ix2 (y 0 : Fin 512) (⟨(y 1 : Fin 1152).val, h⟩ : Fin 1024)) := dif_pos h
    rw [hK, hG]
  · have hK : kernelOut (F := Ideal) x (transpose S8x128x1024 [2, 1, 0] T hT) y
        = outTail (accAt (mAll x (transpose S8x128x1024 [2, 1, 0] T hT))
            (⟨(y 0 : Fin 512).val / 128, by omega⟩ : Fin 4) 4)
          (ix2 (⟨(y 0 : Fin 512).val % 128, Nat.mod_lt _ (by decide)⟩ : Fin 128)
            (⟨(y 1 : Fin 1152).val - 1024, by omega⟩ : Fin 128)) := dif_neg h
    have hG : G x T y = tailVal (proj x T) (y 0 : Fin 512) (⟨(y 1 : Fin 1152).val - 1024, by omega⟩ : Fin 128) :=
      dif_neg h
    rw [hK, hG, tail_eq]
    exact congrArg (fun b => tailVal (proj x T) b _)
      (Fin.ext (by show 128 * ((y 0 : Fin 512).val / 128) + (y 0 : Fin 512).val % 128 = (y 0 : Fin 512).val; omega))

end Cert.KernelIdeal.Math

end
-- ==== Proof.MathRef.lean ====
/-
  The reference program computes G.

  Its stages, read index by index (the generated reading lemmas give each stage at an index from the stages before it):
  the product x · reshape T at (b, 8 o + k) is proj x T k o b; the two broadcasts put M[b, o, k] and M[s, o, k] side by
  side at (s, b, o, k); the first sum, its negation and exp give sim at (s, b, o); the second sum runs over s; the
  subtraction of the constant one gives tailVal; and the concatenation along the columns chooses x below column 1024
  and that value from column 1024 on.  Both sums start from the zero word, the extended real 0.
-/
import proofs.«178989_j33483565040179_2_alg».proof.Proof.Gen.ReferenceIdeal.Read
import proofs.«178989_j33483565040179_2_alg».proof.Proof.MathSpec

noncomputable section

namespace Cert.KernelIdeal.Math

open Idealize.ShloMosaic Idealize.ShloMosaic.ValueIdx Cert.ReferenceIdeal Cert.ReferenceIdeal.Gen Cert.ReferenceIdeal.Read

/-- The reshaped product at (b, o, k) is the projection. -/
theorem ref_M (x : FVec Ideal S512x1024 .f32) (T : FVec Ideal S1024x128x8 .f32) (b : Fin 512) (o : Fin 128) (k : Fin 8) :
    val_main_v2 (F := Ideal) x T (ix3 b o k) = proj x T k o b := by
  rw [val_main_v2_apply, val_main_v1_apply]
  unfold proj
  refine Finset.sum_congr rfl fun i _ => ?_
  rw [val_main_v0_apply]
  have hb := b.isLt
  have ho := o.isLt
  have hk := k.isLt
  have hi := i.isLt
  have e1 : lidx_main_v1 (idx_main_v2 (ix3 b o k)) i = ix2 b i := funext fun a => Fin.ext (by
    match a with
    | ⟨0, _⟩ => show ((b.val * 128 + o.val) * 8 + k.val) / 1024 = b.val; omega
    | ⟨1, _⟩ => rfl)
  have e2 : idx_main_v0 (ridx_main_v1 (idx_main_v2 (ix3 b o k)) i) = ix3 i o k := funext fun a => Fin.ext (by
    match a with
    | ⟨0, _⟩ => show (i.val * 1024 + ((b.val * 128 + o.val) * 8 + k.val) % 1024) / 1024 = i.val; omega
    | ⟨1, _⟩ => show (i.val * 1024 + ((b.val * 128 + o.val) * 8 + k.val) % 1024) / 8 % 128 = o.val; omega
    | ⟨2, _⟩ => show (i.val * 1024 + ((b.val * 128 + o.val) * 8 + k.val) % 1024) % 8 = k.val; omega)
  rw [e1, e2]

/-- exp of the negated first sum at (s, b, o) is sim. -/
theorem ref_sim (x : FVec Ideal S512x1024 .f32) (T : FVec Ideal S1024x128x8 .f32) (b s : Fin 512) (o : Fin 128) :
    val_main_v11 (F := Ideal) x T (ix3 s b o) = sim (proj x T) o b s := by
  rw [val_main_v11_apply, val_main_v10_apply, val_main_v9_apply]
  unfold sim
  simp only [Ideal.hostUnary_exp_def, Ideal.hostNegf_def, Ideal.negf_def, val_main_cst_apply, Ideal.ofBits_def,
    Ideal.ofBits_zero_f32, zero_add]
  refine congrArg Ideal.exp (congrArg Neg.neg (Finset.sum_congr rfl fun k _ => ?_))
  rw [val_main_v8_apply, val_main_v7_apply, val_main_v5_apply, val_main_v6_apply, val_main_v3_apply, val_main_v4_apply]
  have e5 : idx_main_v3 (idx_main_v5 (idx_main_v9 (ix3 s b o) k)) = ix3 b o k := funext fun a => Fin.ext (by
    match a with
    | ⟨0, _⟩ => rfl
    | ⟨1, _⟩ => rfl
    | ⟨2, _⟩ => rfl)
  have e6 : idx_main_v4 (idx_main_v6 (idx_main_v9 (ix3 s b o) k)) = ix3 s o k := funext fun a => Fin.ext (by
    match a with
    | ⟨0, _⟩ => rfl
    | ⟨1, _⟩ => rfl
    | ⟨2, _⟩ => rfl)
  rw [e5, e6, ref_M, ref_M]
  rfl

/-- The second sum minus one at (b, o) is tailVal. -/
theorem ref_tail (x : FVec Ideal S512x1024 .f32) (T : FVec Ideal S1024x128x8 .f32) (b : Fin 512) (o : Fin 128) :
    val_main_v14 (F := Ideal) x T (ix2 b o) = tailVal (proj x T) b o := by
  rw [val_main_v14_apply, val_main_v12_apply, val_main_v13_apply]
  unfold tailVal
  simp only [val_main_cst_0_apply, val_main_cst_1_apply, Ideal.subf_def, Ideal.ofBits_def, Ideal.ofBits_zero_f32, zero_add]
  refine congrArg (· - _) (Finset.sum_congr rfl fun s _ => ?_)
  have e : idx_main_v12 (ix2 b o) s = ix3 s b o := funext fun a => Fin.ext (by
    match a with
    | ⟨0, _⟩ => rfl
    | ⟨1, _⟩ => rfl
    | ⟨2, _⟩ => rfl)
  rw [e, ref_sim]

/-- The reference's last stage is G. -/
theorem reference_eq_G (x : FVec Ideal S512x1024 .f32) (T : FVec Ideal S1024x128x8 .f32) :
    val_main_v15 (F := Ideal) x T = G x T := by
  funext y
  unfold val_main_v15
  have h1 : (y 1 : Fin 1152).val < 1152 := (y 1 : Fin 1152).isLt
  by_cases h : (y 1 : Fin 1152).val < 1024
  · have hG : G x T y = x (ix2 (y 0 : Fin 512) (⟨(y 1 : Fin 1152).val, h⟩ : Fin 1024)) := dif_pos h
    rw [hG]
    exact concatenate_pair_apply_left (1 : Fin S512x1152.rank) x (val_main_v14 (F := Ideal) x T)
      concatenates_S512x1024_S512x128_S512x1152_d1 y rfl (ix2 (y 0 : Fin 512) (⟨(y 1 : Fin 1152).val, h⟩ : Fin 1024))
      (fun b => by
        match b with
        | ⟨0, _⟩ => rfl
        | ⟨1, _⟩ => rfl)
  · have hG : G x T y = tailVal (proj x T) (y 0 : Fin 512) (⟨(y 1 : Fin 1152).val - 1024, by omega⟩ : Fin 128) :=
      dif_neg h
    rw [hG]
    refine (concatenate_pair_apply_right (1 : Fin S512x1152.rank) x (val_main_v14 (F := Ideal) x T)
      concatenates_S512x1024_S512x128_S512x1152_d1 y rfl rfl
      (ix2 (y 0 : Fin 512) (⟨(y 1 : Fin 1152).val - 1024, by omega⟩ : Fin 128)) (fun b hb => ?_) ?_).trans
      (ref_tail x T _ _)
    · match b with
      | ⟨0, _⟩ => rfl
      | ⟨1, _⟩ => exact absurd rfl hb
    · show (y 1 : Fin 1152).val - 1024 + 1024 = (y 1 : Fin 1152).val
      omega

end Cert.KernelIdeal.Math

end
-- ==== Proof.MathFinal.lean ====
/-
  The kernel's result, as one function of x and the table, equals the term the reference's run leaves in its result
  buffer: both are G.
-/
import proofs.«178989_j33483565040179_2_alg».proof.Proof.MathKernel
import proofs.«178989_j33483565040179_2_alg».proof.Proof.MathRef

noncomputable section

namespace Cert.KernelIdeal.Math

open Idealize.ShloMosaic Cert.KernelIdeal Cert.ReferenceIdeal Cert.ReferenceIdeal.Gen

/-- The kernel's result from x and the transposed table is the reference's result term of x and the table.  The
    transposition fact is a parameter, so that any proof of it can be supplied. -/
theorem kernelOut_eq_reference (x : Vec Ideal S512x1024 .f32) (T : Vec Ideal S1024x128x8 .f32)
    (hT : S1024x128x8.Transposes [2, 1, 0] S8x128x1024) :
    Cert.KernelIdeal.Hand.kernelOut (F := Ideal) x (transpose S8x128x1024 [2, 1, 0] T hT)
      = concatenate Cert.ReferenceIdeal.S512x1152 1 [⟨Cert.ReferenceIdeal.S512x1024, x⟩, ⟨S512x128, (subf (Host.reduceAdd (F := Ideal) (Host.exp (Host.negf (Host.reduceAdd (F := Ideal) (Host.absf (subf (broadcastInDim S512x512x128x8 ![0, 1, 2, 3] bcast_S1x512x128x8_S512x512x128x8_0_1_2_3 (broadcastInDim S1x512x128x8 ![1, 2, 3] bcast_S512x128x8_S1x512x128x8_1_2_3 (shapeCast _ (Host.dotGeneral (F := Ideal) (φ₁ := .f32) (φ₂ := .f32) dot_S512x1024_S1024x1024_S512x1024_1_0_0_1_n_n none x (shapeCast _ T shapeCasts_S1024x128x8_S1024x1024)) shapeCasts_S512x1024_S512x128x8))) (broadcastInDim S512x512x128x8 ![0, 1, 2, 3] bcast_S512x1x128x8_S512x512x128x8_0_1_2_3 (broadcastInDim S512x1x128x8 ![0, 2, 3] bcast_S512x128x8_S512x1x128x8_0_2_3 (shapeCast _ (Host.dotGeneral (F := Ideal) (φ₁ := .f32) (φ₂ := .f32) dot_S512x1024_S1024x1024_S512x1024_1_0_0_1_n_n none x (shapeCast _ T shapeCasts_S1024x128x8_S1024x1024)) shapeCasts_S512x1024_S512x128x8))))) (constant (F := Ideal) S_ .f32 0x00000000#32) reducesTo_S512x512x128x8_S512x512x128_d3 h_S_))) (constant (F := Ideal) S_ .f32 0x00000000#32) reducesTo_S512x512x128_S512x128_d0 h_S_) (broadcastInDim S512x128 ![] bcast_S_S512x128 (constant (F := Ideal) S_ .f32 0x3F800000#32)))⟩] concatenates_S512x1024_S512x128_S512x1152_d1 :=
  (kernelOut_eq_G x T hT).trans
    ((reference_eq_G x T).symm.trans (Cert.ReferenceIdeal.Read.val_main_v15_eq (F := Ideal) x T).symm)

end Cert.KernelIdeal.Math

end
-- ==== Proof.Assemble.lean ====
/-
  The certificate's claims from their parts.

  The reference's frame claim is its generated run with the result forgotten.  The algebraic claim takes the kernel's
  run in the form "the result buffer ends at kernelOut of the two argument arrays (the table transposed), the
  arguments unchanged" as a hypothesis; the reference's generated run ends at its own result term of its arguments,
  which agree with the kernel's, and that term is kernelOut of them (kernelOut_eq_reference).  The common value is
  kernelOut of the kernel's arguments on each device.
-/
import proofs.«178989_j33483565040179_2_alg».proof.Defs
import proofs.«178989_j33483565040179_2_alg».proof.Proof.Gen.Kernel
import proofs.«178989_j33483565040179_2_alg».proof.Proof.Gen.KernelIdeal
import proofs.«178989_j33483565040179_2_alg».proof.Proof.Gen.ReferenceIdeal
import proofs.«178989_j33483565040179_2_alg».proof.Proof.Gen.Pre_finite_inputs
import proofs.«178989_j33483565040179_2_alg».proof.Proof.Gen.ReferenceIdeal.Run
import proofs.«178989_j33483565040179_2_alg».proof.Proof.KernelFn
import proofs.«178989_j33483565040179_2_alg».proof.Proof.MathFinal

noncomputable section

namespace Cert.Proof.Asm

open Idealize.ShloMosaic Idealize.ShloMosaic.TcCoe Idealize.SL.Sem

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- What the kernel's run has to give: from any memory the result buffer ends, on every device, at kernelOut of the
    two argument arrays (the table transposed), and the argument arrays end unchanged. -/
abbrev KernelRun : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v2)
            = Cert.KernelIdeal.Hand.kernelOut (F := Ideal)
                (m ((c.tc : Thread Cert.KernelIdeal.nD Cert.KernelIdeal.τ).loc Cert.KernelIdeal.main_arg0) : Vec Ideal Cert.KernelIdeal.S512x1024 .f32)
                (transpose Cert.KernelIdeal.S8x128x1024 [2, 1, 0]
                  (m ((c.tc : Thread Cert.KernelIdeal.nD Cert.KernelIdeal.τ).loc Cert.KernelIdeal.main_arg1) : Vec Ideal Cert.KernelIdeal.S1024x128x8 .f32)
                  Cert.KernelIdeal.Gen.transposes_S1024x128x8_S8x128x1024_2_1_0)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

/-- From memories that agree on the arguments both programs run, end with equal results and leave their arguments
    unchanged. -/
theorem algebraic_of (hrun : KernelRun) : Cert.algebraic_KernelIdeal_ReferenceIdeal := by
  intro m ρ m' ρ' _ hagree
  refine ⟨fun c => Cert.KernelIdeal.Hand.kernelOut (F := Ideal)
      (m ((c.tc : Thread Cert.KernelIdeal.nD Cert.KernelIdeal.τ).loc Cert.KernelIdeal.main_arg0) : Vec Ideal Cert.KernelIdeal.S512x1024 .f32)
      (transpose Cert.KernelIdeal.S8x128x1024 [2, 1, 0]
        (m ((c.tc : Thread Cert.KernelIdeal.nD Cert.KernelIdeal.τ).loc Cert.KernelIdeal.main_arg1) : Vec Ideal Cert.KernelIdeal.S1024x128x8 .f32)
        Cert.KernelIdeal.Gen.transposes_S1024x128x8_S8x128x1024_2_1_0), hrun m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.KernelIdeal.Math.kernelOut_eq_reference _ _ _).symm

/-- The whole claim from the two kernel frames and the kernel's run. -/
theorem claim_of (hK : Cert.frame_Kernel) (hKI : Cert.frame_KernelIdeal) (hrun : KernelRun) : Cert.Claim :=
  ⟨Cert.Kernel.Gen.facts, Cert.KernelIdeal.Gen.facts, Cert.ReferenceIdeal.Gen.facts, Cert.Pre_finite_inputs.Gen.facts,
    hK, hKI, frame_ri, trivial, algebraic_of hrun⟩

end Cert.Proof.Asm

end
-- ==== Proof.Region0.lean ====
/-
  The first pallas_call (the projection kernel) as a pipeline region, at the contents V the TensorCore's buffers hold
  when the region is entered: each window's block at a grid point, what the body leaves in the output window's buffer
  (the one store's value over the two input blocks), the body's triple, the pipeline's proof data and the body
  obligation. Everything is stated for an arbitrary float instance F.
-/
import proofs.«178989_j33483565040179_2_alg».proof.Proof.Gen.KernelIdeal.Launch
import proofs.«178989_j33483565040179_2_alg».proof.Proof.Gen.KernelIdeal.Skeleton
import proofs.«178989_j33483565040179_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the whole matrix x, fetched at the first point only) holds its block at every point: where it is
    not fetched its block index has not moved, so the buffer still holds the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (slab k of the transposed tensor, fetched at every point) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev r0_0 : Rect S1x128x1024 := Rect.unit (s := S1x128x1024) ![0, 0, 0] S1x128x1024.size inb_S1x128x1024_S1x128x1024_0_0_0
abbrev r0_1 : Rect S512x1024 := Rect.unit (s := S512x1024) ![0, 0] S512x1024.size inb_S512x1024_S512x1024_0_0
abbrev r0_2 : Rect S1x128x512 := Rect.unit (s := S1x128x512) ![0, 0, 0] S1x128x512.size inb_S1x128x512_S1x128x512_0_0_0

/-! ## What the body leaves in the output window's buffer -/

/-- Window 2's staging buffer after the body, from the input windows' blocks (x0 the matrix x, x1 the slab): its one
    store, of the product of the slab with x contracted along the inner axis, over the whole buffer. -/
def out0_2 (x0 : Vec F S512x1024 .f32) (x1 : Vec F S1x128x1024 .f32) : Vec F S1x128x512 .f32 :=
  View.canon [⟨r0_2, k0_pay1 (View.ld x1 r0_0) (View.ld x0 r0_1)⟩]

/-- The store's rectangle is the whole buffer, so it covers it. -/
theorem cover0_2 (p0 : Vec F S1x128x512 .f32) (y : S1x128x512.Idx) :
    ∃ pc ∈ ([⟨r0_2, p0⟩] : List (View.Piece (Elt F) S1x128x512 .f32)), y ∈ pc.1.set :=
  View.cover_of_tiled [⟨r0_2, p0⟩] S1x128x512.size (by rfl) y

/-- Both loads read whole buffers and the one store writes the whole buffer, so the output's buffer after the body is
    the store's value at the input blocks themselves. -/
theorem out0_2_eq (x0 : Vec F S512x1024 .f32) (x1 : Vec F S1x128x1024 .f32) : out0_2 x0 x1 = k0_pay1 x1 x0 := by
  unfold out0_2
  rw [View.canon_unit_zero (by funext a; fin_cases a <;> rfl),
    View.ld_unit_zero (by funext a; fin_cases a <;> rfl), View.ld_unit_zero (by funext a; fin_cases a <;> rfl)]

/-! ## The body's triple -/

set_option maxHeartbeats 1000000 in
/-- The kernel body on whole staging memrefs, the inputs' at read contents x0 and x1 and the output's at anything, runs
    to the continuation holding the inputs' as they were and the output's at out0_2 of the inputs'. The body also loads
    the output's buffer before storing it; the loaded value is not used. -/
theorem sound_kernel0 (c : Dev nD) (E : Set ℕ) (i : grid0.Coords)
    (arg1 : Memref sig .tc .vmem S512x1024 .f32) (harg1 : arg1.IsWhole)
    (arg2 : Memref sig .tc .vmem S1x128x1024 .f32) (harg2 : arg2.IsWhole)
    (arg3 : Memref sig .tc .vmem S1x128x512 .f32) (harg3 : arg3.IsWhole)
    (x0 : Vec F S512x1024 .f32) (x1 : Vec F S1x128x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the region finds them; after the body at point t each
    input's buffer at its block and the output's at out0_2 of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's owed signals pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.Region1Share.lean ====
/-
  How the second kernel's four windows hold their arrays: the two windows that read M hold the one array at the
  two halves of the full share; x's window and the output's at the full share.
-/
import proofs.«178989_j33483565040179_2_alg».proof.Proof.Gen.KernelIdeal.Launch

noncomputable section

namespace Cert.KernelIdeal.R1

open Idealize.ShloMosaic Idealize.SL Idealize.SL.RA Cert.KernelIdeal

/-- The share each window of the second kernel holds its array at. -/
def q1 : Fin cfg1.W → PosShare TreeShare := fun w =>
  match w with
  | ⟨0, _⟩ => fullShare
  | ⟨1, _⟩ => fullShare.left
  | ⟨2, _⟩ => fullShare.right
  | ⟨3, _⟩ => fullShare

end Cert.KernelIdeal.R1

end
-- ==== Proof.Run.lean ====
/-
  The run of @main over both pallas_calls. The contents of the TensorCore's unscoped buffers at the boundaries between
  the host transpose, the projection kernel's region and the pairwise kernel's region; each region as a segment of the
  run over relational proof data, the second region's data a parameter; and the run's conclusion: the output array
  holds what the second pipeline's write-backs leave, and the arguments end as launched.
-/
import proofs.«178989_j33483565040179_2_alg».proof.Proof.Region0
import proofs.«178989_j33483565040179_2_alg».proof.Proof.Region1Share
import proofs.«178989_j33483565040179_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The second region's arrays out of the core's unscoped buffers

Two of the second pipeline's windows read one array (the projection's output), so the pipeline holds that array twice,
at the two halves of the full share; its other two windows hold theirs whole. -/

/-- The core's five unscoped buffers, one by one. -/
theorem unscopedBufs_eq (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)
          ∗ (((c : Thread nD τ).loc main_v2) ↦{fullShare} V main_v2)) :=
  bigSep_eq_bigSepL_of_eq [main_arg0, main_arg1, main_v0, main_v1, main_v2] (by decide) (by decide) _

/-- A core's unscoped buffers at contents V are the second pipeline's arrays at its entry contents (read off V) and
    the two buffers that are no window's array. -/
theorem entry1 (c : Dev nD) (rd : RDat τ (Elt F) Unit ℕ (UR sig nD τ) ℕ cfg1 c) (hq : rd.q = R1.q1)
    (V : (b : Ref sig .tc) → Buf (Elt F) ((c : Thread nD τ).loc b)) (hA : ∀ w, rd.A w = V (Pipeline.arrRef spec1 w)) :
    (unscopedBufs c V : sProp 𝕄) ⊢ iprop(rd.arrays rd.A ∗ Pipeline.unscopedRest (Ix := Unit) (Name := ℕ) (U := UR sig nD τ) (Lvl := ℕ) spec1 c V) := by
  have h0 : rd.share 0 = fullShare := by unfold RDat.share; rw [hq]; rfl
  have h1 : rd.share 1 = fullShare.left := by unfold RDat.share; rw [hq]; rfl
  have h2 : rd.share 2 = fullShare.right := by unfold RDat.share; rw [hq]; rfl
  have h3 : rd.share 3 = fullShare := by unfold RDat.share; rfl
  rw [unscopedRest1_eq, unscopedBufs_eq]
  unfold RDat.arrays
  rw [bigSep_W1, h0, h1, h2, h3, hA 0, hA 1, hA 2, hA 3]
  simp only [View.set_whole]
  iintro ⟨H0, H1, H2, H3, H4⟩
  ihave H3' := (pointsTo_share (PosShare.mem_left_op_right fullShare)).1 $$ H3
  icases H3' with ⟨H3l, H3r⟩
  isplitl [H0 H3l H3r H4]
  · isplitl [H0]; · iexact H0
    isplitl [H3l]; · iexact H3l
    isplitl [H3r]; · iexact H3r
    iexact H4
  isplitl [H1]; · iexact H1
  iexact H2

/-! ## The buffer contents at each boundary of @main -/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host transpose (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit (the second region's entry): its arrays at what the pipeline leaves (the inputs as
    entered, the output's write-backs folded), every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- No host operation writes a buffer other than the transposed tensor's. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- The transposed tensor, as the first region finds it: the host transpose of the second argument. -/
theorem V1_main_v0 (c : Dev nD) :
    (V1 m ρ c main_v0 : S8x128x1024.Idx → Elt F .f32)
      = transpose S8x128x1024 [2, 1, 0] (m ((c : Thread nD τ).loc main_arg1)) transposes_S1024x128x8_S8x128x1024_2_1_0 := by
  show StableHlo.after hostOps0 (fun b => m (c, b)) (Proc.devRef .tc main_v0) = _
  dsimp only [hostOps0]; after_results

/-- The projection's output array, as the second region finds it: what the first pipeline's write-backs leave. -/
theorem V2_main_v1 (c : Dev nD) : V2 m ρ c main_v1 = (R0.dat0 (V1 m ρ) c).arrAt 2 cfg0.N := W2_arr m ρ c 2

/-- The first argument is as launched when the second region is entered: the transpose does not write it and the
    first region only reads it. -/
theorem V2_main_arg0 (c : Dev nD) : V2 m ρ c main_arg0 = m ((c : Thread nD τ).loc main_arg0) :=
  calc V2 m ρ c main_arg0
    _ = V1 m ρ c main_arg0 := (W2_arr m ρ c 0).trans (((R0.dat0 (V1 m ρ) c).arrAt_in 0 rfl _).trans (R0.A_eq0 (V1 m ρ) c 0))
    _ = W0 m ρ c (Proc.devRef .tc main_arg0) := W1_of m ρ c main_arg0 (by decide)
    _ = m ((c : Thread nD τ).loc main_arg0) := rfl

/-- The second argument too: no region has it as a window's array. -/
theorem V2_main_arg1 (c : Dev nD) : V2 m ρ c main_arg1 = m ((c : Thread nD τ).loc main_arg1) :=
  calc V2 m ρ c main_arg1
    _ = V1 m ρ c main_arg1 := W2_of_ne m ρ c main_arg1 (by decide)
    _ = W0 m ρ c (Proc.devRef .tc main_arg1) := W1_of m ρ c main_arg1 (by decide)
    _ = m ((c : Thread nD τ).loc main_arg1) := rfl

/-! ## The first region's arrays back into the core's unscoped buffers -/

/-- The first pipeline's arrays at what its write-backs leave, and the two buffers that are no window's array as the
    region found them, are the core's unscoped buffers at the region's exit contents. -/
theorem exit0 (c : Dev nD) :
    iprop((R0.dat0 (V1 m ρ) c).arrays ((R0.dat0 (V1 m ρ) c).arrAt · cfg0.N)
        ∗ Pipeline.unscopedRest (Ix := Unit) (Name := ℕ) (U := UR sig nD τ) (Lvl := ℕ) spec0 c (V1 m ρ c))
      ⊢ (unscopedBufs c (V2 m ρ c) : sProp 𝕄) := by
  have hs : ∀ w, (R0.dat0 (V1 m ρ) c).share w = fullShare := (R0.dat0 (V1 m ρ) c).share_full fun _ => rfl
  rw [unscopedRest0_eq, unscopedBufs_eq]
  unfold Dat.arrays
  rw [bigSep_W0]
  beta_reduce
  rw [hs 0, hs 1, hs 2, hF0 m ρ c 0, hF0 m ρ c 1, hF0 m ρ c 2,
    ← (show V2 m ρ c main_arg1 = V1 m ρ c main_arg1 from W2_of_ne m ρ c main_arg1 (by decide)),
    ← (show V2 m ρ c main_v2 = V1 m ρ c main_v2 from W2_of_ne m ρ c main_v2 (by decide))]
  simp only [View.set_whole]
  iintro ⟨⟨H0, H1, H2⟩, H3, H4⟩
  isplitl [H0]; · iexact H0
  isplitl [H3]; · iexact H3
  isplitl [H1]; · iexact H1
  isplitl [H2]; · iexact H2
  iexact H4

/-! ## The proof data family and the thread state -/

section Run

variable (rd1 : (c : Dev nD) → RDat τ (Elt F) Unit ℕ (UR sig nD τ) ℕ cfg1 c)

/-- What the run asks of the second region's relational proof data: its arrays are the region's entry contents, its
    windows hold them at the shares q1, it owes nothing and its recorded pairs are unbounded, its body meets its
    obligation, and its invariant is entered from and gives back the scoped rest and the generator register. -/
structure Data1 : Prop where
  hA : ∀ c w, (rd1 c).A w = V2 m ρ c (Pipeline.arrRef spec1 w)
  hq : ∀ c, (rd1 c).q = R1.q1
  howed : ∀ c t, (rd1 c).owed t = 0
  hrec : ∀ c t, (rd1 c).recorded t = Set.univ
  hbody : ∀ c, (rd1 c).BodyObligation (defs₀ (F := F)) Variants.none () Set.univ
  hin : ∀ c, (Pipeline.ΦA spec1 c : sProp 𝕄) ⊢ (rd1 c).Φ 0
  hout : ∀ c, (rd1 c).Φ (Fin.last cfg1.N) ⊢ (Pipeline.ΦA spec1 c : sProp 𝕄)

variable (h1 : Data1 m ρ rd1)

/-- Every pipeline's proof data: the first region's exact data read as relational data, the second region's as
    given. A literal match, so that the pinned configuration at a numeral reduces to the printed one. -/
def rdats : (p : Fin 2) → (c : Dev nD) → RDat τ (Elt F) Unit ℕ (UR sig nD τ) ℕ (Pipeline.pin (pcfgs (F := F)) adm p) c
  | ⟨0, _⟩ => fun c => (R0.dat0 (V1 m ρ) c).toR
  | ⟨1, _⟩ => fun c => rd1 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owed
    signals, at nothing. -/
abbrev R (c : Dev nD) : sProp 𝕄 := iprop((∃ r, prngReg c r) ∗ ∃ W, owes (c : Thread nD τ) (0 : CellTallies nD τ sig Unit) W)
/-- The host transpose as a segment over the unscoped references from the launch contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owed signals: the second pipeline's arrays as its write-backs leave them, the
    two buffers that are none of its arrays as the second region found them, the generator register at some state. -/
abbrev Tₙ (c : Dev nD) : sProp 𝕄 :=
  iprop((rd1 c).arraysAt cfg1.N
    ∗ Pipeline.unscopedRest (Ix := Unit) (Name := ℕ) (U := UR sig nD τ) (Lvl := ℕ) spec1 c (V2 m ρ c) ∗ ∃ r, prngReg c r)

/-! ## The regions as segments -/

set_option backward.isDefEq.respectTransparency.types false in
/-- The first region over the thread state: entered from every unscoped buffer at W1, left at W2. Its arrays split out
    of the unscoped buffers and put back at the exit contents; the generator register into the invariant and out;
    nothing owed; no semaphore of the kernel's own. -/
def reg0 : Pipeline.RDat.RegionSeg (pcfgs (F := F)) adm (rdats m ρ rd1) () defs₀ 𝒱₀ L lv 0 where
  win := launch0.win.to₀
  block_pos := launch0.block_pos
  stage_whole := launch0.stage_whole
  K := PEmpty
  osem k := k.elim
  ho := Pipeline.OwnSemFacts.none _
  hbody c := ((R0.body_obligation0 (V1 m ρ) c).loose).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ rd1) launch0.win launch0.arr_whole c
      ((R0.dat0 (V1 m ρ) c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ rd1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ rd1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 m ρ c
    rw [Pipeline.unscopedBufs_held] at hjoin
    refine (sep_mono (Entails.of_eq ((R0.dat0 (V1 m ρ) c).toR_arraysAt_eq cfg0.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second region over the thread state: entered from every unscoped buffer at W2; its arrays split out of them,
    the projection's output held twice at the two halves of the full share; left holding its arrays as the pipeline's
    write-backs leave them (the last thread state: nothing runs after it). -/
def reg1 : Pipeline.RDat.RegionSeg (pcfgs (F := F)) adm (rdats m ρ rd1) () defs₀ 𝒱₀ L lv 1 where
  win := winFacts₀1
  block_pos := block_pos1
  stage_whole := stage_whole1
  K := PEmpty
  osem k := k.elim
  ho := Pipeline.OwnSemFacts.none _
  hbody c := h1.hbody c
  hwaits := Pipeline.RDat.hwaits_of_owed_zero _ _ _ _ L lv 1 fun c t => h1.howed c t
  pre c := iprop(StableHlo.held (c : Thread nD τ) (Pipeline.ucRefs τ sig) (W2 m ρ c) ∗ R c)
  post c := iprop(Tₙ m ρ rd1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 c (rd1 c) (h1.hq c) (V2 m ρ c) (h1.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [show (rdats m ρ rd1 1 c).owed 0 = 0 from h1.howed c 0]
      icases HO with ⟨%W, HO⟩; iexists W; isplitr
      · ipureintro; exact fun _ _ => Or.inl (by rw [show (rdats m ρ rd1 1 c).recorded 0 = Set.univ from h1.hrec c 0]; trivial)
      iexact HO
    isplitl [Hp]; · iexact Hp
    iexact Hrest
  hin c := by
    refine (?_ : _ ⊢ (Pipeline.ΦA spec1 c : sProp 𝕄)).trans (h1.hin c)
    unfold Pipeline.ΦA
    iintro ⟨Hp, -, Hr⟩
    isplitl [Hr]; · iexact Hr
    iexact Hp
  hout c := by
    rw [Pipeline.ownSems0_none]
    refine (h1.hout c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    rw [show (rdats m ρ rd1 1 c).owed (Fin.last _) = 0 from h1.howed c _]
    icases HO with ⟨%W, -, HO⟩; iexists W; iexact HO

/-! ## @main as segments, and the launch -/

/-- @main's three segments in order: the host transpose from the launch contents, then a region per pallas_call. -/
abbrev segs : List (Pipeline.RDat.Seg (pcfgs (F := F)) adm (rdats m ρ rd1) () defs₀ 𝒱₀ L lv) :=
  [ .host (hseg hostOps0 hostOps0_sub hostOps0_fresh (W0 m ρ)),
    .region (reg0 m ρ rd1),
    .region (reg1 m ρ rd1 h1) ]

/-- The buffers of the second region that are no window's array of its pipeline. -/
abbrev rest1 : Finset (Ref sig .tc) :=
  (Finset.univ.filter fun b : Ref sig .tc => ¬ b.isScoped) \ Finset.univ.image (Pipeline.arrRef spec1)

include h1 in
set_option backward.isDefEq.respectTransparency.types false in
/-- THE RUN. From any memory with zero counters, every weakly fair execution of @main on the TensorCores terminates,
    and every final memory holds in the output array contents the second pipeline's write-backs may leave, and holds
    both arguments as launched. -/
theorem run_main : θ_run defs (onTc (τ := τ) (main (F := F))) ⟨m, fun _ => 0, ρ⟩ (fun r => ∀ c : Dev nD,
      (rd1 c).ArrAt 3 cfg1.N (r.2.mem ((c.tc : Thread nD τ).loc main_v2))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_regions_kit (pcfgs (F := F)) adm (rdats m ρ rd1) () cellOf_inj emb₁ defs₀ 𝒱₀ L lv m ρ main
    (segs m ρ rd1 h1)
    (fun c Q => by
      rewrite [main_chain c, Pipeline.RDat.Seg.run_eq_chain,
        show (segs m ρ rd1 h1).map Pipeline.RDat.Seg.prog = [
          StableHlo.seq hostOps0,
          Prog.lift (.customCall (Pipeline.entry 0) ()),
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ rd1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => (∀ w : Fin cfg1.W, (rd1 c).ArrAt w cfg1.N (s.mem ((cfg1.win w).arr.view.loc (c.tc : Thread nD τ))))
      ∧ ∀ b ∈ rest1, s.mem ((c.tc : Thread nD τ).loc b) = V2 m ρ c b)
    (hfin := fun c s' => by
      have hread := Pipeline.RDat.arrays_read (pcfgs (F := F)) adm (rdats m ρ rd1) (p := 1) arr_whole1 c cfg1.N s'
      iintro ⟨⟨Ha, Hrest, -⟩, HSI⟩
      ihave Hr := hread $$ [Ha HSI]
      · isplitl [Ha]; · iexact Ha
        iexact HSI
      icases Hr with ⟨%ha, HSI⟩
      have hread2 : iprop(Pipeline.unscopedRest (Ix := Unit) (Name := ℕ) (U := UR sig nD τ) (Lvl := ℕ) spec1 c (V2 m ρ c) ∗ SI s')
          ⊢ (iprop(⌜∀ b ∈ rest1, s'.mem.mem ((c.tc : Thread nD τ).loc b) = V2 m ρ c b⌝ ∗ SI s') : sProp 𝕄) := by
        unfold Pipeline.unscopedRest
        exact pointsTo_read_all rest1 (fun b => (c.tc : Thread nD τ).loc b) (V2 m ρ c) s'
      ihave Hr := hread2 $$ [Hrest HSI]
      · isplitl [Hrest] <;> iassumption
      icases Hr with ⟨%hb, HSI⟩
      imodintro
      isplitr
      · ipureintro; exact ⟨ha, hb⟩
      · iexact HSI)
    (hQ := fun s h c => by
      have h0 := (h c).1 0
      rw [(rd1 c).ArrAt_in 0 rfl cfg1.N] at h0
      exact ⟨(h c).1 3, (h0.trans (h1.hA c 0)).trans (V2_main_arg0 m ρ c),
        ((h c).2 main_arg1 (by decide)).trans (V2_main_arg1 m ρ c)⟩)

end Run
end Cert.KernelIdeal.Run

end
-- ==== Proof.Region1Run.lean ====
/-
  The second kernel's body, run on whole staging buffers, in each of its three control cases.

  A grid point (i, j) of the pairwise kernel: at j = 0 the accumulator is zeroed and the x block is copied into
  columns 0 .. 1023 of the output block; always the two blocks of M are loaded and the accumulator receives
  its step; at j = 3 columns 1024 .. 1151 of the output block receive the transposed accumulator minus one.
  Each case leaves the inputs as they were and the accumulator at `accStep` of what it started from; of the
  output block it says what the stored rectangle holds and that the rest is as it was.
-/
import proofs.«178989_j33483565040179_2_alg».proof.Proof.Gen.KernelIdeal.Launch
import proofs.«178989_j33483565040179_2_alg».proof.Proof.Gen.KernelIdeal.Skeleton
import proofs.«178989_j33483565040179_2_alg».proof.Proof.Gen.KernelIdeal.Points
import proofs.«178989_j33483565040179_2_alg».proof.Proof.Step
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

/-! ## The rectangles the body stores into the output block through -/

/-- Columns 0 .. 1023 of the [128, 1152] output block. -/
abbrev rL : Rect S128x1152 := Rect.unit (s := S128x1152) ![0, 0] S128x1024.size inb_S128x1152_S128x1024_0_0
/-- Columns 1024 .. 1151 of the [128, 1152] output block. -/
abbrev rR : Rect S128x1152 := Rect.unit (s := S128x1152) ![0, 1024] S128x128.size inb_S128x1152_S128x128_0_1024

theorem hz2 : (![0, 0] : Fin 2 → Nat) = fun _ => 0 := funext fun a => by fin_cases a <;> rfl
theorem hz3 : (![0, 0, 0] : Fin 3 → Nat) = fun _ => 0 := funext fun a => by fin_cases a <;> rfl

/-- A whole buffer read back after a list of stores whose last one covers it holds that store's payload. -/
theorem read_writes_whole_last {sp : Space} {S : Shape} {e : EltTy} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L

/-! ## Neither condition holds (j = 1, 2): the accumulator takes its step, nothing else changes -/

set_option maxHeartbeats 4000000 in
theorem run_B (c : Dev nD) (i : grid1.Coords) (E : Set ℕ)
    (arg2 : Memref sig .tc .vmem S128x1024 .f32) (harg2 : arg2.IsWhole) (arg3 : Memref sig .tc .vmem S8x128x128 .f32) (harg3 : arg3.IsWhole)
    (arg4 : Memref sig .tc .vmem S8x128x128 .f32) (harg4 : arg4.IsWhole) (arg5 : Memref sig .tc .vmem S128x1152 .f32) (harg5 : arg5.IsWhole)
    (arg6 : Memref sig .tc .vmem S128x128 .f32) (harg6 : arg6.IsWhole)
    (hc1 : ¬ k1_cond1 i = 1#1) (hc2 : ¬ k1_cond2 i = 1#1)
    (mi mj : Vec F S8x128x128 .f32) (acc : Vec F S128x128 .f32) (K : PUnit → sProp 𝕄) :
    iprop(owns (c : Thread nD τ) arg3 fullShare mi ∗ owns (c : Thread nD τ) arg4 fullShare mj ∗ owns (c : Thread nD τ) arg6 fullShare acc
        ∗ (iprop(owns (c : Thread nD τ) arg3 fullShare mi ∗ owns (c : Thread nD τ) arg4 fullShare mj ∗ owns (c : Thread nD τ) arg6 fullShare (accStep mi mj acc)) -∗ K ⟨⟩))
      ⊢ wp frame (wpE (defs₀ (F := F)) Variants.none c none) E (cc1__pairwise_kernel i arg2 harg2 arg3 harg3 arg4 harg4 arg5 harg5 arg6 harg6) K := by
  simp only [cc1__pairwise_kernel_eq_skeleton]; unfold cc1__pairwise_kernel_skel
  unfold owns
  iintro ⟨⟨%f3, %hf3, H3⟩, ⟨%f4, %hf4, H4⟩, ⟨%f6, %hf6, H6⟩, Hk⟩
  obtain rfl := harg3.eq_unread hf3; obtain rfl := harg4.eq_unread hf4; obtain rfl := harg6.eq_unread hf6
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H6
  ipureintro
  sl_unfold_run_names
  rw [read_writes_whole_last _ _ hz2]
  simp only [View.readAt_eq_ld, harg3.read_unread, harg4.read_unread, harg6.read_unread,
    View.ld_unit_zero (S := S8x128x128) hz3, View.ld_unit_zero (S := S128x128) hz2]
  rfl

end Cert.KernelIdeal.R1

end
-- ==== Proof.Region1Data.lean ====
/-
  The second kernel's proof data, relational: what each window's staging buffer may hold after each grid point.

  The three input windows are left as found. The accumulator (a scratch buffer the kernel keeps between points)
  holds after point t the step of the two blocks of M at t from zero (at the first column block) or from what
  the point before left. The output block is stored in two parts: at the first column block its columns
  0 .. 1023 receive the x block; at the last its columns 1024 .. 1151 receive the transposed accumulator minus one
  and the rest stays; in between it is untouched. So when the block is written back (after the last column block)
  every element of it is determined.
-/
import proofs.«178989_j33483565040179_2_alg».proof.Proof.Gen.KernelIdeal.Launch
import proofs.«178989_j33483565040179_2_alg».proof.Proof.Gen.KernelIdeal.Skeleton
import proofs.«178989_j33483565040179_2_alg».proof.Proof.Gen.KernelIdeal.Points
import proofs.«178989_j33483565040179_2_alg».proof.Proof.Region1Run
import proofs.«178989_j33483565040179_2_alg».proof.Proof.Region1Share
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, the conditions in closed form -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first condition (column block 0) holds at the points ≡ 0 (mod 4). -/
theorem hcond1 : ∀ t : Fin cfg1.N, k1_cond1 (grid1.coords t) = 1#1 ↔ t.val % 4 = 0 :=
  (by decide +kernel : ∀ t : Fin grid1.N, k1_cond1 (grid1.coords t) = 1#1 ↔ t.val % 4 = 0)
/-- The second condition (column block 3) holds at the points ≡ 3 (mod 4). -/
theorem hcond2 : ∀ t : Fin cfg1.N, k1_cond2 (grid1.coords t) = 1#1 ↔ t.val % 4 = 3 :=
  (by decide +kernel : ∀ t : Fin grid1.N, k1_cond2 (grid1.coords t) = 1#1 ↔ t.val % 4 = 3)

/-! ## The accumulator point by point -/

/-- What the accumulator holds after the body at point `n`. -/
def accAfter (c : Dev nD) : (n : ℕ) → n < cfg1.N → Vec F S128x128 .f32
  | 0, h => accStep (iblk1 V c 1 ⟨0, h⟩) (iblk1 V c 2 ⟨0, h⟩) accZero
  | n + 1, h => accStep (iblk1 V c 1 ⟨n + 1, h⟩) (iblk1 V c 2 ⟨n + 1, h⟩)
      (if (n + 1) % 4 = 0 then accZero else accAfter c n (Nat.lt_of_succ_lt h))

theorem accAfter_first (c : Dev nD) (t : Fin cfg1.N) (h0 : t.val % 4 = 0) :
    accAfter V c t.val t.isLt = accStep (iblk1 V c 1 t) (iblk1 V c 2 t) accZero := by
  obtain ⟨n, hn⟩ := t
  cases n with
  | zero => rfl
  | succ n => exact congrArg _ (if_pos h0)

theorem accAfter_later (c : Dev nD) (t : Fin cfg1.N) (h0 : ¬ t.val % 4 = 0) :
    accAfter V c t.val t.isLt = accStep (iblk1 V c 1 t) (iblk1 V c 2 t)
      (accAfter V c (t.val - 1) (Nat.lt_of_le_of_lt (Nat.sub_le _ _) t.isLt)) := by
  obtain ⟨n, hn⟩ := t
  cases n with
  | zero => exact absurd (Nat.zero_mod _) h0
  | succ n => exact congrArg _ (if_neg h0)

/-! ## The invariant: the scoped buffers no window stages, the accumulator among them at its contents -/

/-- The accumulator's memref. -/
abbrev scM1 : Memref sig .tc .vmem S128x128 .f32 := Memref.whole cc1_scratch0

/-- The scoped buffers that are neither the second kernel's staging buffers nor its accumulator: the first kernel's five
    staging buffers, each whole at some contents. -/
def rest5 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The class invariant (every scoped buffer no window stages at anything, the generator register at some state)
    hands out the accumulator at some contents, the other five buffers, and the register; -/
theorem PhiA1_split (c : Dev nD) :
    (Pipeline.ΦA spec1 c : sProp 𝕄) ⊢ iprop((∃ d, owns (c : Thread nD τ) scM1 fullShare d) ∗ rest5 (F := F) c ∗ (∃ r, prngReg c r)) := by
  unfold Pipeline.ΦA rest5; rw [scopedRest1_eq]; simp only [scM1, owns_whole]
  iintro ⟨⟨A1, A2, A3, A4, A5, HS⟩, Hg⟩
  isplitl [HS]; · iexact HS
  isplitr [Hg]
  · isplitl [A1]; · iexact A1
    isplitl [A2]; · iexact A2
    isplitl [A3]; · iexact A3
    isplitl [A4]; · iexact A4
    iexact A5
  iexact Hg

/-- and takes them back. -/
theorem PhiA1_join (c : Dev nD) :
    iprop((∃ d, owns (c : Thread nD τ) scM1 fullShare d) ∗ rest5 (F := F) c ∗ (∃ r, prngReg c r)) ⊢ (Pipeline.ΦA spec1 c : sProp 𝕄) := by
  unfold Pipeline.ΦA rest5; rw [scopedRest1_eq]; simp only [scM1, owns_whole]
  iintro ⟨HS, ⟨A1, A2, A3, A4, A5⟩, Hg⟩
  isplitr [Hg]
  · isplitl [A1]; · iexact A1
    isplitl [A2]; · iexact A2
    isplitl [A3]; · iexact A3
    isplitl [A4]; · iexact A4
    isplitl [A5]; · iexact A5
    iexact HS
  iexact Hg

/-- The invariant before position `n`: before the first point the class's; afterwards the accumulator at what the point
    before left, the other five buffers at anything, the generator register at some state. -/
def PhiS (c : Dev nD) : (n : ℕ) → n ≤ cfg1.N → sProp 𝕄
  | 0, _ => Pipeline.ΦA spec1 c
  | n + 1, hn => iprop(owns (c : Thread nD τ) scM1 fullShare (accAfter V c n hn) ∗ rest5 c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM1 fullShare (accAfter V c n hn) ∗ rest5 c ∗ (∃ r, prngReg c r)) := rfl

theorem PhiS_pos (c : Dev nD) (n : ℕ) (h : n ≤ cfg1.N) (hz : n ≠ 0) :
    PhiS V c n h = iprop(owns (c : Thread nD τ) scM1 fullShare (accAfter V c (n - 1) (by omega)) ∗ rest5 c ∗ (∃ r, prngReg c r)) := by
  cases n with
  | zero => exact absurd rfl hz
  | succ n => rfl

/-! ## The proof data -/

/-- What the body may leave in the output block's staging buffer at point `t` (`X`), given what it found there (`Y`). -/
def rel3 (c : Dev nD) (t : Fin cfg1.N) (Y X : Vec F S128x1152 .f32) : Prop :=
  if t.val % 4 = 0 then View.ld X rL = iblk1 V c 0 t
  else if t.val % 4 = 3 then
    View.ld X rR = outTail (accAfter V c t.val t.isLt) ∧ ∀ y, y ∉ rR.set → X y = Y y
  else X = Y

/-- The relational proof data of the second kernel on core `c`: the arrays as the region finds them; the inputs left
    as found; the output block by `rel3`; the invariant `PhiS`; the two windows on M at the two halves of the share;
    nothing owed. -/
def rd1 (c : Dev nD) : Pipeline.RDat τ (Elt F) Unit ℕ (UR sig nD τ) ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => rel3 V c t Y X
  Φ t := PhiS V c t.val (Nat.le_of_lt_succ t.isLt)
  q := q1
  owed _ := 0

theorem A_eq1 (c : Dev nD) (w : Fin cfg1.W) : (rd1 V c).A w = V c (Pipeline.arrRef spec1 w) := by dsimp only [rd1]
theorem q_eq1 (c : Dev nD) : (rd1 V c).q = q1 := rfl
theorem owed_eq1 (c : Dev nD) (t) : (rd1 V c).owed t = 0 := rfl

theorem after1_0 (c : Dev nD) (t : Fin cfg1.N) (Y X) : (rd1 V c).after 0 t Y X ↔ X = Y := by dsimp only [rd1]; exact Iff.rfl
theorem after1_1 (c : Dev nD) (t : Fin cfg1.N) (Y X) : (rd1 V c).after 1 t Y X ↔ X = Y := by dsimp only [rd1]; exact Iff.rfl
theorem after1_2 (c : Dev nD) (t : Fin cfg1.N) (Y X) : (rd1 V c).after 2 t Y X ↔ X = Y := by dsimp only [rd1]; exact Iff.rfl
theorem after1_3 (c : Dev nD) (t : Fin cfg1.N) (Y X) : (rd1 V c).after 3 t Y X ↔ rel3 V c t Y X := by dsimp only [rd1]; exact Iff.rfl

/-- An input window's staging buffer holds its block wherever the body is handed it. -/
theorem finds1_0 (c : Dev nD) (t : Fin cfg1.N) (Y) (h : (rd1 V c).Finds 0 t Y) : Y = iblk1 V c 0 t := by
  obtain ⟨d, rfl⟩ := Pipeline.RDat.finds_in_eq_fetched (rd1 V c) 0 rfl (fun _ _ _ => rfl) (fun t Y X hR => (after1_0 V c t Y X).mp hR) t Y h
  unfold Pipeline.RDat.fetched Pipeline.RDat.blockOf iblk1; rw [A_eq1]; try rfl
theorem finds1_1 (c : Dev nD) (t : Fin cfg1.N) (Y) (h : (rd1 V c).Finds 1 t Y) : Y = iblk1 V c 1 t := by
  obtain ⟨d, rfl⟩ := Pipeline.RDat.finds_in_eq_fetched (rd1 V c) 1 rfl (fun _ _ _ => rfl) (fun t Y X hR => (after1_1 V c t Y X).mp hR) t Y h
  unfold Pipeline.RDat.fetched Pipeline.RDat.blockOf iblk1; rw [A_eq1]; try rfl
theorem finds1_2 (c : Dev nD) (t : Fin cfg1.N) (Y) (h : (rd1 V c).Finds 2 t Y) : Y = iblk1 V c 2 t := by
  obtain ⟨d, rfl⟩ := Pipeline.RDat.finds_in_eq_fetched (rd1 V c) 2 rfl (fun _ _ _ => rfl) (fun t Y X hR => (after1_2 V c t Y X).mp hR) t Y h
  unfold Pipeline.RDat.fetched Pipeline.RDat.blockOf iblk1; rw [A_eq1]; try rfl

end Cert.KernelIdeal.R1

end
-- ==== Proof.Region1RunA.lean ====
/-
  The second kernel's body at the first column block (j = 0): the accumulator is zeroed before its step and the x block is copied into columns 0 .. 1023 of the output block.
-/
import proofs.«178989_j33483565040179_2_alg».proof.Proof.Gen.KernelIdeal.Launch
import proofs.«178989_j33483565040179_2_alg».proof.Proof.Gen.KernelIdeal.Skeleton
import proofs.«178989_j33483565040179_2_alg».proof.Proof.Gen.KernelIdeal.Points
import proofs.«178989_j33483565040179_2_alg».proof.Proof.Region1Run
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

/-! ## The first column block (j = 0): the accumulator starts from zero, the x block goes into columns 0 .. 1023 -/

set_option maxHeartbeats 4000000 in
theorem run_A (c : Dev nD) (i : grid1.Coords) (E : Set ℕ)
    (arg2 : Memref sig .tc .vmem S128x1024 .f32) (harg2 : arg2.IsWhole) (arg3 : Memref sig .tc .vmem S8x128x128 .f32) (harg3 : arg3.IsWhole)
    (arg4 : Memref sig .tc .vmem S8x128x128 .f32) (harg4 : arg4.IsWhole) (arg5 : Memref sig .tc .vmem S128x1152 .f32) (harg5 : arg5.IsWhole)
    (arg6 : Memref sig .tc .vmem S128x128 .f32) (harg6 : arg6.IsWhole)
    (hc1 : k1_cond1 i = 1#1) (hc2 : ¬ k1_cond2 i = 1#1)
    (x0 : Vec F S128x1024 .f32) (mi mj : Vec F S8x128x128 .f32) (y5 : Vec F S128x1152 .f32) (K : PUnit → sProp 𝕄) :
    iprop(owns (c : Thread nD τ) arg2 fullShare x0 ∗ owns (c : Thread nD τ) arg3 fullShare mi ∗ owns (c : Thread nD τ) arg4 fullShare mj
        ∗ owns (c : Thread nD τ) arg5 fullShare y5 ∗ (∃ d, owns (c : Thread nD τ) arg6 fullShare d)
        ∗ (iprop(owns (c : Thread nD τ) arg2 fullShare x0 ∗ owns (c : Thread nD τ) arg3 fullShare mi ∗ owns (c : Thread nD τ) arg4 fullShare mj
            ∗ (∃ X, ⌜View.ld X rL = x0⌝ ∗ owns (c : Thread nD τ) arg5 fullShare X)
            ∗ owns (c : Thread nD τ) arg6 fullShare (accStep mi mj accZero)) -∗ K ⟨⟩))
      ⊢ wp frame (wpE (defs₀ (F := F)) Variants.none c none) E (cc1__pairwise_kernel i arg2 harg2 arg3 harg3 arg4 harg4 arg5 harg5 arg6 harg6) K := by
  simp only [cc1__pairwise_kernel_eq_skeleton]; unfold cc1__pairwise_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists (arg5.view.read (Elt F) (arg5.view.writes (Elt F) (harg5.unread y5)
      ([⟨rL, View.readAt (Elt F) arg2.view (Rect.unit (s := S128x1024) ![0, 0] S128x1024.size inb_S128x1024_S128x1024_0_0).toLoadRect (harg2.unread x0)⟩] : List (View.Piece (Elt F) S128x1152 .f32))))
    isplitr
    · ipureintro
      funext x
      refine (View.read_writes_cons_emb (Val := Elt F) arg5.view (harg5.unread y5) rL _ [] x).trans ?_
      simp only [View.readAt_eq_ld, harg2.read_unread]
      exact congrFun (View.ld_unit_zero (S := S128x1024) hz2 inb_S128x1024_S128x1024_0_0 x0) x
    iexists _; isplitr; · ipureintro; rfl
    iexact H5
  iexists _; isplitr
  swap; · iexact H6
  ipureintro
  sl_unfold_run_names
  rw [read_writes_whole_last _ _ hz2]
  simp only [View.readAt_eq_ld, harg3.read_unread, harg4.read_unread,
    View.ld_unit_zero (S := S8x128x128) hz3, View.ld_unit_zero (S := S128x128) hz2,
    View.readCov_unit_zero (S := S128x128) _ hz2]
  rfl

end Cert.KernelIdeal.R1

end
-- ==== Proof.Region1RunC.lean ====
/-
  The second kernel's body at the last column block (j = 3): after its step the accumulator, minus one and transposed, is stored into columns 1024 .. 1151 of the output block; the other columns stay.
-/
import proofs.«178989_j33483565040179_2_alg».proof.Proof.Gen.KernelIdeal.Launch
import proofs.«178989_j33483565040179_2_alg».proof.Proof.Gen.KernelIdeal.Skeleton
import proofs.«178989_j33483565040179_2_alg».proof.Proof.Gen.KernelIdeal.Points
import proofs.«178989_j33483565040179_2_alg».proof.Proof.Region1Run
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

/-! ## The last column block (j = 3): after its step the accumulator, minus one and transposed, goes into columns 1024 .. 1151 -/

set_option maxHeartbeats 4000000 in
theorem run_C (c : Dev nD) (i : grid1.Coords) (E : Set ℕ)
    (arg2 : Memref sig .tc .vmem S128x1024 .f32) (harg2 : arg2.IsWhole) (arg3 : Memref sig .tc .vmem S8x128x128 .f32) (harg3 : arg3.IsWhole)
    (arg4 : Memref sig .tc .vmem S8x128x128 .f32) (harg4 : arg4.IsWhole) (arg5 : Memref sig .tc .vmem S128x1152 .f32) (harg5 : arg5.IsWhole)
    (arg6 : Memref sig .tc .vmem S128x128 .f32) (harg6 : arg6.IsWhole)
    (hc1 : ¬ k1_cond1 i = 1#1) (hc2 : k1_cond2 i = 1#1)
    (mi mj : Vec F S8x128x128 .f32) (y5 : Vec F S128x1152 .f32) (acc : Vec F S128x128 .f32) (K : PUnit → sProp 𝕄) :
    iprop(owns (c : Thread nD τ) arg3 fullShare mi ∗ owns (c : Thread nD τ) arg4 fullShare mj
        ∗ owns (c : Thread nD τ) arg5 fullShare y5 ∗ owns (c : Thread nD τ) arg6 fullShare acc
        ∗ (iprop(owns (c : Thread nD τ) arg3 fullShare mi ∗ owns (c : Thread nD τ) arg4 fullShare mj
            ∗ (∃ X, ⌜View.ld X rR = outTail (accStep mi mj acc) ∧ ∀ y, y ∉ rR.set → X y = y5 y⌝ ∗ owns (c : Thread nD τ) arg5 fullShare X)
            ∗ owns (c : Thread nD τ) arg6 fullShare (accStep mi mj acc)) -∗ K ⟨⟩))
      ⊢ wp frame (wpE (defs₀ (F := F)) Variants.none c none) E (cc1__pairwise_kernel i arg2 harg2 arg3 harg3 arg4 harg4 arg5 harg5 arg6 harg6) K := by
  simp only [cc1__pairwise_kernel_eq_skeleton]; unfold cc1__pairwise_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg5.eq_unread hf5; obtain rfl := harg6.eq_unread hf6
  sl_exec (disch := first | exact hc1 | exact hc2)
  sl_step
  have hacc : arg6.view.read (Elt F) (arg6.view.writes (Elt F) (harg6.unread acc) (run_C.sl.H6_1 c arg3 harg3 arg4 harg4 arg6 harg6 mi mj acc))
      = accStep mi mj acc := by
    sl_unfold_run_names
    rw [read_writes_whole_last _ _ hz2]
    simp only [View.readAt_eq_ld, harg3.read_unread, harg4.read_unread, harg6.read_unread,
      View.ld_unit_zero (S := S8x128x128) hz3, View.ld_unit_zero (S := S128x128) hz2]
    rfl
  iapply Hk
  isplitl [H3]
  · iexists _; isplitr; · ipureintro; exact harg3.read_unread _
    iexact H3
  isplitl [H4]
  · iexists _; isplitr; · ipureintro; exact harg4.read_unread _
    iexact H4
  isplitl [H5]
  · iexists (arg5.view.read (Elt F) (arg5.view.writes (Elt F) (harg5.unread y5)
      ([⟨rR, k1_pay2 (run_C.sl.v396 c arg3 harg3 arg4 harg4 arg6 harg6 mi mj acc)⟩] : List (View.Piece (Elt F) S128x1152 .f32))))
    isplitr
    · ipureintro
      refine ⟨?_, fun y hy => ?_⟩
      · funext x
        refine (View.read_writes_cons_emb (Val := Elt F) arg5.view (harg5.unread y5) rR _ [] x).trans ?_
        sl_unfold_run_names
        simp only [View.readAt_eq_ld, View.readCov_unit_zero (S := S128x128) _ hz2, harg3.read_unread, harg4.read_unread, harg6.read_unread,
          View.ld_unit_zero (S := S8x128x128) hz3, View.ld_unit_zero (S := S128x128) hz2]
        rfl
      · refine (View.read_writes_apply_of_forall_not_mem (Val := Elt F) arg5.view (harg5.unread y5) y _ (fun p hp => ?_)).trans (congrFun (harg5.read_unread y5) y)
        rw [List.mem_singleton] at hp; subst hp; exact hy
    iexists _; isplitr; · ipureintro; rfl
    iexact H5
  iexists _; isplitr
  swap; · iexact H6
  ipureintro
  exact hacc

end Cert.KernelIdeal.R1

end
-- ==== Proof.Region1Body.lean ====
/-
  The second kernel's body obligation over its relational proof data: at every grid point, from the invariant
  (the accumulator at what the point before left), the inputs' staging buffers at their blocks and the output
  block's buffer at whatever it holds, the body runs to the invariant at the next point, the inputs as they
  were, and the output block's buffer in the point's relation to what it held. By cases on the column block:
  the first (accumulator zeroed, x copied in), the last (the tail columns stored), the two in between.
-/
import proofs.«178989_j33483565040179_2_alg».proof.Proof.Gen.KernelIdeal.Launch
import proofs.«178989_j33483565040179_2_alg».proof.Proof.Gen.KernelIdeal.Skeleton
import proofs.«178989_j33483565040179_2_alg».proof.Proof.Gen.KernelIdeal.Points
import proofs.«178989_j33483565040179_2_alg».proof.Proof.Region1Data
import proofs.«178989_j33483565040179_2_alg».proof.Proof.Region1RunA
import proofs.«178989_j33483565040179_2_alg».proof.Proof.Region1RunC
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant at a point's start, restated at the point's position. -/
theorem Phi_castSucc (c : Dev nD) (t : Fin cfg1.N) :
    (rd1 V c).Φ t.castSucc = PhiS V c t.val (Nat.le_of_lt t.isLt) := by
  dsimp only [rd1]; simp only [Fin.coe_castSucc]

set_option maxHeartbeats 4000000 in
/-- The body at any point, the inputs' buffers at their blocks and the output block's at `y3`. -/
theorem sound_body1 (c : Dev nD) (t : Fin cfg1.N) (y3 : Vec F S128x1152 .f32) :
    iprop((rd1 V c).Φ t.castSucc ∗ (rd1 V c).owesAt () t.castSucc
        ∗ owns (c : Thread nD τ) (st1_0 t) fullShare (iblk1 V c 0 t)
        ∗ owns (c : Thread nD τ) (st1_1 t) fullShare (iblk1 V c 1 t)
        ∗ owns (c : Thread nD τ) (st1_2 t) fullShare (iblk1 V c 2 t)
        ∗ owns (c : Thread nD τ) (st1_3 t) fullShare y3)
      ⊢ wp frame (wpE (defs₀ (F := F)) Variants.none c none) Set.univ (bodyAt1 t) (fun _ =>
          iprop((rd1 V c).Φ t.succ ∗ (rd1 V c).owesAt () t.succ
            ∗ (∃ X, ⌜(rd1 V c).after 0 t (iblk1 V c 0 t) X⌝ ∗ owns (c : Thread nD τ) (st1_0 t) fullShare X)
            ∗ (∃ X, ⌜(rd1 V c).after 1 t (iblk1 V c 1 t) X⌝ ∗ owns (c : Thread nD τ) (st1_1 t) fullShare X)
            ∗ (∃ X, ⌜(rd1 V c).after 2 t (iblk1 V c 2 t) X⌝ ∗ owns (c : Thread nD τ) (st1_2 t) fullShare X)
            ∗ (∃ X, ⌜(rd1 V c).after 3 t y3 X⌝ ∗ owns (c : Thread nD τ) (st1_3 t) fullShare X))) := by
  unfold bodyAt1
  rw [show (rd1 V c).owesAt () t.succ = (rd1 V c).owesAt () t.castSucc from rfl,
    show (rd1 V c).Φ t.succ = PhiS V c (t.val + 1) t.isLt from rfl, PhiS_succ, Phi_castSucc]
  simp only [after1_0, after1_1, after1_2, after1_3]
  have hN : t.val < 16 := lt_of_lt_of_eq t.isLt (show cfg1.N = 16 from N_1)
  by_cases h0 : t.val % 4 = 0
  · -- the first column block
    have hc1 : k1_cond1 (grid1.coords t) = 1#1 := (hcond1 t).mpr h0
    have hc2 : ¬ k1_cond2 (grid1.coords t) = 1#1 := fun h => by have := (hcond2 t).mp h; omega
    rw [accAfter_first V c t h0]
    have key : ∀ (P : sProp 𝕄), (P ⊢ iprop(∃ d, owns (c : Thread nD τ) scM1 fullShare d)) →
        iprop(P ∗ rest5 (F := F) c ∗ (∃ r, prngReg c r) ∗ (rd1 V c).owesAt () t.castSucc
          ∗ owns (c : Thread nD τ) (st1_0 t) fullShare (iblk1 V c 0 t)
          ∗ owns (c : Thread nD τ) (st1_1 t) fullShare (iblk1 V c 1 t)
          ∗ owns (c : Thread nD τ) (st1_2 t) fullShare (iblk1 V c 2 t)
          ∗ owns (c : Thread nD τ) (st1_3 t) fullShare y3)
        ⊢ wp frame (wpE (defs₀ (F := F)) Variants.none c none) Set.univ
            (cc1__pairwise_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _))
            (fun _ => iprop(iprop(owns (c : Thread nD τ) scM1 fullShare (accStep (iblk1 V c 1 t) (iblk1 V c 2 t) accZero) ∗ rest5 c ∗ (∃ r, prngReg c r))
              ∗ (rd1 V c).owesAt () t.castSucc
              ∗ (∃ X, ⌜X = iblk1 V c 0 t⌝ ∗ owns (c : Thread nD τ) (st1_0 t) fullShare X)
              ∗ (∃ X, ⌜X = iblk1 V c 1 t⌝ ∗ owns (c : Thread nD τ) (st1_1 t) fullShare X)
              ∗ (∃ X, ⌜X = iblk1 V c 2 t⌝ ∗ owns (c : Thread nD τ) (st1_2 t) fullShare X)
              ∗ (∃ X, ⌜rel3 V c t y3 X⌝ ∗ owns (c : Thread nD τ) (st1_3 t) fullShare X))) := by
      intro P hP
      iintro ⟨HS, HR, Hg, Ho, H0, H1, H2, H3⟩
      iapply (run_A c (grid1.coords t) Set.univ _ _ _ _ _ _ _ _ _ _ hc1 hc2 (iblk1 V c 0 t) (iblk1 V c 1 t) (iblk1 V c 2 t) y3 _)
      isplitl [H0]; · iexact H0
      isplitl [H1]; · iexact H1
      isplitl [H2]; · iexact H2
      isplitl [H3]; · iexact H3
      isplitl [HS]; · iapply hP; iexact HS
      iintro ⟨H0, H1, H2, ⟨%X, %hX, H3⟩, HS⟩
      isplitl [HS HR Hg]
      · isplitl [HS]; · iexact HS
        isplitl [HR]; · iexact HR
        iexact Hg
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      iexists X; isplitr
      · ipureintro; unfold rel3; rw [if_pos h0]; exact hX
      iexact H3
    by_cases hz : t.val = 0
    · rw [PhiS_zero V c _ _ hz]
      refine Idealize.SL.BI.BIBase.Entails.trans ?_ (key (iprop(∃ d, owns (c : Thread nD τ) scM1 fullShare d)) .rfl)
      iintro ⟨HΦ, Ho, H0, H1, H2, H3⟩
      ihave HΦ' := (PhiA1_split (F := F) c) $$ HΦ
      icases HΦ' with ⟨HS, HR, Hg⟩
      isplitl [HS]; · iexact HS
      isplitl [HR]; · iexact HR
      isplitl [Hg]; · iexact Hg
      isplitl [Ho]; · iexact Ho
      isplitl [H0]; · iexact H0
      isplitl [H1]; · iexact H1
      isplitl [H2]; · iexact H2
      iexact H3
    · rw [PhiS_pos V c _ _ hz]
      refine Idealize.SL.BI.BIBase.Entails.trans ?_ (key (owns (c : Thread nD τ) scM1 fullShare (accAfter V c (t.val - 1) (Nat.lt_of_le_of_lt (Nat.sub_le _ _) t.isLt)))
        (show (owns (c : Thread nD τ) scM1 fullShare (accAfter V c (t.val - 1) (Nat.lt_of_le_of_lt (Nat.sub_le _ _) t.isLt)) : sProp 𝕄) ⊢ iprop(∃ d, owns (c : Thread nD τ) scM1 fullShare d) from by
          iintro H; iexists _; iexact H))
      iintro ⟨⟨HS, HR, Hg⟩, Ho, H0, H1, H2, H3⟩
      isplitl [HS]; · iexact HS
      isplitl [HR]; · iexact HR
      isplitl [Hg]; · iexact Hg
      isplitl [Ho]; · iexact Ho
      isplitl [H0]; · iexact H0
      isplitl [H1]; · iexact H1
      isplitl [H2]; · iexact H2
      iexact H3
  · have hz : t.val ≠ 0 := fun e => h0 (by rw [e])
    have hc1 : ¬ k1_cond1 (grid1.coords t) = 1#1 := fun h => h0 ((hcond1 t).mp h)
    rw [PhiS_pos V c _ _ hz, accAfter_later V c t h0]
    by_cases h3 : t.val % 4 = 3
    · -- the last column block
      have hc2 : k1_cond2 (grid1.coords t) = 1#1 := (hcond2 t).mpr h3
      iintro ⟨⟨HS, HR, Hg⟩, Ho, H0, H1, H2, H3⟩
      iapply (run_C c (grid1.coords t) Set.univ _ _ _ _ _ _ _ _ _ _ hc1 hc2 (iblk1 V c 1 t) (iblk1 V c 2 t) y3 (accAfter V c (t.val - 1) (Nat.lt_of_le_of_lt (Nat.sub_le _ _) t.isLt)) _)
      isplitl [H1]; · iexact H1
      isplitl [H2]; · iexact H2
      isplitl [H3]; · iexact H3
      isplitl [HS]; · iexact HS
      iintro ⟨H1, H2, ⟨%X, %hX, H3⟩, HS⟩
      isplitl [HS HR Hg]
      · isplitl [HS]; · iexact HS
        isplitl [HR]; · iexact HR
        iexact Hg
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      iexists X; isplitr
      · ipureintro; unfold rel3; rw [if_neg h0, if_pos h3, accAfter_later V c t h0]; exact hX
      iexact H3
    · -- a column block in between
      have hc2 : ¬ k1_cond2 (grid1.coords t) = 1#1 := fun h => h3 ((hcond2 t).mp h)
      iintro ⟨⟨HS, HR, Hg⟩, Ho, H0, H1, H2, H3⟩
      iapply (run_B c (grid1.coords t) Set.univ _ _ _ _ _ _ _ _ _ _ hc1 hc2 (iblk1 V c 1 t) (iblk1 V c 2 t) (accAfter V c (t.val - 1) (Nat.lt_of_le_of_lt (Nat.sub_le _ _) t.isLt)) _)
      isplitl [H1]; · iexact H1
      isplitl [H2]; · iexact H2
      isplitl [HS]; · iexact HS
      iintro ⟨H1, H2, HS⟩
      isplitl [HS HR Hg]
      · isplitl [HS]; · iexact HS
        isplitl [HR]; · iexact HR
        iexact Hg
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      iexists y3; isplitr
      · ipureintro; unfold rel3; rw [if_neg h0, if_neg h3]
      iexact H3

/-- The library's relational body obligation, at every point. -/
theorem body_obligation1 (c : Dev nD) : (rd1 V c).BodyObligation (defs₀ (F := F)) Variants.none () Set.univ := fun t Y hY => by
  rw [bigSep_W1, bigSep_W1]
  have e0 := finds1_0 V c t _ (hY 0)
  have e1 := finds1_1 V c t _ (hY 1)
  have e2 := finds1_2 V c t _ (hY 2)
  rw [e0, e1, e2]
  exact sound_body1 V c t (Y 3)

/-- What the launch hands the region is the invariant before the first point, -/
theorem hin1 (c : Dev nD) : Pipeline.ΦA spec1 c ⊢ (rd1 V c).Φ 0 := by
  rw [show (rd1 V c).Φ 0 = PhiS V c 0 (Nat.zero_le _) from rfl, PhiS_zero V c 0 _ rfl]
  try exact Idealize.SL.BI.Entails.refl _

/-- and the invariant after the last point gives it back: the accumulator's contents are forgotten. -/
theorem hout1 (c : Dev nD) : (rd1 V c).Φ (Fin.last cfg1.N) ⊢ Pipeline.ΦA spec1 c := by
  rw [show (rd1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega)]
  refine Idealize.SL.BI.BIBase.Entails.trans ?_ (PhiA1_join (F := F) c)
  iintro ⟨HS, HR, Hg⟩
  isplitl [HS]; · iexists _; iexact HS
  isplitl [HR]; · iexact HR
  iexact Hg

end Cert.KernelIdeal.R1

end
-- ==== Proof.KernelFrame.lean ====
/-
  The kernel program's run with both regions' proof data in place: the second region's relational data meets what the
  run asks of it, so @main terminates with the output array at contents the second pipeline's write-backs may leave
  and both arguments as launched; forgetting the output gives the frame.
-/
import proofs.«178989_j33483565040179_2_alg».proof.Proof.Run
import proofs.«178989_j33483565040179_2_alg».proof.Proof.Region1Data
import proofs.«178989_j33483565040179_2_alg».proof.Proof.Region1Body

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region's data, at the contents the first region leaves, meets what the run asks of it. -/
theorem data1 : Run.Data1 m ρ (fun c => R1.rd1 (Run.V2 m ρ) c) where
  hA c w := R1.A_eq1 (Run.V2 m ρ) c w
  hq c := R1.q_eq1 (Run.V2 m ρ) c
  howed c t := R1.owed_eq1 (Run.V2 m ρ) c t
  hrec _ _ := rfl
  hbody c := R1.body_obligation1 (Run.V2 m ρ) c
  hin c := R1.hin1 (Run.V2 m ρ) c
  hout c := R1.hout1 (Run.V2 m ρ) c

/-- THE RUN: @main terminates; the output array ends at contents the second pipeline's write-backs may leave from the
    contents the first region left, and both arguments end as launched. -/
theorem run : θ_run defs (onTc (τ := τ) (main (F := F))) ⟨m, fun _ => 0, ρ⟩ (fun r => ∀ c : Dev nD,
      (R1.rd1 (Run.V2 m ρ) c).ArrAt 3 cfg1.N (r.2.mem ((c.tc : Thread nD τ).loc main_v2))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Run.run_main m ρ _ (data1 m ρ)

/-- THE FRAME: @main terminates and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.KernelIdeal.Asm

end
-- ==== Proof.Region0K.lean ====
/-
  The first pallas_call (the projection kernel) as a pipeline region, at the contents V the TensorCore's buffers hold
  when the region is entered: each window's block at a grid point, what the body leaves in the output window's buffer
  (the one store's value over the two input blocks), the body's triple, the pipeline's proof data and the body
  obligation. Everything is stated for an arbitrary float instance F.
-/
import proofs.«178989_j33483565040179_2_alg».proof.Proof.Gen.Kernel.Launch
import proofs.«178989_j33483565040179_2_alg».proof.Proof.Gen.Kernel.Skeleton
import proofs.«178989_j33483565040179_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the whole matrix x, fetched at the first point only) holds its block at every point: where it is
    not fetched its block index has not moved, so the buffer still holds the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (slab k of the transposed tensor, fetched at every point) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev r0_0 : Rect S1x128x1024 := Rect.unit (s := S1x128x1024) ![0, 0, 0] S1x128x1024.size inb_S1x128x1024_S1x128x1024_0_0_0
abbrev r0_1 : Rect S512x1024 := Rect.unit (s := S512x1024) ![0, 0] S512x1024.size inb_S512x1024_S512x1024_0_0
abbrev r0_2 : Rect S1x128x512 := Rect.unit (s := S1x128x512) ![0, 0, 0] S1x128x512.size inb_S1x128x512_S1x128x512_0_0_0

/-! ## What the body leaves in the output window's buffer -/

/-- Window 2's staging buffer after the body, from the input windows' blocks (x0 the matrix x, x1 the slab): its one
    store, of the product of the slab with x contracted along the inner axis, over the whole buffer. -/
def out0_2 (x0 : Vec F S512x1024 .f32) (x1 : Vec F S1x128x1024 .f32) : Vec F S1x128x512 .f32 :=
  View.canon [⟨r0_2, k0_pay1 (View.ld x1 r0_0) (View.ld x0 r0_1)⟩]

/-- The store's rectangle is the whole buffer, so it covers it. -/
theorem cover0_2 (p0 : Vec F S1x128x512 .f32) (y : S1x128x512.Idx) :
    ∃ pc ∈ ([⟨r0_2, p0⟩] : List (View.Piece (Elt F) S1x128x512 .f32)), y ∈ pc.1.set :=
  View.cover_of_tiled [⟨r0_2, p0⟩] S1x128x512.size (by rfl) y

/-- Both loads read whole buffers and the one store writes the whole buffer, so the output's buffer after the body is
    the store's value at the input blocks themselves. -/
theorem out0_2_eq (x0 : Vec F S512x1024 .f32) (x1 : Vec F S1x128x1024 .f32) : out0_2 x0 x1 = k0_pay1 x1 x0 := by
  unfold out0_2
  rw [View.canon_unit_zero (by funext a; fin_cases a <;> rfl),
    View.ld_unit_zero (by funext a; fin_cases a <;> rfl), View.ld_unit_zero (by funext a; fin_cases a <;> rfl)]

/-! ## The body's triple -/

set_option maxHeartbeats 1000000 in
/-- The kernel body on whole staging memrefs, the inputs' at read contents x0 and x1 and the output's at anything, runs
    to the continuation holding the inputs' as they were and the output's at out0_2 of the inputs'. The body also loads
    the output's buffer before storing it; the loaded value is not used. -/
theorem sound_kernel0 (c : Dev nD) (E : Set ℕ) (i : grid0.Coords)
    (arg1 : Memref sig .tc .vmem S512x1024 .f32) (harg1 : arg1.IsWhole)
    (arg2 : Memref sig .tc .vmem S1x128x1024 .f32) (harg2 : arg2.IsWhole)
    (arg3 : Memref sig .tc .vmem S1x128x512 .f32) (harg3 : arg3.IsWhole)
    (x0 : Vec F S512x1024 .f32) (x1 : Vec F S1x128x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the region finds them; after the body at point t each
    input's buffer at its block and the output's at out0_2 of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's owed signals pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.Region1ShareK.lean ====
/-
  How the second kernel's four windows hold their arrays: the two windows that read M hold the one array at the
  two halves of the full share; x's window and the output's at the full share.
-/
import proofs.«178989_j33483565040179_2_alg».proof.Proof.Gen.Kernel.Launch

noncomputable section

namespace Cert.Kernel.R1

open Idealize.ShloMosaic Idealize.SL Idealize.SL.RA Cert.Kernel

/-- The share each window of the second kernel holds its array at. -/
def q1 : Fin cfg1.W → PosShare TreeShare := fun w =>
  match w with
  | ⟨0, _⟩ => fullShare
  | ⟨1, _⟩ => fullShare.left
  | ⟨2, _⟩ => fullShare.right
  | ⟨3, _⟩ => fullShare

end Cert.Kernel.R1

end
-- ==== Proof.RunK.lean ====
/-
  The run of @main over both pallas_calls. The contents of the TensorCore's unscoped buffers at the boundaries between
  the host transpose, the projection kernel's region and the pairwise kernel's region; each region as a segment of the
  run over relational proof data, the second region's data a parameter; and the run's conclusion: the output array
  holds what the second pipeline's write-backs leave, and the arguments end as launched.
-/
import proofs.«178989_j33483565040179_2_alg».proof.Proof.Region0K
import proofs.«178989_j33483565040179_2_alg».proof.Proof.Region1ShareK
import proofs.«178989_j33483565040179_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The second region's arrays out of the core's unscoped buffers

Two of the second pipeline's windows read one array (the projection's output), so the pipeline holds that array twice,
at the two halves of the full share; its other two windows hold theirs whole. -/

/-- The core's five unscoped buffers, one by one. -/
theorem unscopedBufs_eq (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)
          ∗ (((c : Thread nD τ).loc main_v2) ↦{fullShare} V main_v2)) :=
  bigSep_eq_bigSepL_of_eq [main_arg0, main_arg1, main_v0, main_v1, main_v2] (by decide) (by decide) _

/-- A core's unscoped buffers at contents V are the second pipeline's arrays at its entry contents (read off V) and
    the two buffers that are no window's array. -/
theorem entry1 (c : Dev nD) (rd : RDat τ (Elt F) Unit ℕ (UR sig nD τ) ℕ cfg1 c) (hq : rd.q = R1.q1)
    (V : (b : Ref sig .tc) → Buf (Elt F) ((c : Thread nD τ).loc b)) (hA : ∀ w, rd.A w = V (Pipeline.arrRef spec1 w)) :
    (unscopedBufs c V : sProp 𝕄) ⊢ iprop(rd.arrays rd.A ∗ Pipeline.unscopedRest (Ix := Unit) (Name := ℕ) (U := UR sig nD τ) (Lvl := ℕ) spec1 c V) := by
  have h0 : rd.share 0 = fullShare := by unfold RDat.share; rw [hq]; rfl
  have h1 : rd.share 1 = fullShare.left := by unfold RDat.share; rw [hq]; rfl
  have h2 : rd.share 2 = fullShare.right := by unfold RDat.share; rw [hq]; rfl
  have h3 : rd.share 3 = fullShare := by unfold RDat.share; rfl
  rw [unscopedRest1_eq, unscopedBufs_eq]
  unfold RDat.arrays
  rw [bigSep_W1, h0, h1, h2, h3, hA 0, hA 1, hA 2, hA 3]
  simp only [View.set_whole]
  iintro ⟨H0, H1, H2, H3, H4⟩
  ihave H3' := (pointsTo_share (PosShare.mem_left_op_right fullShare)).1 $$ H3
  icases H3' with ⟨H3l, H3r⟩
  isplitl [H0 H3l H3r H4]
  · isplitl [H0]; · iexact H0
    isplitl [H3l]; · iexact H3l
    isplitl [H3r]; · iexact H3r
    iexact H4
  isplitl [H1]; · iexact H1
  iexact H2

/-! ## The buffer contents at each boundary of @main -/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host transpose (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit (the second region's entry): its arrays at what the pipeline leaves (the inputs as
    entered, the output's write-backs folded), every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- No host operation writes a buffer other than the transposed tensor's. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- The transposed tensor, as the first region finds it: the host transpose of the second argument. -/
theorem V1_main_v0 (c : Dev nD) :
    (V1 m ρ c main_v0 : S8x128x1024.Idx → Elt F .f32)
      = transpose S8x128x1024 [2, 1, 0] (m ((c : Thread nD τ).loc main_arg1)) transposes_S1024x128x8_S8x128x1024_2_1_0 := by
  show StableHlo.after hostOps0 (fun b => m (c, b)) (Proc.devRef .tc main_v0) = _
  dsimp only [hostOps0]; after_results

/-- The projection's output array, as the second region finds it: what the first pipeline's write-backs leave. -/
theorem V2_main_v1 (c : Dev nD) : V2 m ρ c main_v1 = (R0.dat0 (V1 m ρ) c).arrAt 2 cfg0.N := W2_arr m ρ c 2

/-- The first argument is as launched when the second region is entered: the transpose does not write it and the
    first region only reads it. -/
theorem V2_main_arg0 (c : Dev nD) : V2 m ρ c main_arg0 = m ((c : Thread nD τ).loc main_arg0) :=
  calc V2 m ρ c main_arg0
    _ = V1 m ρ c main_arg0 := (W2_arr m ρ c 0).trans (((R0.dat0 (V1 m ρ) c).arrAt_in 0 rfl _).trans (R0.A_eq0 (V1 m ρ) c 0))
    _ = W0 m ρ c (Proc.devRef .tc main_arg0) := W1_of m ρ c main_arg0 (by decide)
    _ = m ((c : Thread nD τ).loc main_arg0) := rfl

/-- The second argument too: no region has it as a window's array. -/
theorem V2_main_arg1 (c : Dev nD) : V2 m ρ c main_arg1 = m ((c : Thread nD τ).loc main_arg1) :=
  calc V2 m ρ c main_arg1
    _ = V1 m ρ c main_arg1 := W2_of_ne m ρ c main_arg1 (by decide)
    _ = W0 m ρ c (Proc.devRef .tc main_arg1) := W1_of m ρ c main_arg1 (by decide)
    _ = m ((c : Thread nD τ).loc main_arg1) := rfl

/-! ## The first region's arrays back into the core's unscoped buffers -/

/-- The first pipeline's arrays at what its write-backs leave, and the two buffers that are no window's array as the
    region found them, are the core's unscoped buffers at the region's exit contents. -/
theorem exit0 (c : Dev nD) :
    iprop((R0.dat0 (V1 m ρ) c).arrays ((R0.dat0 (V1 m ρ) c).arrAt · cfg0.N)
        ∗ Pipeline.unscopedRest (Ix := Unit) (Name := ℕ) (U := UR sig nD τ) (Lvl := ℕ) spec0 c (V1 m ρ c))
      ⊢ (unscopedBufs c (V2 m ρ c) : sProp 𝕄) := by
  have hs : ∀ w, (R0.dat0 (V1 m ρ) c).share w = fullShare := (R0.dat0 (V1 m ρ) c).share_full fun _ => rfl
  rw [unscopedRest0_eq, unscopedBufs_eq]
  unfold Dat.arrays
  rw [bigSep_W0]
  beta_reduce
  rw [hs 0, hs 1, hs 2, hF0 m ρ c 0, hF0 m ρ c 1, hF0 m ρ c 2,
    ← (show V2 m ρ c main_arg1 = V1 m ρ c main_arg1 from W2_of_ne m ρ c main_arg1 (by decide)),
    ← (show V2 m ρ c main_v2 = V1 m ρ c main_v2 from W2_of_ne m ρ c main_v2 (by decide))]
  simp only [View.set_whole]
  iintro ⟨⟨H0, H1, H2⟩, H3, H4⟩
  isplitl [H0]; · iexact H0
  isplitl [H3]; · iexact H3
  isplitl [H1]; · iexact H1
  isplitl [H2]; · iexact H2
  iexact H4

/-! ## The proof data family and the thread state -/

section Run

variable (rd1 : (c : Dev nD) → RDat τ (Elt F) Unit ℕ (UR sig nD τ) ℕ cfg1 c)

/-- What the run asks of the second region's relational proof data: its arrays are the region's entry contents, its
    windows hold them at the shares q1, it owes nothing and its recorded pairs are unbounded, its body meets its
    obligation, and its invariant is entered from and gives back the scoped rest and the generator register. -/
structure Data1 : Prop where
  hA : ∀ c w, (rd1 c).A w = V2 m ρ c (Pipeline.arrRef spec1 w)
  hq : ∀ c, (rd1 c).q = R1.q1
  howed : ∀ c t, (rd1 c).owed t = 0
  hrec : ∀ c t, (rd1 c).recorded t = Set.univ
  hbody : ∀ c, (rd1 c).BodyObligation (defs₀ (F := F)) Variants.none () Set.univ
  hin : ∀ c, (Pipeline.ΦA spec1 c : sProp 𝕄) ⊢ (rd1 c).Φ 0
  hout : ∀ c, (rd1 c).Φ (Fin.last cfg1.N) ⊢ (Pipeline.ΦA spec1 c : sProp 𝕄)

variable (h1 : Data1 m ρ rd1)

/-- Every pipeline's proof data: the first region's exact data read as relational data, the second region's as
    given. A literal match, so that the pinned configuration at a numeral reduces to the printed one. -/
def rdats : (p : Fin 2) → (c : Dev nD) → RDat τ (Elt F) Unit ℕ (UR sig nD τ) ℕ (Pipeline.pin (pcfgs (F := F)) adm p) c
  | ⟨0, _⟩ => fun c => (R0.dat0 (V1 m ρ) c).toR
  | ⟨1, _⟩ => fun c => rd1 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owed
    signals, at nothing. -/
abbrev R (c : Dev nD) : sProp 𝕄 := iprop((∃ r, prngReg c r) ∗ ∃ W, owes (c : Thread nD τ) (0 : CellTallies nD τ sig Unit) W)
/-- The host transpose as a segment over the unscoped references from the launch contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owed signals: the second pipeline's arrays as its write-backs leave them, the
    two buffers that are none of its arrays as the second region found them, the generator register at some state. -/
abbrev Tₙ (c : Dev nD) : sProp 𝕄 :=
  iprop((rd1 c).arraysAt cfg1.N
    ∗ Pipeline.unscopedRest (Ix := Unit) (Name := ℕ) (U := UR sig nD τ) (Lvl := ℕ) spec1 c (V2 m ρ c) ∗ ∃ r, prngReg c r)

/-! ## The regions as segments -/

set_option backward.isDefEq.respectTransparency.types false in
/-- The first region over the thread state: entered from every unscoped buffer at W1, left at W2. Its arrays split out
    of the unscoped buffers and put back at the exit contents; the generator register into the invariant and out;
    nothing owed; no semaphore of the kernel's own. -/
def reg0 : Pipeline.RDat.RegionSeg (pcfgs (F := F)) adm (rdats m ρ rd1) () defs₀ 𝒱₀ L lv 0 where
  win := launch0.win.to₀
  block_pos := launch0.block_pos
  stage_whole := launch0.stage_whole
  K := PEmpty
  osem k := k.elim
  ho := Pipeline.OwnSemFacts.none _
  hbody c := ((R0.body_obligation0 (V1 m ρ) c).loose).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ rd1) launch0.win launch0.arr_whole c
      ((R0.dat0 (V1 m ρ) c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ rd1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ rd1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 m ρ c
    rw [Pipeline.unscopedBufs_held] at hjoin
    refine (sep_mono (Entails.of_eq ((R0.dat0 (V1 m ρ) c).toR_arraysAt_eq cfg0.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second region over the thread state: entered from every unscoped buffer at W2; its arrays split out of them,
    the projection's output held twice at the two halves of the full share; left holding its arrays as the pipeline's
    write-backs leave them (the last thread state: nothing runs after it). -/
def reg1 : Pipeline.RDat.RegionSeg (pcfgs (F := F)) adm (rdats m ρ rd1) () defs₀ 𝒱₀ L lv 1 where
  win := winFacts₀1
  block_pos := block_pos1
  stage_whole := stage_whole1
  K := PEmpty
  osem k := k.elim
  ho := Pipeline.OwnSemFacts.none _
  hbody c := h1.hbody c
  hwaits := Pipeline.RDat.hwaits_of_owed_zero _ _ _ _ L lv 1 fun c t => h1.howed c t
  pre c := iprop(StableHlo.held (c : Thread nD τ) (Pipeline.ucRefs τ sig) (W2 m ρ c) ∗ R c)
  post c := iprop(Tₙ m ρ rd1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 c (rd1 c) (h1.hq c) (V2 m ρ c) (h1.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [show (rdats m ρ rd1 1 c).owed 0 = 0 from h1.howed c 0]
      icases HO with ⟨%W, HO⟩; iexists W; isplitr
      · ipureintro; exact fun _ _ => Or.inl (by rw [show (rdats m ρ rd1 1 c).recorded 0 = Set.univ from h1.hrec c 0]; trivial)
      iexact HO
    isplitl [Hp]; · iexact Hp
    iexact Hrest
  hin c := by
    refine (?_ : _ ⊢ (Pipeline.ΦA spec1 c : sProp 𝕄)).trans (h1.hin c)
    unfold Pipeline.ΦA
    iintro ⟨Hp, -, Hr⟩
    isplitl [Hr]; · iexact Hr
    iexact Hp
  hout c := by
    rw [Pipeline.ownSems0_none]
    refine (h1.hout c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    rw [show (rdats m ρ rd1 1 c).owed (Fin.last _) = 0 from h1.howed c _]
    icases HO with ⟨%W, -, HO⟩; iexists W; iexact HO

/-! ## @main as segments, and the launch -/

/-- @main's three segments in order: the host transpose from the launch contents, then a region per pallas_call. -/
abbrev segs : List (Pipeline.RDat.Seg (pcfgs (F := F)) adm (rdats m ρ rd1) () defs₀ 𝒱₀ L lv) :=
  [ .host (hseg hostOps0 hostOps0_sub hostOps0_fresh (W0 m ρ)),
    .region (reg0 m ρ rd1),
    .region (reg1 m ρ rd1 h1) ]

/-- The buffers of the second region that are no window's array of its pipeline. -/
abbrev rest1 : Finset (Ref sig .tc) :=
  (Finset.univ.filter fun b : Ref sig .tc => ¬ b.isScoped) \ Finset.univ.image (Pipeline.arrRef spec1)

include h1 in
set_option backward.isDefEq.respectTransparency.types false in
/-- THE RUN. From any memory with zero counters, every weakly fair execution of @main on the TensorCores terminates,
    and every final memory holds in the output array contents the second pipeline's write-backs may leave, and holds
    both arguments as launched. -/
theorem run_main : θ_run defs (onTc (τ := τ) (main (F := F))) ⟨m, fun _ => 0, ρ⟩ (fun r => ∀ c : Dev nD,
      (rd1 c).ArrAt 3 cfg1.N (r.2.mem ((c.tc : Thread nD τ).loc main_v2))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_regions_kit (pcfgs (F := F)) adm (rdats m ρ rd1) () cellOf_inj emb₁ defs₀ 𝒱₀ L lv m ρ main
    (segs m ρ rd1 h1)
    (fun c Q => by
      rewrite [main_chain c, Pipeline.RDat.Seg.run_eq_chain,
        show (segs m ρ rd1 h1).map Pipeline.RDat.Seg.prog = [
          StableHlo.seq hostOps0,
          Prog.lift (.customCall (Pipeline.entry 0) ()),
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ rd1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => (∀ w : Fin cfg1.W, (rd1 c).ArrAt w cfg1.N (s.mem ((cfg1.win w).arr.view.loc (c.tc : Thread nD τ))))
      ∧ ∀ b ∈ rest1, s.mem ((c.tc : Thread nD τ).loc b) = V2 m ρ c b)
    (hfin := fun c s' => by
      have hread := Pipeline.RDat.arrays_read (pcfgs (F := F)) adm (rdats m ρ rd1) (p := 1) arr_whole1 c cfg1.N s'
      iintro ⟨⟨Ha, Hrest, -⟩, HSI⟩
      ihave Hr := hread $$ [Ha HSI]
      · isplitl [Ha]; · iexact Ha
        iexact HSI
      icases Hr with ⟨%ha, HSI⟩
      have hread2 : iprop(Pipeline.unscopedRest (Ix := Unit) (Name := ℕ) (U := UR sig nD τ) (Lvl := ℕ) spec1 c (V2 m ρ c) ∗ SI s')
          ⊢ (iprop(⌜∀ b ∈ rest1, s'.mem.mem ((c.tc : Thread nD τ).loc b) = V2 m ρ c b⌝ ∗ SI s') : sProp 𝕄) := by
        unfold Pipeline.unscopedRest
        exact pointsTo_read_all rest1 (fun b => (c.tc : Thread nD τ).loc b) (V2 m ρ c) s'
      ihave Hr := hread2 $$ [Hrest HSI]
      · isplitl [Hrest] <;> iassumption
      icases Hr with ⟨%hb, HSI⟩
      imodintro
      isplitr
      · ipureintro; exact ⟨ha, hb⟩
      · iexact HSI)
    (hQ := fun s h c => by
      have h0 := (h c).1 0
      rw [(rd1 c).ArrAt_in 0 rfl cfg1.N] at h0
      exact ⟨(h c).1 3, (h0.trans (h1.hA c 0)).trans (V2_main_arg0 m ρ c),
        ((h c).2 main_arg1 (by decide)).trans (V2_main_arg1 m ρ c)⟩)

end Run
end Cert.Kernel.Run

end
-- ==== Proof.StepK.lean ====
/-
  The arithmetic of one grid point of each kernel, as pure functions of the blocks the body loads.

  Projection kernel (grid point k): the output block is the matrix product of T's slab k, an [128, 1024]
  matrix over (o, in), with x, a [512, 1024] matrix over (b, in), contracted along `in`.

  Pairwise kernel (grid point (i, j)): with `mi` the [8, 128, 128] block of M over (k, o, rows of row-block i)
  and `mj` the one over (k, o, rows of row-block j), the accumulator `acc : [128, 128]` over (o, r) becomes
  acc[o, r] + sum over the 128 rows s of block j of exp (- sum over k of |mi[k, o, r] - mj[k, o, s]|),
  the inner sum taken in four chunks of 32 rows. At j = 0 the accumulator starts from zero; at j = 3 the
  output block's columns 1024 .. 1151 receive the transpose of (acc - 1).
-/
import proofs.«178989_j33483565040179_2_alg».proof.Proof.Gen.Kernel.Skeleton

noncomputable section

namespace Cert.Kernel.Hand

open Idealize.ShloMosaic Idealize.SL.Sem Cert.Kernel Cert.Kernel.Gen

variable {F : FTy → Type} [FloatOps F]

/-- The accumulator after one grid point of the pairwise kernel, from the two blocks of M and the accumulator
    the point starts from: the payloads of the body's parts composed in the body's order. -/
def accStep (mi mj : Vec F S8x128x128 .f32) (acc : Vec F S128x128 .f32) : Vec F S128x128 .f32 :=
  let v4 := k1_pay4 mi
  let v6 := k1_pay5 mj
  let v7 := k1_pay6 (F := F)
  let v8 := k1_pay7 mj
  let v42 := k1_pay8 mi mj
  let v45 := k1_pay9 mi
  let v46 := k1_pay10 mj
  let v102 := k1_pay11 v4 v7 v8 v42 v45 v46
  let v103 := k1_pay12 v6
  let cst_9 : F .f32 := Scalar.ofBits .f32 0x00000000#32
  let v159 := k1_pay13 v4 v103 cst_9
  let v162 := k1_pay14 v4
  let v163 := k1_pay15 v103
  let v197 := k1_pay16 v4 v102 v103 v159 v162 v163
  let v198 := k1_pay17 v6
  let v210 := k1_pay18 v4 v6
  let v220 := k1_pay19 v4 v6
  let v276 := k1_pay20 v4 v198 v210 v220
  let v279 := k1_pay21 v4
  let v280 := k1_pay22 v198
  let v292 := k1_pay23 v197 v276 v279 v280
  let v293 := k1_pay24 v6
  let v327 := k1_pay25 v4 v6
  let v337 := k1_pay26 v4 v6
  k1_pay1 (k1_pay27 v4 v292 v293 v327 v337 acc)

/-- The accumulator a grid point's sum starts from: zero at the first column block, else what the point before left. -/
def accZero : Vec F S128x128 .f32 := k1_pay3 (F := F)

/-- What the last column block stores into the output block's columns 1024 .. 1151: the transpose of (acc - 1). -/
def outTail (acc : Vec F S128x128 .f32) : Vec F S128x128 .f32 := k1_pay2 acc

/-- The projection kernel's output block from T's slab and x. -/
def projBlock (tk : Vec F S1x128x1024 .f32) (x : Vec F S512x1024 .f32) : Vec F S1x128x512 .f32 := k0_pay1 tk x

end Cert.Kernel.Hand

end
-- ==== Proof.Region1RunK.lean ====
/-
  The second kernel's body, run on whole staging buffers, in each of its three control cases.

  A grid point (i, j) of the pairwise kernel: at j = 0 the accumulator is zeroed and the x block is copied into
  columns 0 .. 1023 of the output block; always the two blocks of M are loaded and the accumulator receives
  its step; at j = 3 columns 1024 .. 1151 of the output block receive the transposed accumulator minus one.
  Each case leaves the inputs as they were and the accumulator at `accStep` of what it started from; of the
  output block it says what the stored rectangle holds and that the rest is as it was.
-/
import proofs.«178989_j33483565040179_2_alg».proof.Proof.Gen.Kernel.Launch
import proofs.«178989_j33483565040179_2_alg».proof.Proof.Gen.Kernel.Skeleton
import proofs.«178989_j33483565040179_2_alg».proof.Proof.Gen.Kernel.Points
import proofs.«178989_j33483565040179_2_alg».proof.Proof.StepK
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

/-! ## The rectangles the body stores into the output block through -/

/-- Columns 0 .. 1023 of the [128, 1152] output block. -/
abbrev rL : Rect S128x1152 := Rect.unit (s := S128x1152) ![0, 0] S128x1024.size inb_S128x1152_S128x1024_0_0
/-- Columns 1024 .. 1151 of the [128, 1152] output block. -/
abbrev rR : Rect S128x1152 := Rect.unit (s := S128x1152) ![0, 1024] S128x128.size inb_S128x1152_S128x128_0_1024

theorem hz2 : (![0, 0] : Fin 2 → Nat) = fun _ => 0 := funext fun a => by fin_cases a <;> rfl
theorem hz3 : (![0, 0, 0] : Fin 3 → Nat) = fun _ => 0 := funext fun a => by fin_cases a <;> rfl

/-- A whole buffer read back after a list of stores whose last one covers it holds that store's payload. -/
theorem read_writes_whole_last {sp : Space} {S : Shape} {e : EltTy} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L

/-! ## Neither condition holds (j = 1, 2): the accumulator takes its step, nothing else changes -/

set_option maxHeartbeats 4000000 in
theorem run_B (c : Dev nD) (i : grid1.Coords) (E : Set ℕ)
    (arg2 : Memref sig .tc .vmem S128x1024 .f32) (harg2 : arg2.IsWhole) (arg3 : Memref sig .tc .vmem S8x128x128 .f32) (harg3 : arg3.IsWhole)
    (arg4 : Memref sig .tc .vmem S8x128x128 .f32) (harg4 : arg4.IsWhole) (arg5 : Memref sig .tc .vmem S128x1152 .f32) (harg5 : arg5.IsWhole)
    (arg6 : Memref sig .tc .vmem S128x128 .f32) (harg6 : arg6.IsWhole)
    (hc1 : ¬ k1_cond1 i = 1#1) (hc2 : ¬ k1_cond2 i = 1#1)
    (mi mj : Vec F S8x128x128 .f32) (acc : Vec F S128x128 .f32) (K : PUnit → sProp 𝕄) :
    iprop(owns (c : Thread nD τ) arg3 fullShare mi ∗ owns (c : Thread nD τ) arg4 fullShare mj ∗ owns (c : Thread nD τ) arg6 fullShare acc
        ∗ (iprop(owns (c : Thread nD τ) arg3 fullShare mi ∗ owns (c : Thread nD τ) arg4 fullShare mj ∗ owns (c : Thread nD τ) arg6 fullShare (accStep mi mj acc)) -∗ K ⟨⟩))
      ⊢ wp frame (wpE (defs₀ (F := F)) Variants.none c none) E (cc1__pairwise_kernel i arg2 harg2 arg3 harg3 arg4 harg4 arg5 harg5 arg6 harg6) K := by
  simp only [cc1__pairwise_kernel_eq_skeleton]; unfold cc1__pairwise_kernel_skel
  unfold owns
  iintro ⟨⟨%f3, %hf3, H3⟩, ⟨%f4, %hf4, H4⟩, ⟨%f6, %hf6, H6⟩, Hk⟩
  obtain rfl := harg3.eq_unread hf3; obtain rfl := harg4.eq_unread hf4; obtain rfl := harg6.eq_unread hf6
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H6
  ipureintro
  sl_unfold_run_names
  rw [read_writes_whole_last _ _ hz2]
  simp only [View.readAt_eq_ld, harg3.read_unread, harg4.read_unread, harg6.read_unread,
    View.ld_unit_zero (S := S8x128x128) hz3, View.ld_unit_zero (S := S128x128) hz2]
  rfl

end Cert.Kernel.R1

end
-- ==== Proof.Region1DataK.lean ====
/-
  The second kernel's proof data, relational: what each window's staging buffer may hold after each grid point.

  The three input windows are left as found. The accumulator (a scratch buffer the kernel keeps between points)
  holds after point t the step of the two blocks of M at t from zero (at the first column block) or from what
  the point before left. The output block is stored in two parts: at the first column block its columns
  0 .. 1023 receive the x block; at the last its columns 1024 .. 1151 receive the transposed accumulator minus one
  and the rest stays; in between it is untouched. So when the block is written back (after the last column block)
  every element of it is determined.
-/
import proofs.«178989_j33483565040179_2_alg».proof.Proof.Gen.Kernel.Launch
import proofs.«178989_j33483565040179_2_alg».proof.Proof.Gen.Kernel.Skeleton
import proofs.«178989_j33483565040179_2_alg».proof.Proof.Gen.Kernel.Points
import proofs.«178989_j33483565040179_2_alg».proof.Proof.Region1RunK
import proofs.«178989_j33483565040179_2_alg».proof.Proof.Region1ShareK
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, the conditions in closed form -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first condition (column block 0) holds at the points ≡ 0 (mod 4). -/
theorem hcond1 : ∀ t : Fin cfg1.N, k1_cond1 (grid1.coords t) = 1#1 ↔ t.val % 4 = 0 :=
  (by decide +kernel : ∀ t : Fin grid1.N, k1_cond1 (grid1.coords t) = 1#1 ↔ t.val % 4 = 0)
/-- The second condition (column block 3) holds at the points ≡ 3 (mod 4). -/
theorem hcond2 : ∀ t : Fin cfg1.N, k1_cond2 (grid1.coords t) = 1#1 ↔ t.val % 4 = 3 :=
  (by decide +kernel : ∀ t : Fin grid1.N, k1_cond2 (grid1.coords t) = 1#1 ↔ t.val % 4 = 3)

/-! ## The accumulator point by point -/

/-- What the accumulator holds after the body at point `n`. -/
def accAfter (c : Dev nD) : (n : ℕ) → n < cfg1.N → Vec F S128x128 .f32
  | 0, h => accStep (iblk1 V c 1 ⟨0, h⟩) (iblk1 V c 2 ⟨0, h⟩) accZero
  | n + 1, h => accStep (iblk1 V c 1 ⟨n + 1, h⟩) (iblk1 V c 2 ⟨n + 1, h⟩)
      (if (n + 1) % 4 = 0 then accZero else accAfter c n (Nat.lt_of_succ_lt h))

theorem accAfter_first (c : Dev nD) (t : Fin cfg1.N) (h0 : t.val % 4 = 0) :
    accAfter V c t.val t.isLt = accStep (iblk1 V c 1 t) (iblk1 V c 2 t) accZero := by
  obtain ⟨n, hn⟩ := t
  cases n with
  | zero => rfl
  | succ n => exact congrArg _ (if_pos h0)

theorem accAfter_later (c : Dev nD) (t : Fin cfg1.N) (h0 : ¬ t.val % 4 = 0) :
    accAfter V c t.val t.isLt = accStep (iblk1 V c 1 t) (iblk1 V c 2 t)
      (accAfter V c (t.val - 1) (Nat.lt_of_le_of_lt (Nat.sub_le _ _) t.isLt)) := by
  obtain ⟨n, hn⟩ := t
  cases n with
  | zero => exact absurd (Nat.zero_mod _) h0
  | succ n => exact congrArg _ (if_neg h0)

/-! ## The invariant: the scoped buffers no window stages, the accumulator among them at its contents -/

/-- The accumulator's memref. -/
abbrev scM1 : Memref sig .tc .vmem S128x128 .f32 := Memref.whole cc1_scratch0

/-- The scoped buffers that are neither the second kernel's staging buffers nor its accumulator: the first kernel's five
    staging buffers, each whole at some contents. -/
def rest5 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The class invariant (every scoped buffer no window stages at anything, the generator register at some state)
    hands out the accumulator at some contents, the other five buffers, and the register; -/
theorem PhiA1_split (c : Dev nD) :
    (Pipeline.ΦA spec1 c : sProp 𝕄) ⊢ iprop((∃ d, owns (c : Thread nD τ) scM1 fullShare d) ∗ rest5 (F := F) c ∗ (∃ r, prngReg c r)) := by
  unfold Pipeline.ΦA rest5; rw [scopedRest1_eq]; simp only [scM1, owns_whole]
  iintro ⟨⟨A1, A2, A3, A4, A5, HS⟩, Hg⟩
  isplitl [HS]; · iexact HS
  isplitr [Hg]
  · isplitl [A1]; · iexact A1
    isplitl [A2]; · iexact A2
    isplitl [A3]; · iexact A3
    isplitl [A4]; · iexact A4
    iexact A5
  iexact Hg

/-- and takes them back. -/
theorem PhiA1_join (c : Dev nD) :
    iprop((∃ d, owns (c : Thread nD τ) scM1 fullShare d) ∗ rest5 (F := F) c ∗ (∃ r, prngReg c r)) ⊢ (Pipeline.ΦA spec1 c : sProp 𝕄) := by
  unfold Pipeline.ΦA rest5; rw [scopedRest1_eq]; simp only [scM1, owns_whole]
  iintro ⟨HS, ⟨A1, A2, A3, A4, A5⟩, Hg⟩
  isplitr [Hg]
  · isplitl [A1]; · iexact A1
    isplitl [A2]; · iexact A2
    isplitl [A3]; · iexact A3
    isplitl [A4]; · iexact A4
    isplitl [A5]; · iexact A5
    iexact HS
  iexact Hg

/-- The invariant before position `n`: before the first point the class's; afterwards the accumulator at what the point
    before left, the other five buffers at anything, the generator register at some state. -/
def PhiS (c : Dev nD) : (n : ℕ) → n ≤ cfg1.N → sProp 𝕄
  | 0, _ => Pipeline.ΦA spec1 c
  | n + 1, hn => iprop(owns (c : Thread nD τ) scM1 fullShare (accAfter V c n hn) ∗ rest5 c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM1 fullShare (accAfter V c n hn) ∗ rest5 c ∗ (∃ r, prngReg c r)) := rfl

theorem PhiS_pos (c : Dev nD) (n : ℕ) (h : n ≤ cfg1.N) (hz : n ≠ 0) :
    PhiS V c n h = iprop(owns (c : Thread nD τ) scM1 fullShare (accAfter V c (n - 1) (by omega)) ∗ rest5 c ∗ (∃ r, prngReg c r)) := by
  cases n with
  | zero => exact absurd rfl hz
  | succ n => rfl

/-! ## The proof data -/

/-- What the body may leave in the output block's staging buffer at point `t` (`X`), given what it found there (`Y`). -/
def rel3 (c : Dev nD) (t : Fin cfg1.N) (Y X : Vec F S128x1152 .f32) : Prop :=
  if t.val % 4 = 0 then View.ld X rL = iblk1 V c 0 t
  else if t.val % 4 = 3 then
    View.ld X rR = outTail (accAfter V c t.val t.isLt) ∧ ∀ y, y ∉ rR.set → X y = Y y
  else X = Y

/-- The relational proof data of the second kernel on core `c`: the arrays as the region finds them; the inputs left
    as found; the output block by `rel3`; the invariant `PhiS`; the two windows on M at the two halves of the share;
    nothing owed. -/
def rd1 (c : Dev nD) : Pipeline.RDat τ (Elt F) Unit ℕ (UR sig nD τ) ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => rel3 V c t Y X
  Φ t := PhiS V c t.val (Nat.le_of_lt_succ t.isLt)
  q := q1
  owed _ := 0

theorem A_eq1 (c : Dev nD) (w : Fin cfg1.W) : (rd1 V c).A w = V c (Pipeline.arrRef spec1 w) := by dsimp only [rd1]
theorem q_eq1 (c : Dev nD) : (rd1 V c).q = q1 := rfl
theorem owed_eq1 (c : Dev nD) (t) : (rd1 V c).owed t = 0 := rfl

theorem after1_0 (c : Dev nD) (t : Fin cfg1.N) (Y X) : (rd1 V c).after 0 t Y X ↔ X = Y := by dsimp only [rd1]; exact Iff.rfl
theorem after1_1 (c : Dev nD) (t : Fin cfg1.N) (Y X) : (rd1 V c).after 1 t Y X ↔ X = Y := by dsimp only [rd1]; exact Iff.rfl
theorem after1_2 (c : Dev nD) (t : Fin cfg1.N) (Y X) : (rd1 V c).after 2 t Y X ↔ X = Y := by dsimp only [rd1]; exact Iff.rfl
theorem after1_3 (c : Dev nD) (t : Fin cfg1.N) (Y X) : (rd1 V c).after 3 t Y X ↔ rel3 V c t Y X := by dsimp only [rd1]; exact Iff.rfl

/-- An input window's staging buffer holds its block wherever the body is handed it. -/
theorem finds1_0 (c : Dev nD) (t : Fin cfg1.N) (Y) (h : (rd1 V c).Finds 0 t Y) : Y = iblk1 V c 0 t := by
  obtain ⟨d, rfl⟩ := Pipeline.RDat.finds_in_eq_fetched (rd1 V c) 0 rfl (fun _ _ _ => rfl) (fun t Y X hR => (after1_0 V c t Y X).mp hR) t Y h
  unfold Pipeline.RDat.fetched Pipeline.RDat.blockOf iblk1; rw [A_eq1]; try rfl
theorem finds1_1 (c : Dev nD) (t : Fin cfg1.N) (Y) (h : (rd1 V c).Finds 1 t Y) : Y = iblk1 V c 1 t := by
  obtain ⟨d, rfl⟩ := Pipeline.RDat.finds_in_eq_fetched (rd1 V c) 1 rfl (fun _ _ _ => rfl) (fun t Y X hR => (after1_1 V c t Y X).mp hR) t Y h
  unfold Pipeline.RDat.fetched Pipeline.RDat.blockOf iblk1; rw [A_eq1]; try rfl
theorem finds1_2 (c : Dev nD) (t : Fin cfg1.N) (Y) (h : (rd1 V c).Finds 2 t Y) : Y = iblk1 V c 2 t := by
  obtain ⟨d, rfl⟩ := Pipeline.RDat.finds_in_eq_fetched (rd1 V c) 2 rfl (fun _ _ _ => rfl) (fun t Y X hR => (after1_2 V c t Y X).mp hR) t Y h
  unfold Pipeline.RDat.fetched Pipeline.RDat.blockOf iblk1; rw [A_eq1]; try rfl

end Cert.Kernel.R1

end
-- ==== Proof.Region1RunAK.lean ====
/-
  The second kernel's body at the first column block (j = 0): the accumulator is zeroed before its step and the x block is copied into columns 0 .. 1023 of the output block.
-/
import proofs.«178989_j33483565040179_2_alg».proof.Proof.Gen.Kernel.Launch
import proofs.«178989_j33483565040179_2_alg».proof.Proof.Gen.Kernel.Skeleton
import proofs.«178989_j33483565040179_2_alg».proof.Proof.Gen.Kernel.Points
import proofs.«178989_j33483565040179_2_alg».proof.Proof.Region1RunK
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

/-! ## The first column block (j = 0): the accumulator starts from zero, the x block goes into columns 0 .. 1023 -/

set_option maxHeartbeats 4000000 in
theorem run_A (c : Dev nD) (i : grid1.Coords) (E : Set ℕ)
    (arg2 : Memref sig .tc .vmem S128x1024 .f32) (harg2 : arg2.IsWhole) (arg3 : Memref sig .tc .vmem S8x128x128 .f32) (harg3 : arg3.IsWhole)
    (arg4 : Memref sig .tc .vmem S8x128x128 .f32) (harg4 : arg4.IsWhole) (arg5 : Memref sig .tc .vmem S128x1152 .f32) (harg5 : arg5.IsWhole)
    (arg6 : Memref sig .tc .vmem S128x128 .f32) (harg6 : arg6.IsWhole)
    (hc1 : k1_cond1 i = 1#1) (hc2 : ¬ k1_cond2 i = 1#1)
    (x0 : Vec F S128x1024 .f32) (mi mj : Vec F S8x128x128 .f32) (y5 : Vec F S128x1152 .f32) (K : PUnit → sProp 𝕄) :
    iprop(owns (c : Thread nD τ) arg2 fullShare x0 ∗ owns (c : Thread nD τ) arg3 fullShare mi ∗ owns (c : Thread nD τ) arg4 fullShare mj
        ∗ owns (c : Thread nD τ) arg5 fullShare y5 ∗ (∃ d, owns (c : Thread nD τ) arg6 fullShare d)
        ∗ (iprop(owns (c : Thread nD τ) arg2 fullShare x0 ∗ owns (c : Thread nD τ) arg3 fullShare mi ∗ owns (c : Thread nD τ) arg4 fullShare mj
            ∗ (∃ X, ⌜View.ld X rL = x0⌝ ∗ owns (c : Thread nD τ) arg5 fullShare X)
            ∗ owns (c : Thread nD τ) arg6 fullShare (accStep mi mj accZero)) -∗ K ⟨⟩))
      ⊢ wp frame (wpE (defs₀ (F := F)) Variants.none c none) E (cc1__pairwise_kernel i arg2 harg2 arg3 harg3 arg4 harg4 arg5 harg5 arg6 harg6) K := by
  simp only [cc1__pairwise_kernel_eq_skeleton]; unfold cc1__pairwise_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists (arg5.view.read (Elt F) (arg5.view.writes (Elt F) (harg5.unread y5)
      ([⟨rL, View.readAt (Elt F) arg2.view (Rect.unit (s := S128x1024) ![0, 0] S128x1024.size inb_S128x1024_S128x1024_0_0).toLoadRect (harg2.unread x0)⟩] : List (View.Piece (Elt F) S128x1152 .f32))))
    isplitr
    · ipureintro
      funext x
      refine (View.read_writes_cons_emb (Val := Elt F) arg5.view (harg5.unread y5) rL _ [] x).trans ?_
      simp only [View.readAt_eq_ld, harg2.read_unread]
      exact congrFun (View.ld_unit_zero (S := S128x1024) hz2 inb_S128x1024_S128x1024_0_0 x0) x
    iexists _; isplitr; · ipureintro; rfl
    iexact H5
  iexists _; isplitr
  swap; · iexact H6
  ipureintro
  sl_unfold_run_names
  rw [read_writes_whole_last _ _ hz2]
  simp only [View.readAt_eq_ld, harg3.read_unread, harg4.read_unread,
    View.ld_unit_zero (S := S8x128x128) hz3, View.ld_unit_zero (S := S128x128) hz2,
    View.readCov_unit_zero (S := S128x128) _ hz2]
  rfl

end Cert.Kernel.R1

end
-- ==== Proof.Region1RunCK.lean ====
/-
  The second kernel's body at the last column block (j = 3): after its step the accumulator, minus one and transposed, is stored into columns 1024 .. 1151 of the output block; the other columns stay.
-/
import proofs.«178989_j33483565040179_2_alg».proof.Proof.Gen.Kernel.Launch
import proofs.«178989_j33483565040179_2_alg».proof.Proof.Gen.Kernel.Skeleton
import proofs.«178989_j33483565040179_2_alg».proof.Proof.Gen.Kernel.Points
import proofs.«178989_j33483565040179_2_alg».proof.Proof.Region1RunK
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

/-! ## The last column block (j = 3): after its step the accumulator, minus one and transposed, goes into columns 1024 .. 1151 -/

set_option maxHeartbeats 4000000 in
theorem run_C (c : Dev nD) (i : grid1.Coords) (E : Set ℕ)
    (arg2 : Memref sig .tc .vmem S128x1024 .f32) (harg2 : arg2.IsWhole) (arg3 : Memref sig .tc .vmem S8x128x128 .f32) (harg3 : arg3.IsWhole)
    (arg4 : Memref sig .tc .vmem S8x128x128 .f32) (harg4 : arg4.IsWhole) (arg5 : Memref sig .tc .vmem S128x1152 .f32) (harg5 : arg5.IsWhole)
    (arg6 : Memref sig .tc .vmem S128x128 .f32) (harg6 : arg6.IsWhole)
    (hc1 : ¬ k1_cond1 i = 1#1) (hc2 : k1_cond2 i = 1#1)
    (mi mj : Vec F S8x128x128 .f32) (y5 : Vec F S128x1152 .f32) (acc : Vec F S128x128 .f32) (K : PUnit → sProp 𝕄) :
    iprop(owns (c : Thread nD τ) arg3 fullShare mi ∗ owns (c : Thread nD τ) arg4 fullShare mj
        ∗ owns (c : Thread nD τ) arg5 fullShare y5 ∗ owns (c : Thread nD τ) arg6 fullShare acc
        ∗ (iprop(owns (c : Thread nD τ) arg3 fullShare mi ∗ owns (c : Thread nD τ) arg4 fullShare mj
            ∗ (∃ X, ⌜View.ld X rR = outTail (accStep mi mj acc) ∧ ∀ y, y ∉ rR.set → X y = y5 y⌝ ∗ owns (c : Thread nD τ) arg5 fullShare X)
            ∗ owns (c : Thread nD τ) arg6 fullShare (accStep mi mj acc)) -∗ K ⟨⟩))
      ⊢ wp frame (wpE (defs₀ (F := F)) Variants.none c none) E (cc1__pairwise_kernel i arg2 harg2 arg3 harg3 arg4 harg4 arg5 harg5 arg6 harg6) K := by
  simp only [cc1__pairwise_kernel_eq_skeleton]; unfold cc1__pairwise_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg5.eq_unread hf5; obtain rfl := harg6.eq_unread hf6
  sl_exec (disch := first | exact hc1 | exact hc2)
  sl_step
  have hacc : arg6.view.read (Elt F) (arg6.view.writes (Elt F) (harg6.unread acc) (run_C.sl.H6_1 c arg3 harg3 arg4 harg4 arg6 harg6 mi mj acc))
      = accStep mi mj acc := by
    sl_unfold_run_names
    rw [read_writes_whole_last _ _ hz2]
    simp only [View.readAt_eq_ld, harg3.read_unread, harg4.read_unread, harg6.read_unread,
      View.ld_unit_zero (S := S8x128x128) hz3, View.ld_unit_zero (S := S128x128) hz2]
    rfl
  iapply Hk
  isplitl [H3]
  · iexists _; isplitr; · ipureintro; exact harg3.read_unread _
    iexact H3
  isplitl [H4]
  · iexists _; isplitr; · ipureintro; exact harg4.read_unread _
    iexact H4
  isplitl [H5]
  · iexists (arg5.view.read (Elt F) (arg5.view.writes (Elt F) (harg5.unread y5)
      ([⟨rR, k1_pay2 (run_C.sl.v396 c arg3 harg3 arg4 harg4 arg6 harg6 mi mj acc)⟩] : List (View.Piece (Elt F) S128x1152 .f32))))
    isplitr
    · ipureintro
      refine ⟨?_, fun y hy => ?_⟩
      · funext x
        refine (View.read_writes_cons_emb (Val := Elt F) arg5.view (harg5.unread y5) rR _ [] x).trans ?_
        sl_unfold_run_names
        simp only [View.readAt_eq_ld, View.readCov_unit_zero (S := S128x128) _ hz2, harg3.read_unread, harg4.read_unread, harg6.read_unread,
          View.ld_unit_zero (S := S8x128x128) hz3, View.ld_unit_zero (S := S128x128) hz2]
        rfl
      · refine (View.read_writes_apply_of_forall_not_mem (Val := Elt F) arg5.view (harg5.unread y5) y _ (fun p hp => ?_)).trans (congrFun (harg5.read_unread y5) y)
        rw [List.mem_singleton] at hp; subst hp; exact hy
    iexists _; isplitr; · ipureintro; rfl
    iexact H5
  iexists _; isplitr
  swap; · iexact H6
  ipureintro
  exact hacc

end Cert.Kernel.R1

end
-- ==== Proof.Region1BodyK.lean ====
/-
  The second kernel's body obligation over its relational proof data: at every grid point, from the invariant
  (the accumulator at what the point before left), the inputs' staging buffers at their blocks and the output
  block's buffer at whatever it holds, the body runs to the invariant at the next point, the inputs as they
  were, and the output block's buffer in the point's relation to what it held. By cases on the column block:
  the first (accumulator zeroed, x copied in), the last (the tail columns stored), the two in between.
-/
import proofs.«178989_j33483565040179_2_alg».proof.Proof.Gen.Kernel.Launch
import proofs.«178989_j33483565040179_2_alg».proof.Proof.Gen.Kernel.Skeleton
import proofs.«178989_j33483565040179_2_alg».proof.Proof.Gen.Kernel.Points
import proofs.«178989_j33483565040179_2_alg».proof.Proof.Region1DataK
import proofs.«178989_j33483565040179_2_alg».proof.Proof.Region1RunAK
import proofs.«178989_j33483565040179_2_alg».proof.Proof.Region1RunCK
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant at a point's start, restated at the point's position. -/
theorem Phi_castSucc (c : Dev nD) (t : Fin cfg1.N) :
    (rd1 V c).Φ t.castSucc = PhiS V c t.val (Nat.le_of_lt t.isLt) := by
  dsimp only [rd1]; simp only [Fin.coe_castSucc]

set_option maxHeartbeats 4000000 in
/-- The body at any point, the inputs' buffers at their blocks and the output block's at `y3`. -/
theorem sound_body1 (c : Dev nD) (t : Fin cfg1.N) (y3 : Vec F S128x1152 .f32) :
    iprop((rd1 V c).Φ t.castSucc ∗ (rd1 V c).owesAt () t.castSucc
        ∗ owns (c : Thread nD τ) (st1_0 t) fullShare (iblk1 V c 0 t)
        ∗ owns (c : Thread nD τ) (st1_1 t) fullShare (iblk1 V c 1 t)
        ∗ owns (c : Thread nD τ) (st1_2 t) fullShare (iblk1 V c 2 t)
        ∗ owns (c : Thread nD τ) (st1_3 t) fullShare y3)
      ⊢ wp frame (wpE (defs₀ (F := F)) Variants.none c none) Set.univ (bodyAt1 t) (fun _ =>
          iprop((rd1 V c).Φ t.succ ∗ (rd1 V c).owesAt () t.succ
            ∗ (∃ X, ⌜(rd1 V c).after 0 t (iblk1 V c 0 t) X⌝ ∗ owns (c : Thread nD τ) (st1_0 t) fullShare X)
            ∗ (∃ X, ⌜(rd1 V c).after 1 t (iblk1 V c 1 t) X⌝ ∗ owns (c : Thread nD τ) (st1_1 t) fullShare X)
            ∗ (∃ X, ⌜(rd1 V c).after 2 t (iblk1 V c 2 t) X⌝ ∗ owns (c : Thread nD τ) (st1_2 t) fullShare X)
            ∗ (∃ X, ⌜(rd1 V c).after 3 t y3 X⌝ ∗ owns (c : Thread nD τ) (st1_3 t) fullShare X))) := by
  unfold bodyAt1
  rw [show (rd1 V c).owesAt () t.succ = (rd1 V c).owesAt () t.castSucc from rfl,
    show (rd1 V c).Φ t.succ = PhiS V c (t.val + 1) t.isLt from rfl, PhiS_succ, Phi_castSucc]
  simp only [after1_0, after1_1, after1_2, after1_3]
  have hN : t.val < 16 := lt_of_lt_of_eq t.isLt (show cfg1.N = 16 from N_1)
  by_cases h0 : t.val % 4 = 0
  · -- the first column block
    have hc1 : k1_cond1 (grid1.coords t) = 1#1 := (hcond1 t).mpr h0
    have hc2 : ¬ k1_cond2 (grid1.coords t) = 1#1 := fun h => by have := (hcond2 t).mp h; omega
    rw [accAfter_first V c t h0]
    have key : ∀ (P : sProp 𝕄), (P ⊢ iprop(∃ d, owns (c : Thread nD τ) scM1 fullShare d)) →
        iprop(P ∗ rest5 (F := F) c ∗ (∃ r, prngReg c r) ∗ (rd1 V c).owesAt () t.castSucc
          ∗ owns (c : Thread nD τ) (st1_0 t) fullShare (iblk1 V c 0 t)
          ∗ owns (c : Thread nD τ) (st1_1 t) fullShare (iblk1 V c 1 t)
          ∗ owns (c : Thread nD τ) (st1_2 t) fullShare (iblk1 V c 2 t)
          ∗ owns (c : Thread nD τ) (st1_3 t) fullShare y3)
        ⊢ wp frame (wpE (defs₀ (F := F)) Variants.none c none) Set.univ
            (cc1__pairwise_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _))
            (fun _ => iprop(iprop(owns (c : Thread nD τ) scM1 fullShare (accStep (iblk1 V c 1 t) (iblk1 V c 2 t) accZero) ∗ rest5 c ∗ (∃ r, prngReg c r))
              ∗ (rd1 V c).owesAt () t.castSucc
              ∗ (∃ X, ⌜X = iblk1 V c 0 t⌝ ∗ owns (c : Thread nD τ) (st1_0 t) fullShare X)
              ∗ (∃ X, ⌜X = iblk1 V c 1 t⌝ ∗ owns (c : Thread nD τ) (st1_1 t) fullShare X)
              ∗ (∃ X, ⌜X = iblk1 V c 2 t⌝ ∗ owns (c : Thread nD τ) (st1_2 t) fullShare X)
              ∗ (∃ X, ⌜rel3 V c t y3 X⌝ ∗ owns (c : Thread nD τ) (st1_3 t) fullShare X))) := by
      intro P hP
      iintro ⟨HS, HR, Hg, Ho, H0, H1, H2, H3⟩
      iapply (run_A c (grid1.coords t) Set.univ _ _ _ _ _ _ _ _ _ _ hc1 hc2 (iblk1 V c 0 t) (iblk1 V c 1 t) (iblk1 V c 2 t) y3 _)
      isplitl [H0]; · iexact H0
      isplitl [H1]; · iexact H1
      isplitl [H2]; · iexact H2
      isplitl [H3]; · iexact H3
      isplitl [HS]; · iapply hP; iexact HS
      iintro ⟨H0, H1, H2, ⟨%X, %hX, H3⟩, HS⟩
      isplitl [HS HR Hg]
      · isplitl [HS]; · iexact HS
        isplitl [HR]; · iexact HR
        iexact Hg
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      iexists X; isplitr
      · ipureintro; unfold rel3; rw [if_pos h0]; exact hX
      iexact H3
    by_cases hz : t.val = 0
    · rw [PhiS_zero V c _ _ hz]
      refine Idealize.SL.BI.BIBase.Entails.trans ?_ (key (iprop(∃ d, owns (c : Thread nD τ) scM1 fullShare d)) .rfl)
      iintro ⟨HΦ, Ho, H0, H1, H2, H3⟩
      ihave HΦ' := (PhiA1_split (F := F) c) $$ HΦ
      icases HΦ' with ⟨HS, HR, Hg⟩
      isplitl [HS]; · iexact HS
      isplitl [HR]; · iexact HR
      isplitl [Hg]; · iexact Hg
      isplitl [Ho]; · iexact Ho
      isplitl [H0]; · iexact H0
      isplitl [H1]; · iexact H1
      isplitl [H2]; · iexact H2
      iexact H3
    · rw [PhiS_pos V c _ _ hz]
      refine Idealize.SL.BI.BIBase.Entails.trans ?_ (key (owns (c : Thread nD τ) scM1 fullShare (accAfter V c (t.val - 1) (Nat.lt_of_le_of_lt (Nat.sub_le _ _) t.isLt)))
        (show (owns (c : Thread nD τ) scM1 fullShare (accAfter V c (t.val - 1) (Nat.lt_of_le_of_lt (Nat.sub_le _ _) t.isLt)) : sProp 𝕄) ⊢ iprop(∃ d, owns (c : Thread nD τ) scM1 fullShare d) from by
          iintro H; iexists _; iexact H))
      iintro ⟨⟨HS, HR, Hg⟩, Ho, H0, H1, H2, H3⟩
      isplitl [HS]; · iexact HS
      isplitl [HR]; · iexact HR
      isplitl [Hg]; · iexact Hg
      isplitl [Ho]; · iexact Ho
      isplitl [H0]; · iexact H0
      isplitl [H1]; · iexact H1
      isplitl [H2]; · iexact H2
      iexact H3
  · have hz : t.val ≠ 0 := fun e => h0 (by rw [e])
    have hc1 : ¬ k1_cond1 (grid1.coords t) = 1#1 := fun h => h0 ((hcond1 t).mp h)
    rw [PhiS_pos V c _ _ hz, accAfter_later V c t h0]
    by_cases h3 : t.val % 4 = 3
    · -- the last column block
      have hc2 : k1_cond2 (grid1.coords t) = 1#1 := (hcond2 t).mpr h3
      iintro ⟨⟨HS, HR, Hg⟩, Ho, H0, H1, H2, H3⟩
      iapply (run_C c (grid1.coords t) Set.univ _ _ _ _ _ _ _ _ _ _ hc1 hc2 (iblk1 V c 1 t) (iblk1 V c 2 t) y3 (accAfter V c (t.val - 1) (Nat.lt_of_le_of_lt (Nat.sub_le _ _) t.isLt)) _)
      isplitl [H1]; · iexact H1
      isplitl [H2]; · iexact H2
      isplitl [H3]; · iexact H3
      isplitl [HS]; · iexact HS
      iintro ⟨H1, H2, ⟨%X, %hX, H3⟩, HS⟩
      isplitl [HS HR Hg]
      · isplitl [HS]; · iexact HS
        isplitl [HR]; · iexact HR
        iexact Hg
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      iexists X; isplitr
      · ipureintro; unfold rel3; rw [if_neg h0, if_pos h3, accAfter_later V c t h0]; exact hX
      iexact H3
    · -- a column block in between
      have hc2 : ¬ k1_cond2 (grid1.coords t) = 1#1 := fun h => h3 ((hcond2 t).mp h)
      iintro ⟨⟨HS, HR, Hg⟩, Ho, H0, H1, H2, H3⟩
      iapply (run_B c (grid1.coords t) Set.univ _ _ _ _ _ _ _ _ _ _ hc1 hc2 (iblk1 V c 1 t) (iblk1 V c 2 t) (accAfter V c (t.val - 1) (Nat.lt_of_le_of_lt (Nat.sub_le _ _) t.isLt)) _)
      isplitl [H1]; · iexact H1
      isplitl [H2]; · iexact H2
      isplitl [HS]; · iexact HS
      iintro ⟨H1, H2, HS⟩
      isplitl [HS HR Hg]
      · isplitl [HS]; · iexact HS
        isplitl [HR]; · iexact HR
        iexact Hg
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      iexists y3; isplitr
      · ipureintro; unfold rel3; rw [if_neg h0, if_neg h3]
      iexact H3

/-- The library's relational body obligation, at every point. -/
theorem body_obligation1 (c : Dev nD) : (rd1 V c).BodyObligation (defs₀ (F := F)) Variants.none () Set.univ := fun t Y hY => by
  rw [bigSep_W1, bigSep_W1]
  have e0 := finds1_0 V c t _ (hY 0)
  have e1 := finds1_1 V c t _ (hY 1)
  have e2 := finds1_2 V c t _ (hY 2)
  rw [e0, e1, e2]
  exact sound_body1 V c t (Y 3)

/-- What the launch hands the region is the invariant before the first point, -/
theorem hin1 (c : Dev nD) : Pipeline.ΦA spec1 c ⊢ (rd1 V c).Φ 0 := by
  rw [show (rd1 V c).Φ 0 = PhiS V c 0 (Nat.zero_le _) from rfl, PhiS_zero V c 0 _ rfl]
  try exact Idealize.SL.BI.Entails.refl _

/-- and the invariant after the last point gives it back: the accumulator's contents are forgotten. -/
theorem hout1 (c : Dev nD) : (rd1 V c).Φ (Fin.last cfg1.N) ⊢ Pipeline.ΦA spec1 c := by
  rw [show (rd1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega)]
  refine Idealize.SL.BI.BIBase.Entails.trans ?_ (PhiA1_join (F := F) c)
  iintro ⟨HS, HR, Hg⟩
  isplitl [HS]; · iexists _; iexact HS
  isplitl [HR]; · iexact HR
  iexact Hg

end Cert.Kernel.R1

end
-- ==== Proof.KernelFrameK.lean ====
/-
  The kernel program's run with both regions' proof data in place: the second region's relational data meets what the
  run asks of it, so @main terminates with the output array at contents the second pipeline's write-backs may leave
  and both arguments as launched; forgetting the output gives the frame.
-/
import proofs.«178989_j33483565040179_2_alg».proof.Proof.RunK
import proofs.«178989_j33483565040179_2_alg».proof.Proof.Region1DataK
import proofs.«178989_j33483565040179_2_alg».proof.Proof.Region1BodyK

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region's data, at the contents the first region leaves, meets what the run asks of it. -/
theorem data1 : Run.Data1 m ρ (fun c => R1.rd1 (Run.V2 m ρ) c) where
  hA c w := R1.A_eq1 (Run.V2 m ρ) c w
  hq c := R1.q_eq1 (Run.V2 m ρ) c
  howed c t := R1.owed_eq1 (Run.V2 m ρ) c t
  hrec _ _ := rfl
  hbody c := R1.body_obligation1 (Run.V2 m ρ) c
  hin c := R1.hin1 (Run.V2 m ρ) c
  hout c := R1.hout1 (Run.V2 m ρ) c

/-- THE RUN: @main terminates; the output array ends at contents the second pipeline's write-backs may leave from the
    contents the first region left, and both arguments end as launched. -/
theorem run : θ_run defs (onTc (τ := τ) (main (F := F))) ⟨m, fun _ => 0, ρ⟩ (fun r => ∀ c : Dev nD,
      (R1.rd1 (Run.V2 m ρ) c).ArrAt 3 cfg1.N (r.2.mem ((c.tc : Thread nD τ).loc main_v2))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Run.run_main m ρ _ (data1 m ρ)

/-- THE FRAME: @main terminates and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.Kernel.Asm

end
-- ==== Proof.KernelValue.lean ====
/-
  The kernel program's run read as a value: at the exact instance the output array ends, on every device, at the
  kernel's result function of the two argument arrays (the table transposed). The run of the frame module gives the
  output array at contents the second pipeline's write-backs may leave; that such contents are the result function of
  the second region's entry contents, and that the first region leaves the projection of its own entry contents, are
  taken here as hypotheses, and the entry contents are walked back to the launch memory.
-/
import proofs.«178989_j33483565040179_2_alg».proof.Proof.KernelFrame
import proofs.«178989_j33483565040179_2_alg».proof.Proof.KernelFn

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The first argument is as launched when the first region is entered: the host transpose does not write it. -/
theorem V1_main_arg0 {F : FTy → Type} [FloatOps F] (m : (ℓ : Loc nD τ sig) → Buf (Elt F) ℓ) (ρ : Dev nD → PrngReg) (c : Dev nD) :
    Run.V1 m ρ c main_arg0 = m ((c.tc : Thread nD τ).loc main_arg0) :=
  (Run.W1_of m ρ c main_arg0 (by decide)).trans rfl

/-- The contents of the TensorCore's buffers at a region's entry, at the exact instance. -/
abbrev Entry : Type := (c : Dev nD) → (b : Ref sig .tc) → Buf (Elt Ideal) ((c : Thread nD τ).loc b)

/-- THE VALUE RUN, from the two facts about the regions' final contents: given that the first region leaves in the
    projection's array the projection of its entry contents (hFinalM), that whatever the second pipeline's write-backs
    may leave in the output array is the result function kO' of its entry contents (hFinalOut), and that the kernel's
    result function is kO' of the projection (hKO), @main terminates with the output array at the kernel's result of
    the launch arguments and both arguments as launched. -/
theorem run_value_of
    (kO' : Vec Ideal S512x1024 .f32 → Vec Ideal S8x128x512 .f32 → Vec Ideal S512x1152 .f32)
    (hKO : ∀ (x : Vec Ideal S512x1024 .f32) (tt : Vec Ideal S8x128x1024 .f32), Hand.kernelOut (F := Ideal) x tt = kO' x (Hand.mAll x tt))
    (hFinalM : ∀ (V : Entry) (c : Dev nD),
      ((R0.dat0 V c).arrAt 2 cfg0.N : S8x128x512.Idx → Elt Ideal .f32) = Hand.mAll (F := Ideal) (V c main_arg0) (V c main_v0))
    (hFinalOut : ∀ (V : Entry) (c : Dev nD) (x : Vec Ideal S512x1024 .f32) (M : Vec Ideal S8x128x512 .f32),
      (V c main_arg0 : S512x1024.Idx → Elt Ideal .f32) = x → (V c main_v1 : S8x128x512.Idx → Elt Ideal .f32) = M →
      ∀ Fo : S512x1152.Idx → Elt Ideal .f32, (R1.rd1 V c).ArrAt 3 cfg1.N Fo → Fo = kO' x M)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
          = Hand.kernelOut (F := Ideal) (m ((c.tc : Thread nD τ).loc main_arg0) : Vec Ideal S512x1024 .f32)
              (transpose S8x128x1024 [2, 1, 0] (m ((c.tc : Thread nD τ).loc main_arg1) : Vec Ideal S1024x128x8 .f32)
                transposes_S1024x128x8_S8x128x1024_2_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (defs (F := Ideal)) _ _).mono (fun r h c => ⟨?_, (h c).2⟩) (run (F := Ideal) m ρ)
  have hM := (Run.V2_main_v1 m ρ c).trans (hFinalM (Run.V1 m ρ) c)
  have hout := hFinalOut (Run.V2 m ρ) c _ _ (Run.V2_main_arg0 m ρ c) hM _ (h c).1
  rw [hout, V1_main_arg0 m ρ c, Run.V1_main_v0 m ρ c]
  exact (hKO _ _).symm

end Cert.KernelIdeal.Asm

end
-- ==== Proof.FinalBlocks.lean ====
/-
  The blocks the two kernels' windows read, as explicit functions of the whole arrays.

  First kernel (grid point k): window 0's block is the whole matrix x; window 1's block is slab k of the transposed
  table. Second kernel (grid point 4 i + j): window 0's block is rows 128 i .. 128 i + 127 of x; windows 1 and 2 read
  the blocks of M whose last axis is rows 128 i .. and 128 j .. respectively. Every block's element sits in its array,
  axis by axis, at block index times block size plus its own coordinate; the block indices are decided over the grids.
-/
import proofs.«178989_j33483565040179_2_alg».proof.Proof.KernelFn
import proofs.«178989_j33483565040179_2_alg».proof.Proof.Region0
import proofs.«178989_j33483565040179_2_alg».proof.Proof.Region1Data

set_option maxRecDepth 16384

noncomputable section

namespace Cert.KernelIdeal.Final

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable {F : FTy → Type} [FloatOps F]

variable (V : (c : Dev nD) → (b : Ref sig .tc) → Buf (Elt F) ((c : Thread nD τ).loc b))

/-! ## The block indices, decided over the grids -/

/-- First kernel: x is one block; the slab and the output block move along the leading axis with the point. -/
theorem idx0 : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Second kernel, point 4 i + j: the x block, the first block of M and the output block are at block i; the second block
    of M is at block j. -/
theorem idx1 : ∀ t : Fin cfg1.N,
    win1_0.index t (0 : Fin 2) = t.val / 4 ∧ win1_0.index t (1 : Fin 2) = 0
    ∧ win1_1.index t (0 : Fin 3) = 0 ∧ win1_1.index t (1 : Fin 3) = 0 ∧ win1_1.index t (2 : Fin 3) = t.val / 4
    ∧ win1_2.index t (0 : Fin 3) = 0 ∧ win1_2.index t (1 : Fin 3) = 0 ∧ win1_2.index t (2 : Fin 3) = t.val % 4
    ∧ win1_3.index t (0 : Fin 2) = t.val / 4 ∧ win1_3.index t (1 : Fin 2) = 0 :=
  (by decide +kernel : ∀ t : Fin grid1.N, _)

/-! ## The second kernel's input blocks at an index -/

/-- The x block at point t is rows 128 (t / 4) .. of x. -/
theorem iblk1_0_apply (c : Dev nD) (t : Fin cfg1.N) (y : S128x1024.Idx) (k : S512x1024.Idx)
    (hk0 : (k 0).val = 128 * (t.val / 4) + (y 0).val) (hk1 : (k 1).val = (y 1).val) :
    (R1.iblk1 V c 0 t : Vec F S128x1024 .f32) y = (V c main_arg0 : S512x1024.Idx → Elt F .f32) k := by
  obtain ⟨e0, e1, -⟩ := idx1 t
  unfold R1.iblk1
  rw [View.read_apply]
  show V c main_arg0 _ = V c main_arg0 _
  congr 1
  funext a
  apply Fin.ext
  match a with
  | ⟨0, _⟩ => show win1_0.index t 0 * 128 + 1 * (y 0).val = (k 0).val; rw [e0, hk0]; omega
  | ⟨1, _⟩ => show win1_0.index t 1 * 1024 + 1 * (y 1).val = (k 1).val; rw [e1, hk1]; omega

/-- Rows 128 i .. 128 i + 127 of x: the [128, 1024] block the second kernel copies at row block i. -/
def rowsX (x : Vec F S512x1024 .f32) (i : Fin 4) : Vec F S128x1024 .f32 :=
  fun y => x (ix2 (⟨128 * i.val + (y 0 : Fin 128).val, by
      have h1 : i.val < 4 := i.isLt
      have h2 : (y 0 : Fin 128).val < 128 := (y 0 : Fin 128).isLt
      omega⟩ : Fin 512) (y 1 : Fin 1024))

/-- The row block of a point of the second grid. -/
def rowOf (t : Fin cfg1.N) : Fin 4 := ⟨t.val / 4, by have h := lt_of_lt_of_eq t.isLt (show cfg1.N = 16 from N_1); omega⟩
/-- The column block of a point of the second grid. -/
def colOf (t : Fin cfg1.N) : Fin 4 := ⟨t.val % 4, Nat.mod_lt _ (by decide)⟩

/-- Window 0's block at point t is the rows of x at t's row block. -/
theorem iblk1_0_eq (c : Dev nD) (x : Vec F S512x1024 .f32) (hx : (V c main_arg0 : S512x1024.Idx → Elt F .f32) = x)
    (t : Fin cfg1.N) : (R1.iblk1 V c 0 t : Vec F S128x1024 .f32) = rowsX x (rowOf t) := by
  funext y
  rw [← hx]
  exact iblk1_0_apply V c t y _ rfl rfl

/-- Window 1's block at point t is the block of M at t's row block. -/
theorem iblk1_1_eq (c : Dev nD) (M : Vec F S8x128x512 .f32) (hM : (V c main_v1 : S8x128x512.Idx → Elt F .f32) = M)
    (t : Fin cfg1.N) : (R1.iblk1 V c 1 t : Vec F S8x128x128 .f32) = blkM M (rowOf t) := by
  obtain ⟨-, -, e0, e1, e2, -⟩ := idx1 t
  funext y
  rw [← hM]
  unfold R1.iblk1 blkM
  rw [View.read_apply]
  show V c main_v1 _ = V c main_v1 _
  congr 1
  funext a
  apply Fin.ext
  match a with
  | ⟨0, _⟩ => show win1_1.index t 0 * 8 + 1 * (y 0).val = (y 0).val; rw [e0]; omega
  | ⟨1, _⟩ => show win1_1.index t 1 * 128 + 1 * (y 1).val = (y 1).val; rw [e1]; omega
  | ⟨2, _⟩ => show win1_1.index t 2 * 128 + 1 * (y 2).val = 128 * (t.val / 4) + (y 2).val; rw [e2]; omega

/-- Window 2's block at point t is the block of M at t's column block. -/
theorem iblk1_2_eq (c : Dev nD) (M : Vec F S8x128x512 .f32) (hM : (V c main_v1 : S8x128x512.Idx → Elt F .f32) = M)
    (t : Fin cfg1.N) : (R1.iblk1 V c 2 t : Vec F S8x128x128 .f32) = blkM M (colOf t) := by
  obtain ⟨-, -, -, -, -, e0, e1, e2, -⟩ := idx1 t
  funext y
  rw [← hM]
  unfold R1.iblk1 blkM
  rw [View.read_apply]
  show V c main_v1 _ = V c main_v1 _
  congr 1
  funext a
  apply Fin.ext
  match a with
  | ⟨0, _⟩ => show win1_2.index t 0 * 8 + 1 * (y 0).val = (y 0).val; rw [e0]; omega
  | ⟨1, _⟩ => show win1_2.index t 1 * 128 + 1 * (y 1).val = (y 1).val; rw [e1]; omega
  | ⟨2, _⟩ => show win1_2.index t 2 * 128 + 1 * (y 2).val = 128 * (t.val % 4) + (y 2).val; rw [e2]; omega

/-! ## The first kernel's input blocks -/

/-- Window 0's block is the whole of x at every point. -/
theorem iblk0_0_eq (c : Dev nD) (t : Fin cfg0.N) :
    (R0.iblk0 V c 0 t : Vec F S512x1024 .f32) = (V c main_arg0 : S512x1024.Idx → Elt F .f32) := by
  obtain ⟨e0, e1, -⟩ := idx0 t
  funext y
  unfold R0.iblk0
  rw [View.read_apply]
  show V c main_arg0 _ = V c main_arg0 _
  congr 1
  funext a
  apply Fin.ext
  match a with
  | ⟨0, _⟩ => show win0_0.index t 0 * 512 + 1 * (y 0).val = (y 0).val; rw [e0]; omega
  | ⟨1, _⟩ => show win0_0.index t 1 * 1024 + 1 * (y 1).val = (y 1).val; rw [e1]; omega

/-- The slab of a point of the first grid. -/
def slabOf (t : Fin cfg0.N) : Fin 8 := ⟨t.val, lt_of_lt_of_eq t.isLt (show cfg0.N = 8 from N_0)⟩

/-- Window 1's block at point t is slab t of the transposed table. -/
theorem iblk0_1_eq (c : Dev nD) (t : Fin cfg0.N) :
    (R0.iblk0 V c 1 t : Vec F S1x128x1024 .f32) = slab (V c main_v0 : S8x128x1024.Idx → Elt F .f32) (slabOf t) := by
  obtain ⟨-, -, e0, e1, e2, -⟩ := idx0 t
  funext y
  unfold R0.iblk0 slab
  rw [View.read_apply]
  show V c main_v0 _ = V c main_v0 _
  congr 1
  funext a
  apply Fin.ext
  have hy0 : (y 0).val < 1 := (y 0).isLt
  match a with
  | ⟨0, _⟩ => show win0_1.index t 0 * 1 + 1 * (y 0).val = t.val; rw [e0]; omega
  | ⟨1, _⟩ => show win0_1.index t 1 * 128 + 1 * (y 1).val = (y 1).val; rw [e1]; omega
  | ⟨2, _⟩ => show win0_1.index t 2 * 1024 + 1 * (y 2).val = (y 2).val; rw [e2]; omega

end Cert.KernelIdeal.Final

end
-- ==== Proof.FinalAcc.lean ====
/-
  The second kernel's accumulator, point by point, is the fold over column blocks.

  After point 4 i + j the accumulator holds the step of row block i of M with column block j of M from what the point
  before left, and from zero at j = 0: so it is the accumulator of row block i after its first j + 1 column blocks.
-/
import proofs.«178989_j33483565040179_2_alg».proof.Proof.FinalBlocks

set_option maxRecDepth 16384

noncomputable section

namespace Cert.KernelIdeal.Final

open Idealize.ShloMosaic Idealize.ShloMosaic.TcCoe Idealize.ShloMosaic.ValueIdx
open Idealize.SL Idealize.SL.Sem
open Cert.KernelIdeal Cert.KernelIdeal.Gen Cert.KernelIdeal.Hand

variable {F : FTy → Type} [FloatOps F]

variable (V : (c : Dev nD) → (b : Ref sig .tc) → Buf (Elt F) ((c : Thread nD τ).loc b))

/-- The step at equal arguments. -/
theorem accStep_congr {a a' b b' : Vec F S8x128x128 .f32} {d d' : Vec F S128x128 .f32} (ha : a = a') (hb : b = b') (hd : d = d') :
    accStep a b d = accStep a' b' d' := by subst ha hb hd; rfl

/-- One more column block. -/
theorem accAt_succ (M : Vec F S8x128x512 .f32) (i : Fin 4) (n : Nat) (h : n < 4) :
    accAt M i (n + 1) = accStep (blkM M i) (blkM M ⟨n, h⟩) (accAt M i n) := by
  rw [accAt, dif_pos h]

/-- After point 4 i + j the accumulator is that of row block i after its first j + 1 column blocks. -/
theorem accAfter_eq (c : Dev nD) (M : Vec F S8x128x512 .f32) (hM : (V c main_v1 : S8x128x512.Idx → Elt F .f32) = M) (i : Fin 4) :
    ∀ (j : Nat), j < 4 → ∀ t : Fin cfg1.N, t.val = 4 * i.val + j → R1.accAfter V c t.val t.isLt = accAt M i (j + 1)
  | 0, hj, t, ht => by
    have hr : rowOf t = i := Fin.ext (by show t.val / 4 = i.val; omega)
    have hc : colOf t = ⟨0, hj⟩ := Fin.ext (by show t.val % 4 = 0; omega)
    refine (R1.accAfter_first V c t (by omega)).trans ?_
    refine (accStep_congr (iblk1_1_eq V c M hM t) (iblk1_2_eq V c M hM t) rfl).trans ?_
    rw [hr, hc, accAt_succ M i 0 hj]
    rfl
  | j + 1, hj, t, ht => by
    have hN : t.val < 16 := lt_of_lt_of_eq t.isLt (show cfg1.N = 16 from N_1)
    have hr : rowOf t = i := Fin.ext (by show t.val / 4 = i.val; omega)
    have hc : colOf t = ⟨j + 1, hj⟩ := Fin.ext (by show t.val % 4 = j + 1; omega)
    have ih := accAfter_eq c M hM i j (by omega) ⟨t.val - 1, Nat.lt_of_le_of_lt (Nat.sub_le _ _) t.isLt⟩ (by show t.val - 1 = 4 * i.val + j; omega)
    refine (R1.accAfter_later V c t (by omega)).trans ?_
    refine (accStep_congr (iblk1_1_eq V c M hM t) (iblk1_2_eq V c M hM t) ih).trans ?_
    rw [hr, hc, accAt_succ M i (j + 1) hj]

/-- After the last column block of row block i the accumulator is the full fold. -/
theorem accAfter_last (c : Dev nD) (M : Vec F S8x128x512 .f32) (hM : (V c main_v1 : S8x128x512.Idx → Elt F .f32) = M)
    (t : Fin cfg1.N) (h3 : t.val % 4 = 3) : R1.accAfter V c t.val t.isLt = accAt M (rowOf t) 4 :=
  accAfter_eq V c M hM (rowOf t) 3 (by decide) t (by show t.val = 4 * (t.val / 4) + 3; omega)

end Cert.KernelIdeal.Final

end
-- ==== Proof.FinalLeaves.lean ====
/-
  What the second kernel may leave in the output block's staging buffer.

  The output block is never fetched and is written back only after the last column block. At the first column block
  of a row block its columns 0 .. 1023 receive the rows of x; the two middle column blocks leave it as found; the last
  leaves those columns as found and stores the transposed accumulator minus one into columns 1024 .. 1151. So at
  every point the left columns hold the row block's rows of x, and at the last column block the right columns hold the
  accumulator's image.
-/
import proofs.«178989_j33483565040179_2_alg».proof.Proof.FinalBlocks

set_option maxRecDepth 16384

noncomputable section

namespace Cert.KernelIdeal.Final

open Idealize.ShloMosaic Idealize.ShloMosaic.TcCoe Idealize.ShloMosaic.ValueIdx
open Idealize.SL Idealize.SL.Sem
open Cert.KernelIdeal Cert.KernelIdeal.Gen Cert.KernelIdeal.Hand

variable {F : FTy → Type} [FloatOps F]

variable (V : (c : Dev nD) → (b : Ref sig .tc) → Buf (Elt F) ((c : Thread nD τ).loc b))

/-- The output window is never fetched. -/
theorem fetch1_3 : ∀ t : Fin cfg1.N, (cfg1.win 3).fetch t = false :=
  (by decide +kernel : ∀ t : Fin grid1.N, win1_3.fetch t = false)

/-- The left columns lie outside the right columns' rectangle. -/
theorem rL_idx_not_mem_rR (y : R1.rL.shape.Idx) : R1.rL.idx y ∉ R1.rR.set := by
  intro hm
  have h1 := (Rect.mem_set_unit.mp hm) 1
  have hlo : (1024 : Nat) ≤ 0 + 1 * (y 1).val := h1.1
  have hy : (y 1).val < 1024 := (y 1).isLt
  omega

/-- At the first column block of a row block the left columns receive the row block's rows of x. -/
theorem leaves3_left_first (c : Dev nD) (x : Vec F S512x1024 .f32) (hx : (V c main_arg0 : S512x1024.Idx → Elt F .f32) = x)
    (t : Fin cfg1.N) (h0 : t.val % 4 = 0) (X : Vec F S128x1152 .f32) (hL : (R1.rd1 V c).Leaves 3 t X) :
    View.ld X R1.rL = rowsX x (rowOf t) := by
  obtain ⟨Y, -, hXY⟩ := hL
  have hR := (R1.after1_3 V c t Y X).mp hXY
  unfold R1.rel3 at hR
  rw [if_pos h0] at hR
  exact hR.trans (iblk1_0_eq V c x hx t)

/-- At every point the left columns of what the body may leave are the row block's rows of x: stored at the first column
    block, kept by every later one. -/
theorem leaves3_left (c : Dev nD) (x : Vec F S512x1024 .f32) (hx : (V c main_arg0 : S512x1024.Idx → Elt F .f32) = x) :
    ∀ (n : Nat) (t : Fin cfg1.N), t.val = n → ∀ X : Vec F S128x1152 .f32, (R1.rd1 V c).Leaves 3 t X →
      View.ld X R1.rL = rowsX x (rowOf t) := by
  intro n
  induction n with
  | zero => intro t ht X hL; exact leaves3_left_first V c x hx t (by omega) X hL
  | succ n ih =>
    intro t ht X hL
    by_cases h0 : t.val % 4 = 0
    · exact leaves3_left_first V c x hx t h0 X hL
    · obtain ⟨Y, hY, hXY⟩ := hL
      have hR := (R1.after1_3 V c t Y X).mp hXY
      unfold R1.rel3 at hR
      rw [if_neg h0] at hR
      -- what the body found is what the point before left: that point writes nothing back
      rw [(R1.rd1 V c).finds_of_pos (fetch1_3 t) (by omega)] at hY
      have hnf : ¬ (cfg1.win 3).flush ⟨t.val - 1, Nat.lt_of_le_of_lt (Nat.sub_le _ _) t.isLt⟩ = true := by
        rw [flush1_3]; show ¬ (t.val - 1) % 4 = 3; omega
      have hY' := ih ⟨t.val - 1, Nat.lt_of_le_of_lt (Nat.sub_le _ _) t.isLt⟩ (by show t.val - 1 = n; omega) Y (hY.resolve_left hnf)
      have hrow : rowOf ⟨t.val - 1, Nat.lt_of_le_of_lt (Nat.sub_le _ _) t.isLt⟩ = rowOf t :=
        Fin.ext (by show (t.val - 1) / 4 = t.val / 4; omega)
      rw [hrow] at hY'
      by_cases h3 : t.val % 4 = 3
      · rw [if_pos h3] at hR
        rw [← hY']
        funext y
        exact hR.2 (R1.rL.idx y) (rL_idx_not_mem_rR y)
      · rw [if_neg h3] at hR; rw [hR]; exact hY'

/-- At the last column block the right columns receive the transposed accumulator minus one. -/
theorem leaves3_right (c : Dev nD) (t : Fin cfg1.N) (h3 : t.val % 4 = 3) (X : Vec F S128x1152 .f32)
    (hL : (R1.rd1 V c).Leaves 3 t X) : View.ld X R1.rR = outTail (R1.accAfter V c t.val t.isLt) := by
  obtain ⟨Y, -, hXY⟩ := hL
  have hR := (R1.after1_3 V c t Y X).mp hXY
  unfold R1.rel3 at hR
  rw [if_neg (by omega), if_pos h3] at hR
  exact hR.1

end Cert.KernelIdeal.Final

end
-- ==== Proof.LibRelArr.lean ====
/-
  Relational pipeline data: what an output array holds after the write-backs.

  For relational proof data the array after the write-backs below a point is not named by a function but constrained by
  a predicate: at each flushing point the array's block there is overwritten by the moved part of SOME contents the body
  may have left.  When every such contents has, as its moved part, that point's block of ONE whole-array contents G, the
  predicate pins the array down pointwise: an index some flushed block covers reads G, an index none covers reads the
  entry contents; and if the flushed blocks cover the array, the array is G.  These are the relational counterparts of
  the exact data's lemmas on the fold of block writes, by the same induction on the number of points passed.
-/
import Idealize.ShloMosaic.Lib.Pipeline.Value

namespace Cert.LibRelArr

open Idealize.ShloMosaic Idealize.ShloMosaic.Pipeline
open Idealize.SL
open Idealize.SL.RA

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD}

/-- One step of the array predicate, opened. Contents the array may hold after the write-backs below `n + 1` are: when
    `n` is not a flushing point of the grid, contents it may hold after those below `n`; when it is, such contents
    with point `n`'s block overwritten by the moved part of some contents the body may leave there. -/
theorem arrAt_succ_cases (rd : RDat τ Val Ix Name U Lvl cfg c) (w : Fin cfg.W) (n : Nat)
    (F : Buf Val ((cfg.win w).arr.view.loc (c.tc : Thread nD τ))) (h : rd.ArrAt w (n + 1) F) :
    ((∀ hn : n < cfg.N, (cfg.win w).flush ⟨n, hn⟩ ≠ true) ∧ rd.ArrAt w n F)
      ∨ ∃ hn : n < cfg.N, (cfg.win w).flush ⟨n, hn⟩ = true ∧ ∃ G₀ X, rd.ArrAt w n G₀ ∧ rd.Leaves w ⟨n, hn⟩ X
        ∧ F = ((cfg.win w).blk ⟨n, hn⟩).view.write Val G₀ ((cfg.win w).cut (cfg.grid.coords ⟨n, hn⟩) X) Finset.univ := by
  by_cases hn : n < cfg.N
  · rw [rd.ArrAt_succ w ⟨n, hn⟩] at h
    by_cases hf : (cfg.win w).flush ⟨n, hn⟩ = true
    · rw [if_pos hf] at h
      obtain ⟨G₀, X, h₀, hX, e⟩ := h
      exact .inr ⟨hn, hf, G₀, X, h₀, hX, e⟩
    · rw [if_neg hf] at h; exact .inl ⟨fun _ => hf, h⟩
  · rw [rd.ArrAt_stable w (n + 1) (by omega), ← rd.ArrAt_stable w n (by omega)] at h
    exact .inl ⟨fun hn' => absurd hn' hn, h⟩

/-- An index NO flushing point below `n` covers reads the entry contents in every contents the array may hold after
    the write-backs below `n`: a write-back leaves the indices outside its block as they were. -/
theorem arrAt_apply_of_forall_not_mem (rd : RDat τ Val Ix Name U Lvl cfg c) (w : Fin cfg.W) :
    ∀ (n : Nat) (F : Buf Val ((cfg.win w).arr.view.loc (c.tc : Thread nD τ))), rd.ArrAt w n F →
      ∀ i : ((cfg.win w).arr.view.loc (c.tc : Thread nD τ)).2.ty.Idx,
        (∀ t : Fin cfg.N, t.val < n → (cfg.win w).flush t = true → i ∉ ((cfg.win w).blk t).view.set) → F i = rd.A w i
  | 0, F, h, i, _ => congrFun (show F = rd.A w from h) i
  | n + 1, F, h, i, hno => by
    have hno' : ∀ t : Fin cfg.N, t.val < n → (cfg.win w).flush t = true → i ∉ ((cfg.win w).blk t).view.set :=
      fun t ht hf => hno t (Nat.lt_succ_of_lt ht) hf
    rcases arrAt_succ_cases rd w n F h with ⟨-, h⟩ | ⟨hn, hf, G₀, X, h₀, -, rfl⟩
    · exact arrAt_apply_of_forall_not_mem rd w n F h i hno'
    · rw [View.write_of_not_mem _ _ _ (by rw [View.setOn_univ]; exact hno ⟨n, hn⟩ (Nat.lt_succ_self n) hf)]
      exact arrAt_apply_of_forall_not_mem rd w n G₀ h₀ i hno'

/-- POINTWISE OUTPUTS. If at every flushing point every contents the body may leave has, as its moved part, that
    point's block of ONE whole-array contents `G` (`hG`), then in every contents the array may hold after the
    write-backs below `n`, an index in a flushed block below `n` reads `G`: a later point that covers the index again
    writes the same value there, and a later point that does not cover it keeps what was there. -/
theorem arrAt_apply_of_mem (rd : RDat τ Val Ix Name U Lvl cfg c) (w : Fin cfg.W)
    (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → F i = G i
  | 0, _, _, _, _, ht, _, _ => absurd ht (Nat.not_lt_zero _)
  | n + 1, F, h, t, i, ht, hf, hi => by
    rcases arrAt_succ_cases rd w n F h with ⟨hnf, h⟩ | ⟨hn, hfn, G₀, X, h₀, hX, rfl⟩
    · -- no write-back at `n`: then `t`, which flushes, is an earlier point
      have htn : t.val ≠ n := fun e => hnf (e ▸ t.isLt) (by have : t = ⟨n, e ▸ t.isLt⟩ := Fin.ext e; exact this ▸ hf)
      exact arrAt_apply_of_mem rd w G hG n F h t i (by omega) hf hi
    · rw [hG _ hfn X hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        -- not in point `n`'s block: then `t` is an earlier point
        have htn : t.val ≠ n := fun e => hin (by rw [View.setOn_univ]; have : t = ⟨n, hn⟩ := Fin.ext e; exact this ▸ hi)
        exact arrAt_apply_of_mem rd w G hG n G₀ h₀ t i (by omega) hf hi

/-- THE FINAL ARRAY, PIECEWISE: under `hG`, every contents the array may hold after all the write-backs is `G` on the
    indices some flushing point's block covers and the entry contents elsewhere. -/
theorem arrAt_eq_piecewise (rd : RDat τ Val Ix Name U Lvl cfg c) (w : Fin cfg.W)
    (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G)
    (F : Buf Val ((cfg.win w).arr.view.loc (c.tc : Thread nD τ))) (h : rd.ArrAt w cfg.N F)
    (i : ((cfg.win w).arr.view.loc (c.tc : Thread nD τ)).2.ty.Idx) :
    F i = if ∃ t : Fin cfg.N, (cfg.win w).flush t = true ∧ i ∈ ((cfg.win w).blk t).view.set then G i else rd.A w i := by
  split
  · rename_i ht; obtain ⟨t, hf, hi⟩ := ht
    exact arrAt_apply_of_mem rd w G hG cfg.N F h t i t.isLt hf hi
  · rename_i ht
    exact arrAt_apply_of_forall_not_mem rd w cfg.N F h i fun t _ hf hi => ht ⟨t, hf, hi⟩

/-- THE WHOLE-ARRAY POST: under `hG`, when every index of the array is in SOME flushing point's block (`hcover`: the
    flushed blocks tile the array), the only contents the array may hold after all the write-backs is `G`. -/
theorem arrAt_eq_of_cover (rd : RDat τ Val Ix Name U Lvl cfg c) (w : Fin cfg.W)
    (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (h : rd.ArrAt w cfg.N F) : F = G :=
  funext fun i => (arrAt_eq_piecewise rd w G hG F h i).trans (if_pos (hcover i))

/-- THE PER-BLOCK POST: under `hG`, block `t` of any contents the array may hold after all the write-backs, read back,
    is block `t` of `G` — for every flushing point `t`, whatever the other points cover. -/
theorem read_blk_arrAt (rd : RDat τ Val Ix Name U Lvl cfg c) (w : Fin cfg.W)
    (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G)
    (F : Buf Val ((cfg.win w).arr.view.loc (c.tc : Thread nD τ))) (h : rd.ArrAt w cfg.N F)
    (t : Fin cfg.N) (hf : (cfg.win w).flush t = true) :
    ((cfg.win w).blk t).view.read Val F = ((cfg.win w).blk t).view.read Val G :=
  funext fun x => by
    rw [View.read_apply, View.read_apply]
    exact congrArg _ (arrAt_apply_of_mem rd w G hG cfg.N F h t _ t.isLt hf (((cfg.win w).blk t).view.emb_mem_set x))

end Cert.LibRelArr
-- ==== Proof.FinalOut.lean ====
/-
  The second kernel's output array as one function of x and M.

  Row block i of the [512, 1152] result is written back once, after the last column block; the block written is, in its
  columns below 1024, rows 128 i .. of x and, in column 1024 + o of its row r, the transposed (accumulator of row
  block i after all four column blocks, minus one) at (r, o). The four row blocks tile the array, so the array ends
  holding that function whatever it held at entry.
-/
import proofs.«178989_j33483565040179_2_alg».proof.Proof.FinalAcc
import proofs.«178989_j33483565040179_2_alg».proof.Proof.FinalLeaves
import proofs.«178989_j33483565040179_2_alg».proof.Proof.LibRelArr

set_option maxRecDepth 16384

noncomputable section

namespace Cert.KernelIdeal.Final

open Idealize.ShloMosaic Idealize.ShloMosaic.TcCoe Idealize.ShloMosaic.ValueIdx
open Idealize.SL Idealize.SL.Sem
open Cert.KernelIdeal Cert.KernelIdeal.Gen Cert.KernelIdeal.Hand

variable {F : FTy → Type} [FloatOps F]

variable (V : (c : Dev nD) → (b : Ref sig .tc) → Buf (Elt F) ((c : Thread nD τ).loc b))

/-- The [512, 1152] result from x and the projection M: columns below 1024 copy x; column 1024 + o of row 128 i + r is
    the transposed (accumulator of row block i after all four column blocks, minus one) at (r, o). -/
def kernelOut' (x : Vec F S512x1024 .f32) (M : Vec F S8x128x512 .f32) : Vec F S512x1152 .f32 :=
  fun y =>
    if h : (y 1 : Fin 1152).val < 1024 then x (ix2 (y 0 : Fin 512) (⟨(y 1 : Fin 1152).val, h⟩ : Fin 1024))
    else outTail (accAt M (⟨(y 0 : Fin 512).val / 128, by
        have h0 : (y 0 : Fin 512).val < 512 := (y 0 : Fin 512).isLt
        omega⟩ : Fin 4) 4)
      (ix2 (⟨(y 0 : Fin 512).val % 128, Nat.mod_lt _ (by decide)⟩ : Fin 128)
           (⟨(y 1 : Fin 1152).val - 1024, by
             have h1 : (y 1 : Fin 1152).val < 1152 := (y 1 : Fin 1152).isLt
             omega⟩ : Fin 128))

/-- The kernel's result is that function at the projection of its arguments. -/
theorem kernelOut_eq (x : Vec F S512x1024 .f32) (tt : Vec F S8x128x1024 .f32) : kernelOut x tt = kernelOut' x (mAll x tt) := rfl

/-- The result at an index in the left columns. -/
theorem kernelOut'_left (x : Vec F S512x1024 .f32) (M : Vec F S8x128x512 .f32) (k : S512x1152.Idx) (r : Fin 512) (q : Fin 1024)
    (hr : r.val = (k 0).val) (hq : q.val = (k 1).val) : kernelOut' x M k = x (ix2 r q) := by
  have h : (k 1 : Fin 1152).val < 1024 := by have := q.isLt; omega
  unfold kernelOut'
  rw [dif_pos h]
  congr 1
  funext a
  apply Fin.ext
  match a with
  | ⟨0, _⟩ => exact hr.symm
  | ⟨1, _⟩ => exact hq.symm

/-- The result at an index in the right columns. -/
theorem kernelOut'_right (x : Vec F S512x1024 .f32) (M : Vec F S8x128x512 .f32) (k : S512x1152.Idx) (i : Fin 4) (r o : Fin 128)
    (hk : 128 * i.val + r.val = (k 0).val) (ho : 1024 + o.val = (k 1).val) :
    kernelOut' x M k = outTail (accAt M i 4) (ix2 r o) := by
  have h : ¬ (k 1 : Fin 1152).val < 1024 := by omega
  have hi : (⟨(k 0 : Fin 512).val / 128, by have h0 : (k 0 : Fin 512).val < 512 := (k 0 : Fin 512).isLt; omega⟩ : Fin 4) = i :=
    Fin.ext (by show (k 0).val / 128 = i.val; have := r.isLt; omega)
  unfold kernelOut'
  rw [dif_neg h, hi]
  congr 1
  funext a
  apply Fin.ext
  match a with
  | ⟨0, _⟩ => show (k 0).val % 128 = r.val; have := r.isLt; omega
  | ⟨1, _⟩ => show (k 1).val - 1024 = o.val; omega

/-! ## What a write-back writes, the cover, the final array -/

/-- What a flushing point writes back is its block of the result: the left columns are the row block's rows of x, the right
    columns the image of the row block's full accumulator. -/
theorem wrote3 (c : Dev nD) (x : Vec F S512x1024 .f32) (M : Vec F S8x128x512 .f32)
    (hx : (V c main_arg0 : S512x1024.Idx → Elt F .f32) = x) (hM : (V c main_v1 : S8x128x512.Idx → Elt F .f32) = M)
    (t : Fin cfg1.N) (hf : (cfg1.win 3).flush t = true) (X : Vec F S128x1152 .f32) (hL : (R1.rd1 V c).Leaves 3 t X) :
    (cfg1.win 3).cut (cfg1.grid.coords t) X
      = ((cfg1.win 3).blk t).view.read (Elt F) (kernelOut' x M : S512x1152.Idx → Elt F .f32) := by
  have h3 : t.val % 4 = 3 := (flush1_3 t).mp hf
  have hLft := leaves3_left V c x hx t.val t rfl X hL
  have hRgt := (leaves3_right V c t h3 X hL).trans (congrArg outTail (accAfter_last V c M hM t h3))
  obtain ⟨-, -, -, -, -, -, -, -, e0, e1⟩ := idx1 t
  funext y
  rw [View.read_apply]
  show X y = kernelOut' x M (((cfg1.win 3).blk t).view.emb y)
  have k0 : ((((cfg1.win 3).blk t).view.emb y) 0).val = 128 * (t.val / 4) + (y 0).val := by
    show win1_3.index t 0 * 128 + 1 * (y 0).val = _; rw [e0]; omega
  have k1 : ((((cfg1.win 3).blk t).view.emb y) 1).val = (y 1).val := by
    show win1_3.index t 1 * 1152 + 1 * (y 1).val = _; rw [e1]; omega
  have hy0 : (y 0).val < 128 := (y 0).isLt
  have hy1 : (y 1).val < 1152 := (y 1).isLt
  by_cases hcol : (y 1).val < 1024
  · -- a left column
    have ey : R1.rL.idx (ix2 (⟨(y 0).val, hy0⟩ : Fin 128) (⟨(y 1).val, hcol⟩ : Fin 1024)) = y := by
      funext a; apply Fin.ext
      match a with
      | ⟨0, _⟩ => show 0 + 1 * (y 0).val = (y 0).val; omega
      | ⟨1, _⟩ => show 0 + 1 * (y 1).val = (y 1).val; omega
    have hXy : X y = rowsX x (rowOf t) (ix2 (⟨(y 0).val, hy0⟩ : Fin 128) (⟨(y 1).val, hcol⟩ : Fin 1024)) := by
      rw [← hLft]; show X y = X (R1.rL.idx _); rw [ey]
    rw [hXy]
    unfold rowsX
    exact (kernelOut'_left x M _ _ _ (by show 128 * (t.val / 4) + (y 0).val = _; exact k0.symm) (by show (y 1).val = _; exact k1.symm)).symm
  · -- a right column
    have ho : (y 1).val - 1024 < 128 := by omega
    have ey : R1.rR.idx (ix2 (⟨(y 0).val, hy0⟩ : Fin 128) (⟨(y 1).val - 1024, ho⟩ : Fin 128)) = y := by
      funext a; apply Fin.ext
      match a with
      | ⟨0, _⟩ => show 0 + 1 * (y 0).val = (y 0).val; omega
      | ⟨1, _⟩ => show 1024 + 1 * ((y 1).val - 1024) = (y 1).val; omega
    have hXy : X y = outTail (accAt M (rowOf t) 4) (ix2 (⟨(y 0).val, hy0⟩ : Fin 128) (⟨(y 1).val - 1024, ho⟩ : Fin 128)) := by
      rw [← hRgt]; show X y = X (R1.rR.idx _); rw [ey]
    rw [hXy]
    exact (kernelOut'_right x M _ (rowOf t) _ _ (by show 128 * (t.val / 4) + (y 0).val = _; exact k0.symm)
      (by show 1024 + ((y 1).val - 1024) = _; rw [k1]; omega)).symm

/-- Every index of the result lies in the block written back after the last column block of its row block. -/
theorem cover3 (i : S512x1152.Idx) : ∃ t : Fin cfg1.N, (cfg1.win 3).flush t = true ∧ i ∈ ((cfg1.win 3).blk t).view.set := by
  have hi0 : (i 0).val < 512 := (i 0).isLt
  have hi1 : (i 1).val < 1152 := (i 1).isLt
  obtain ⟨t, ht⟩ : ∃ t : Fin cfg1.N, t.val = 4 * ((i 0).val / 128) + 3 :=
    ⟨⟨4 * ((i 0).val / 128) + 3, by rw [show cfg1.N = 16 from N_1]; omega⟩, rfl⟩
  obtain ⟨-, -, -, -, -, -, -, -, e0, e1⟩ := idx1 t
  refine ⟨t, (flush1_3 t).mpr (by omega), ?_⟩
  show i ∈ ((View.whole main_v2).slice (win1_3.rect t)).set
  rw [View.set_slice_whole, Rect.mem_set_unit]
  intro a
  match a with
  | ⟨0, _⟩ => show win1_3.index t 0 * 128 ≤ (i 0).val ∧ (i 0).val < win1_3.index t 0 * 128 + 128; rw [e0]; omega
  | ⟨1, _⟩ => show win1_3.index t 1 * 1152 ≤ (i 1).val ∧ (i 1).val < win1_3.index t 1 * 1152 + 1152; rw [e1]; omega

/-- THE SECOND KERNEL'S OUTPUT: whatever the result array may hold after all the write-backs is the [512, 1152] function
    of the x and the M the kernel found at entry. -/
theorem final_out (c : Dev nD) (x : Vec F S512x1024 .f32) (M : Vec F S8x128x512 .f32)
    (hx : (V c main_arg0 : S512x1024.Idx → Elt F .f32) = x) (hM : (V c main_v1 : S8x128x512.Idx → Elt F .f32) = M)
    (Fo : Buf (Elt F) ((cfg1.win 3).arr.view.loc (c : Thread nD τ))) (h : (R1.rd1 V c).ArrAt 3 cfg1.N Fo) :
    Fo = (kernelOut' x M : S512x1152.Idx → Elt F .f32) :=
  Cert.LibRelArr.arrAt_eq_of_cover (R1.rd1 V c) 3 _ (fun t hf X hL => wrote3 V c x M hx hM t hf X hL) cover3 Fo h

end Cert.KernelIdeal.Final

end
-- ==== Proof.FinalM.lean ====
/-
  The first kernel's output array as one function of x and the transposed table.

  Grid point k writes back block k of the [8, 128, 512] projection: the product of slab k of the table with x. The eight
  blocks tile the array along its leading axis, so the array ends holding the projection whatever it held at entry.
-/
import proofs.«178989_j33483565040179_2_alg».proof.Proof.FinalBlocks

set_option maxRecDepth 16384

noncomputable section

namespace Cert.KernelIdeal.Final

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable {F : FTy → Type} [FloatOps F]

variable (V : (c : Dev nD) → (b : Ref sig .tc) → Buf (Elt F) ((c : Thread nD τ).loc b))

/-- The projection at an index: the product of the index's slab with x, at the index's place inside the slab's block. -/
theorem mAll_apply (x : Vec F S512x1024 .f32) (tt : Vec F S8x128x1024 .f32) (k : S8x128x512.Idx) (s : Fin 8) (z : S1x128x512.Idx)
    (hs : s.val = (k 0).val) (h1 : (z 1).val = (k 1).val) (h2 : (z 2).val = (k 2).val) :
    mAll x tt k = projBlock (slab tt s) x z := by
  have e1 : (k 0 : Fin 8) = s := Fin.ext hs.symm
  have e2 : ix3 (0 : Fin 1) (k 1 : Fin 128) (k 2 : Fin 512) = z := by
    funext a; apply Fin.ext
    have hz0 : (z 0).val < 1 := (z 0).isLt
    match a with
    | ⟨0, _⟩ => show 0 = (z 0).val; omega
    | ⟨1, _⟩ => exact h1.symm
    | ⟨2, _⟩ => exact h2.symm
  unfold mAll
  rw [e1]
  exact congrArg (projBlock (slab tt s) x) e2

/-- WHAT POINT k WRITES BACK is block k of the projection of the x and the table the kernel found at entry. -/
theorem flushedM (c : Dev nD) (t : Fin cfg0.N) :
    (R0.dat0 V c).flushed 2 t = ((cfg0.win 2).blk t).view.read (Elt F)
      (mAll (V c main_arg0 : S512x1024.Idx → Elt F .f32) (V c main_v0 : S8x128x1024.Idx → Elt F .f32) : S8x128x512.Idx → Elt F .f32) := by
  show (cfg0.win 2).cut (grid0.coords t) ((R0.dat0 V c).after 2 t) = _
  rw [R0.after0_2, R0.out0_2_eq]
  have hp : k0_pay1 (R0.iblk0 V c 1 t) (R0.iblk0 V c 0 t)
      = projBlock (slab (V c main_v0 : S8x128x1024.Idx → Elt F .f32) (slabOf t)) (V c main_arg0 : S512x1024.Idx → Elt F .f32) :=
    congr (congrArg k0_pay1 (iblk0_1_eq V c t)) (iblk0_0_eq V c t)
  rw [hp]
  obtain ⟨-, -, -, -, -, e0, e1, e2⟩ := idx0 t
  funext y
  rw [View.read_apply]
  have hy0 : (y 0).val < 1 := (y 0).isLt
  exact (mAll_apply _ _ _ (slabOf t) y
    (by show t.val = win0_2.index t 0 * 1 + 1 * (y 0).val; rw [e0]; omega)
    (by show (y 1).val = win0_2.index t 1 * 128 + 1 * (y 1).val; rw [e1]; omega)
    (by show (y 2).val = win0_2.index t 2 * 512 + 1 * (y 2).val; rw [e2]; omega)).symm

/-- Every index of the projection lies in the block of its leading coordinate. -/
theorem coverM (i : S8x128x512.Idx) : ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 512 := (i 2).isLt
  obtain ⟨t, ht⟩ : ∃ t : Fin cfg0.N, t.val = (i 0).val := ⟨⟨(i 0).val, by rw [show cfg0.N = 8 from N_0]; exact hi0⟩, rfl⟩
  obtain ⟨-, -, -, -, -, e0, e1, e2⟩ := idx0 t
  refine ⟨t, flush0_2 t, ?_⟩
  show i ∈ ((View.whole main_v1).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 128 ≤ (i 1).val ∧ (i 1).val < win0_2.index t 1 * 128 + 128; rw [e1]; omega
  | ⟨2, _⟩ => show win0_2.index t 2 * 512 ≤ (i 2).val ∧ (i 2).val < win0_2.index t 2 * 512 + 512; rw [e2]; omega

/-- THE FIRST KERNEL'S OUTPUT: after all the write-backs the array is the projection of the x and the table found at entry. -/
theorem final_M (c : Dev nD) :
    (R0.dat0 V c).arrAt 2 cfg0.N
      = (mAll (V c main_arg0 : S512x1024.Idx → Elt F .f32) (V c main_v0 : S8x128x1024.Idx → Elt F .f32) : S8x128x512.Idx → Elt F .f32) :=
  (R0.dat0 V c).arrAt_eq_of_cover 2 _ (fun t _ => flushedM V c t) coverM

end Cert.KernelIdeal.Final

end
-- ==== Proof.Final.lean ====
/-
  The two kernels' final arrays as whole-array functions of what each found at entry.

  The first kernel leaves the [8, 128, 512] projection of x and the transposed table (`final_M`); the second, from the x
  and the M it finds, leaves the [512, 1152] result (`final_out`); at M the projection this is the kernel's result
  (`kernelOut_eq`, `final_out_kernelOut`).
-/
import proofs.«178989_j33483565040179_2_alg».proof.Proof.FinalOut
import proofs.«178989_j33483565040179_2_alg».proof.Proof.FinalM

noncomputable section

namespace Cert.KernelIdeal.Final

open Idealize.ShloMosaic Idealize.ShloMosaic.TcCoe
open Idealize.SL Idealize.SL.Sem
open Cert.KernelIdeal Cert.KernelIdeal.Gen Cert.KernelIdeal.Hand

variable {F : FTy → Type} [FloatOps F]

variable (V : (c : Dev nD) → (b : Ref sig .tc) → Buf (Elt F) ((c : Thread nD τ).loc b))

/-- The second kernel run on the projection of x and a table: the result array ends holding the kernel's result. -/
theorem final_out_kernelOut (c : Dev nD) (x : Vec F S512x1024 .f32) (tt : Vec F S8x128x1024 .f32)
    (hx : (V c main_arg0 : S512x1024.Idx → Elt F .f32) = x) (hM : (V c main_v1 : S8x128x512.Idx → Elt F .f32) = mAll x tt)
    (Fo : Buf (Elt F) ((cfg1.win 3).arr.view.loc (c : Thread nD τ))) (h : (R1.rd1 V c).ArrAt 3 cfg1.N Fo) :
    Fo = (kernelOut x tt : S512x1152.Idx → Elt F .f32) :=
  (final_out V c x (mAll x tt) hx hM Fo h).trans (kernelOut_eq x tt).symm

end Cert.KernelIdeal.Final

end
-- ==== Proof.lean ====
/-
  The kernel against its jnp reference, over the extended reals.

  The kernel is two pallas_calls. The first computes the projection M[k, o, b] = sum over in of T[in, o, k] * x[b, in], one
  grid point per k, as a matrix product of slab k of the transposed table with x. The second runs over a 4 x 4 grid of blocks of
  128 rows: for row block i it accumulates, over the four column blocks j (each in four chunks of 32 rows), the sum over all 512
  rows s of exp (- sum over k of |M[k, o, r] - M[k, o, s]|); at j = 0 it zeroes the accumulator and copies the x block into
  columns 0 .. 1023 of its output block, at j = 3 it stores the accumulator minus one, transposed, into columns 1024 .. 1151.
  The reference computes the same projection by one matrix product, the pairwise distances, the exponentials, their sum over
  all rows minus one, and concatenates x with it.

  Frames. Each region's body is run on its staging buffers; the second region's proof data is relational, because its output
  block is stored in two parts at different grid points: it says what the stored rectangle holds and that the rest is kept, so
  that at the write-back after j = 3 every element is determined. The two windows that read M hold the one array at the two
  halves of its share. The word-level program and the idealized one have the same text, so the same frame proof serves both.

  Value. The final output array is one function of the arguments (`kernelOut`): the first region's output is the projection
  block by block, the accumulator after the four column blocks is the sum over the four blocks' 128 rows, and the output
  block's two rectangles partition it. That function equals the reference's term index by index: the two matrix products are
  the same sums by commutativity of the product, and the sum over 512 rows is the sum over 4 blocks of 4 chunks of 32 rows by
  associativity and commutativity of the sum of extended reals; no finiteness of the inputs is used.
  The idealization rewrote nothing, so `preserves` is trivial.
-/
import proofs.«178989_j33483565040179_2_alg».proof.Defs
import proofs.«178989_j33483565040179_2_alg».proof.Proof.Assemble
import proofs.«178989_j33483565040179_2_alg».proof.Proof.KernelFrame
import proofs.«178989_j33483565040179_2_alg».proof.Proof.KernelFrameK
import proofs.«178989_j33483565040179_2_alg».proof.Proof.KernelValue
import proofs.«178989_j33483565040179_2_alg».proof.Proof.Final

noncomputable section

namespace Cert.Proof

open Idealize.ShloMosaic Idealize.SL.Sem

/-- The idealized kernel's run ends with its output array at `kernelOut` of the two arguments, which end unchanged:
    the first region leaves the projection, the second region's write-backs then determine every output element. -/
theorem kernel_value : Asm.KernelRun := fun m ρ =>
  Cert.KernelIdeal.Asm.run_value_of Cert.KernelIdeal.Final.kernelOut'
    (fun x tt => Cert.KernelIdeal.Final.kernelOut_eq x tt)
    (fun V c => Cert.KernelIdeal.Final.final_M V c)
    (fun V c x M hx hM Fo h => Cert.KernelIdeal.Final.final_out V c x M hx hM Fo h) m ρ

/-- The certificate's claim: the three frames, the (trivial) idealization, and the equality of the two programs' results. -/
theorem claim : Cert.Claim :=
  Asm.claim_of (fun m ρ _ => Cert.Kernel.Asm.frame (F := Bits) m ρ)
    (fun m ρ _ => Cert.KernelIdeal.Asm.frame (F := Ideal) m ρ) kernel_value

end Cert.Proof

end
